-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v4_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v8) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S256x128 : Shape := ⟨2, ![256, 128]⟩
abbrev S128 : Shape := ⟨1, ![128]⟩
abbrev S64x16 : Shape := ⟨2, ![64, 16]⟩
abbrev S16x64 : Shape := ⟨2, ![16, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S64x16 : S_.BroadcastsInDim S64x16 (![] : Fin 0 → Fin S64x16.rank)
  reducesTo_S64x16_S_d0_1 : S64x16.ReducesTo [0, 1] S_
  bcast_S_S16x64 : S_.BroadcastsInDim S16x64 (![] : Fin 0 → Fin S16x64.rank)
  reducesTo_S16x64_S_d0_1 : S16x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256x64 .f32) (main_arg12 : FVec F S64x16 .f32) (main_arg13 : FVec F S16x64 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S256x64 .f32 := Host.absf main_arg11
  let main_cst_20 : FVec F S_ .f32 := constant S_ .f32 0x7F800000#32
  let main_v55 : FVec F S256x64 .f32 := broadcastInDim S256x64 ![] bcast_S_S256x64 main_cst_20
  let main_v56 : IVec S256x64 1 := cmpf .olt main_v54 main_v55
  let main_c_21 : IVec S_ 1 := constantI S_ 1 1#1
  let main_v57 : IVec S_ 1 := (fun x v => Host.reduce IntOp.andi x v reducesTo_S256x64_S_d0_1 h_S_) main_v56 main_c_21
  let main_v58 : IVec S_ 1 := andi main_v53 main_v57
  let main_v59 : FVec F S64x16 .f32 := Host.absf main_arg12
  let main_cst_22 : FVec F S_ .f32 := constant S_ .f32 0x7F800000#32
  let main_v60 : FVec F S64x16 .f32 := broadcastInDim S64x16 ![] bcast_S_S64x16 main_cst_22
  let main_v61 : IVec S64x16 1 := cmpf .olt main_v59 main_v60
  let main_c_23 : IVec S_ 1 := constantI S_ 1 1#1
  let main_v62 : IVec S_ 1 := (fun x v => Host.reduce IntOp.andi x v reducesTo_S64x16_S_d0_1 h_S_) main_v61 main_c_23
  let main_v63 : IVec S_ 1 := andi main_v58 main_v62
  let main_v64 : FVec F S16x64 .f32 := Host.absf main_arg13
  let main_cst_24 : FVec F S_ .f32 := constant S_ .f32 0x7F800000#32
  let main_v65 : FVec F S16x64 .f32 := broadcastInDim S16x64 ![] bcast_S_S16x64 main_cst_24
  let main_v66 : IVec S16x64 1 := cmpf .olt main_v64 main_v65
  let main_c_25 : IVec S_ 1 := constantI S_ 1 1#1
  let main_v67 : IVec S_ 1 := (fun x v => Host.reduce IntOp.andi x v reducesTo_S16x64_S_d0_1 h_S_) main_v66 main_c_25
  fn_part4 (F := F) main_v63 main_v67

def fn_part2 {F : FTy → Type} [FloatOps F] (main_arg7 : FVec F S256 .f32) (main_arg8 : FVec F S256x128 .f32) (main_arg9 : FVec F S128 .f32) (main_arg10 : FVec F S128x256 .f32) (main_arg11 : FVec F S256x64 .f32) (main_arg12 : FVec F S64x16 .f32) (main_arg13 : FVec F S16x64 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x256 .f32 := Host.absf main_arg10
  let main_cst_18 : FVec F S_ .f32 := constant S_ .f32 0x7F800000#32
  let main_v50 : FVec F S128x256 .f32 := broadcastInDim S128x256 ![] bcast_S_S128x256 main_cst_18
  fn_part3 (F := F) main_arg11 main_arg12 main_arg13 main_v48 main_v49 main_v50

def fn_part1 {F : FTy → Type} [FloatOps F] (main_arg4 : FVec F S256x64 .f32) (main_arg5 : FVec F S64 .f32) (main_arg6 : FVec F S64x256 .f32) (main_arg7 : FVec F S256 .f32) (main_arg8 : FVec F S256x128 .f32) (main_arg9 : FVec F S128 .f32) (main_arg10 : FVec F S128x256 .f32) (main_arg11 : FVec F S256x64 .f32) (main_arg12 : FVec F S64x16 .f32) (main_arg13 : FVec F S16x64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x256 .f32 := Host.absf main_arg6
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S10000x128 .f32) (main_arg1 : FVec F S10000x10000 .f32) (main_arg2 : FVec F S128x256 .f32) (main_arg3 : FVec F S256 .f32) (main_arg4 : FVec F S256x64 .f32) (main_arg5 : FVec F S64 .f32) (main_arg6 : FVec F S64x256 .f32) (main_arg7 : FVec F S256 .f32) (main_arg8 : FVec F S256x128 .f32) (main_arg9 : FVec F S128 .f32) (main_arg10 : FVec F S128x256 .f32) (main_arg11 : FVec F S256x64 .f32) (main_arg12 : FVec F S64x16 .f32) (main_arg13 : FVec F S16x64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_v13 main_v16
-- ==== Kernel.lean ====
abbrev S10000x128 : Shape := ⟨2, ![10000, 128]⟩
abbrev S10000x10000 : Shape := ⟨2, ![10000, 10000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S256x128 : Shape := ⟨2, ![256, 128]⟩
abbrev S128 : Shape := ⟨1, ![128]⟩
abbrev S64x16 : Shape := ⟨2, ![64, 16]⟩
abbrev S16x64 : Shape := ⟨2, ![16, 64]⟩
abbrev S1x256 : Shape := ⟨2, ![1, 256]⟩
abbrev S1x64 : Shape := ⟨2, ![1, 64]⟩
abbrev S1x128 : Shape := ⟨2, ![1, 128]⟩
abbrev S10000x16 : Shape := ⟨2, ![10000, 16]⟩
abbrev S10000x64 : Shape := ⟨2, ![10000, 64]⟩
abbrev S10000x256 : Shape := ⟨2, ![10000, 256]⟩
abbrev S2000x128 : Shape := ⟨2, ![2000, 128]⟩
abbrev S2000x16 : Shape := ⟨2, ![2000, 16]⟩
abbrev S2000x64 : Shape := ⟨2, ![2000, 64]⟩
abbrev S2000x256 : Shape := ⟨2, ![2000, 256]⟩
abbrev S2000 : Shape := ⟨1, ![2000]⟩
abbrev S2000x1 : Shape := ⟨2, ![2000, 1]⟩
abbrev S16 : Shape := ⟨1, ![16]⟩
abbrev S1x16 : Shape := ⟨2, ![1, 16]⟩
abbrev S80x10000 : Shape := ⟨2, ![80, 10000]⟩
abbrev S80x256 : Shape := ⟨2, ![80, 256]⟩
abbrev S80x64 : Shape := ⟨2, ![80, 64]⟩
abbrev S400x10000 : Shape := ⟨2, ![400, 10000]⟩
abbrev S400x64 : Shape := ⟨2, ![400, 64]⟩
abbrev S400x16 : Shape := ⟨2, ![400, 16]⟩
abbrev S400 : Shape := ⟨1, ![400]⟩
abbrev S400x1 : Shape := ⟨2, ![400, 1]⟩

abbrev nBuf : Space → Nat
  | .hbm => 27
  | .vmem => 45
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S64x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x256, .f32⟩
  | .hbm, ⟨11, _⟩ => ⟨S256x64, .f32⟩
  | .hbm, ⟨12, _⟩ => ⟨S64x16, .f32⟩
  | .hbm, ⟨13, _⟩ => ⟨S16x64, .f32⟩
  | .hbm, ⟨14, _⟩ => ⟨S1x256, .f32⟩
  | .hbm, ⟨15, _⟩ => ⟨S1x64, .f32⟩
  | .hbm, ⟨16, _⟩ => ⟨S1x256, .f32⟩
  | .hbm, ⟨17, _⟩ => ⟨S1x128, .f32⟩
  | .hbm, ⟨18, _⟩ => ⟨S10000x128, .f32⟩
  | .hbm, ⟨19, _⟩ => ⟨S10000x16, .f32⟩
  | .hbm, ⟨20, _⟩ => ⟨S10000x64, .f32⟩
  | .hbm, ⟨21, _⟩ => ⟨S10000x256, .f32⟩
  | .hbm, ⟨22, _⟩ => ⟨S10000x256, .bf16⟩
  | .hbm, ⟨23, _⟩ => ⟨S10000x10000, .bf16⟩
  | .hbm, ⟨24, _⟩ => ⟨S10000x64, .bf16⟩
  | .hbm, ⟨25, _⟩ => ⟨S10000x16, .bf16⟩
  | .hbm, ⟨26, _⟩ => ⟨S10000x16, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S256x64, .f32⟩
  | .local _ .vmem, ⟨5, _⟩ => ⟨S1x64, .f32⟩
  | .local _ .vmem, ⟨6, _⟩ => ⟨S64x256, .f32⟩
  | .local _ .vmem, ⟨7, _⟩ => ⟨S1x256, .f32⟩
  | .local _ .vmem, ⟨8, _⟩ => ⟨S256x128, .f32⟩
  | .local _ .vmem, ⟨9, _⟩ => ⟨S1x128, .f32⟩
  | .local _ .vmem, ⟨10, _⟩ => ⟨S128x256, .f32⟩
  | .local _ .vmem, ⟨11, _⟩ => ⟨S16x64, .f32⟩
  | .local _ .vmem, ⟨12, _⟩ => ⟨S2000x128, .f32⟩
  | .local _ .vmem, ⟨13, _⟩ => ⟨S2000x128, .f32⟩
  | .local _ .vmem, ⟨14, _⟩ => ⟨S2000x16, .f32⟩
  | .local _ .vmem, ⟨15, _⟩ => ⟨S2000x16, .f32⟩
  | .local _ .vmem, ⟨16, _⟩ => ⟨S2000x64, .f32⟩
  | .local _ .vmem, ⟨17, _⟩ => ⟨S2000x64, .f32⟩
  | .local _ .vmem, ⟨18, _⟩ => ⟨S2000x256, .f32⟩
  | .local _ .vmem, ⟨19, _⟩ => ⟨S2000x256, .f32⟩
  | .local _ .vmem, ⟨20, _⟩ => ⟨S2000x256, .bf16⟩
  | .local _ .vmem, ⟨21, _⟩ => ⟨S2000x256, .bf16⟩
  | .local _ .vmem, ⟨22, _⟩ => ⟨S80x10000, .f32⟩
  | .local _ .vmem, ⟨23, _⟩ => ⟨S80x10000, .f32⟩
  | .local _ .vmem, ⟨24, _⟩ => ⟨S10000x256, .bf16⟩
  | .local _ .vmem, ⟨25, _⟩ => ⟨S80x256, .f32⟩
  | .local _ .vmem, ⟨26, _⟩ => ⟨S80x256, .f32⟩
  | .local _ .vmem, ⟨27, _⟩ => ⟨S256x64, .f32⟩
  | .local _ .vmem, ⟨28, _⟩ => ⟨S80x10000, .bf16⟩
  | .local _ .vmem, ⟨29, _⟩ => ⟨S80x10000, .bf16⟩
  | .local _ .vmem, ⟨30, _⟩ => ⟨S80x64, .bf16⟩
  | .local _ .vmem, ⟨31, _⟩ => ⟨S80x64, .bf16⟩
  | .local _ .vmem, ⟨32, _⟩ => ⟨S400x10000, .bf16⟩
  | .local _ .vmem, ⟨33, _⟩ => ⟨S400x10000, .bf16⟩
  | .local _ .vmem, ⟨34, _⟩ => ⟨S10000x64, .bf16⟩
  | .local _ .vmem, ⟨35, _⟩ => ⟨S400x64, .f32⟩
  | .local _ .vmem, ⟨36, _⟩ => ⟨S400x64, .f32⟩
  | .local _ .vmem, ⟨37, _⟩ => ⟨S64x16, .f32⟩
  | .local _ .vmem, ⟨38, _⟩ => ⟨S400x16, .bf16⟩
  | .local _ .vmem, ⟨39, _⟩ => ⟨S400x16, .bf16⟩
  | .local _ .vmem, ⟨40, _⟩ => ⟨S400x10000, .bf16⟩
  | .local _ .vmem, ⟨41, _⟩ => ⟨S400x10000, .bf16⟩
  | .local _ .vmem, ⟨42, _⟩ => ⟨S10000x16, .bf16⟩
  | .local _ .vmem, ⟨43, _⟩ => ⟨S400x16, .f32⟩
  | .local _ .vmem, ⟨44, _⟩ => ⟨S400x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v4_2 : Ref sig .tc := ⟨.hbm, 20, rfl⟩
abbrev main_v4_3 : Ref sig .tc := ⟨.hbm, 21, rfl⟩
abbrev main_v4_4 : Ref sig .tc := ⟨.hbm, 22, rfl⟩
abbrev main_v5_0 : Ref sig .tc := ⟨.hbm, 23, rfl⟩
abbrev main_v5_1 : Ref sig .tc := ⟨.hbm, 24, rfl⟩
abbrev main_v6 : Ref sig .tc := ⟨.hbm, 25, rfl⟩
abbrev main_v7 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg2_0 : Ref sig .tc := ⟨.vmem, 35, rfl⟩
abbrev cc2_stg2_1 : Ref sig .tc := ⟨.vmem, 36, rfl⟩
abbrev cc2_stg3_0 : Ref sig .tc := ⟨.vmem, 37, rfl⟩
abbrev cc2_stg4_0 : Ref sig .tc := ⟨.vmem, 38, rfl⟩
abbrev cc2_stg4_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg2_0 : Ref sig .tc := ⟨.vmem, 43, rfl⟩
abbrev cc3_stg2_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc1_sem0_0 : DmaSem sig := 22
abbrev cc1_sem0_1 : DmaSem sig := 23
abbrev cc1_sem1_0 : DmaSem sig := 24
abbrev cc1_sem2_0 : DmaSem sig := 25
abbrev cc1_sem2_1 : DmaSem sig := 26
abbrev cc1_sem3_0 : DmaSem sig := 27
abbrev cc1_sem4_0 : DmaSem sig := 28
abbrev cc1_sem4_1 : DmaSem sig := 29
abbrev cc1_sem5_0 : DmaSem sig := 30
abbrev cc1_sem5_1 : DmaSem sig := 31
abbrev cc2_sem0_0 : DmaSem sig := 32
abbrev cc2_sem0_1 : DmaSem sig := 33
abbrev cc2_sem1_0 : DmaSem sig := 34
abbrev cc2_sem2_0 : DmaSem sig := 35
abbrev cc2_sem2_1 : DmaSem sig := 36
abbrev cc2_sem3_0 : DmaSem sig := 37
abbrev cc2_sem4_0 : DmaSem sig := 38
abbrev cc2_sem4_1 : DmaSem sig := 39
abbrev cc3_sem0_0 : DmaSem sig := 40
abbrev cc3_sem0_1 : DmaSem sig := 41
abbrev cc3_sem1_0 : DmaSem sig := 42
abbrev cc3_sem2_0 : DmaSem sig := 43
abbrev cc3_sem2_1 : DmaSem sig := 44

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2000x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2000x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2000x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S80x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S80x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S80x10000 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S80x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x16 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  shapeCasts_S256_S1x256 : S256.ShapeCasts S1x256
  shapeCasts_S64_S1x64 : S64.ShapeCasts S1x64
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x256_S64x256_0_0 : ∀ a, (![0, 0] : Fin 2 → Nat) a + S64x256.size a ≤ S64x256.size a
  h_S64x256 : 0 < S64x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S16x64_S16x64_0_0 : ∀ a, (![0, 0] : Fin 2 → Nat) a + S16x64.size a ≤ S16x64.size a
  h_S16x64 : 0 < S16x64.numel
  reduces_S2000x64_S2000 : S2000x64.Reduces [1] S2000
  shapeCasts_S2000_S2000x1 : S2000.ShapeCasts S2000x1
  reduces_S16x64_S16 : S16x64.Reduces [1] S16
  shapeCasts_S16_S1x16 : S16.ShapeCasts S1x16
  broadcasts_S2000x1_S2000x16 : S2000x1.Broadcasts S2000x16
  broadcasts_S1x16_S2000x16 : S1x16.Broadcasts S2000x16
  reduces_S2000x16_S2000 : S2000x16.Reduces [1] S2000
  inb_S2000x16_S2000x16_0_0 : ∀ a, (![0, 0] : Fin 2 → Nat) a + S2000x16.size a ≤ S2000x16.size a
  h_S2000x16 : 0 < S2000x16.numel
  inb_S2000x64_S2000x64_0_0 : ∀ a, (![0, 0] : Fin 2 → Nat) a + S2000x64.size a ≤ S2000x64.size a
  h_S2000x64 : 0 < S2000x64.numel
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  packedbf16_S2000x256_S2000x256_0_0 : (Rect.unit (s := S2000x256) ![0, 0] S2000x256.size inb_S2000x256_S2000x256_0_0).PackedRows (EltTy.packing .bf16)
  inb_S80x10000_S80x10000_0_0 : ∀ a, (![0, 0] : Fin 2 → Nat) a + S80x10000.size a ≤ S80x10000.size a
  h_S80x10000 : 0 < S80x10000.numel
  packedbf16_S80x10000_S80x10000_0_0 : (Rect.unit (s := S80x10000) ![0, 0] S80x10000.size inb_S80x10000_S80x10000_0_0).PackedRows (EltTy.packing .bf16)
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S80x256_S80x256_0_0 : ∀ a, (![0, 0] : Fin 2 → Nat) a + S80x256.size a ≤ S80x256.size a
  h_S80x256 : 0 < S80x256.numel
  shapeCasts_S80x256_S80x256 : S80x256.ShapeCasts S80x256
  inb_S80x64_S80x64_0_0 : ∀ a, (![0, 0] : Fin 2 → Nat) a + S80x64.size a ≤ S80x64.size a
  h_S80x64 : 0 < S80x64.numel
  packedbf16_S80x64_S80x64_0_0 : (Rect.unit (s := S80x64) ![0, 0] S80x64.size inb_S80x64_S80x64_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x64_S400x64_0_0 : ∀ a, (![0, 0] : Fin 2 → Nat) a + S400x64.size a ≤ S400x64.size a
  h_S400x64 : 0 < S400x64.numel
  shapeCasts_S400x64_S400x64 : S400x64.ShapeCasts S400x64
  inb_S64x16_S64x16_0_0 : ∀ a, (![0, 0] : Fin 2 → Nat) a + S64x16.size a ≤ S64x16.size a
  h_S64x16 : 0 < S64x16.numel
  inb_S400x16_S400x16_0_0 : ∀ a, (![0, 0] : Fin 2 → Nat) a + S400x16.size a ≤ S400x16.size a
  h_S400x16 : 0 < S400x16.numel
  packedbf16_S400x16_S400x16_0_0 : (Rect.unit (s := S400x16) ![0, 0] S400x16.size inb_S400x16_S400x16_0_0).PackedRows (EltTy.packing .bf16)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  reduces_S400x16_S400 : S400x16.Reduces [1] S400
  shapeCasts_S400_S400x1 : S400.ShapeCasts S400x1
  broadcasts_S400x1_S400x16 : S400x1.Broadcasts S400x16
  dot_S2000x128_S128x256_S2000x256_1_0_0_1_n_n_wf : DotDims.WF S2000x128 S128x256 S2000x256 [1] [0] [0] [1] [] []
  dot_S2000x256_S256x64_S2000x64_1_0_0_1_n_n_wf : DotDims.WF S2000x256 S256x64 S2000x64 [1] [0] [0] [1] [] []
  dot_S2000x64_S64x256_S2000x256_1_0_0_1_n_n_wf : DotDims.WF S2000x64 S64x256 S2000x256 [1] [0] [0] [1] [] []
  dot_S2000x256_S256x128_S2000x128_1_0_0_1_n_n_wf : DotDims.WF S2000x256 S256x128 S2000x128 [1] [0] [0] [1] [] []
  dot_S2000x64_S16x64_S2000x16_1_1_0_0_n_n_wf : DotDims.WF S2000x64 S16x64 S2000x16 [1] [1] [0] [0] [] []
  dot_S80x10000_S10000x256_S80x256_1_0_0_1_n_n_wf : DotDims.WF S80x10000 S10000x256 S80x256 [1] [0] [0] [1] [] []
  dot_S80x256_S256x64_S80x64_1_0_0_1_n_n_wf : DotDims.WF S80x256 S256x64 S80x64 [1] [0] [0] [1] [] []
  dot_S400x10000_S10000x64_S400x64_1_0_0_1_n_n_wf : DotDims.WF S400x10000 S10000x64 S400x64 [1] [0] [0] [1] [] []
  dot_S400x64_S64x16_S400x16_1_0_0_1_n_n_wf : DotDims.WF S400x64 S64x16 S400x16 [1] [0] [0] [1] [] []
  dot_S400x10000_S10000x16_S400x16_1_0_0_1_n_n_wf : DotDims.WF S400x10000 S10000x16 S400x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x256.size a ≤ S128x256.size a
  hwx0_9 : ∀ i : grid0.Coords, EltTy.bits .f32 = 32 ∨ (Rect.block (s := S128x256) S128x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x64.size a ≤ S16x64.size a
  hwx0_10 : ∀ i : grid0.Coords, EltTy.bits .f32 = 32 ∨ (Rect.block (s := S16x64) S16x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S10000x128.size a
  hwx0_11 : ∀ i : grid0.Coords, EltTy.bits .f32 = 32 ∨ (Rect.block (s := S10000x128) S2000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x16.size a ≤ S10000x16.size a
  hwx0_12 : ∀ i : grid0.Coords, EltTy.bits .f32 = 32 ∨ (Rect.block (s := S10000x16) S2000x16.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x64.size a ≤ S10000x64.size a
  hwx0_13 : ∀ i : grid0.Coords, EltTy.bits .f32 = 32 ∨ (Rect.block (s := S10000x64) S2000x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x256.size a ≤ S10000x256.size a
  hwx0_14 : ∀ i : grid0.Coords, EltTy.bits .f32 = 32 ∨ (Rect.block (s := S10000x256) S2000x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x256.size a ≤ S10000x256.size a
  hwx0_15 : ∀ i : grid0.Coords, EltTy.bits .bf16 = 32 ∨ (Rect.block (s := S10000x256) S2000x256.size (cc0_transform_15 i) (hinb0_15 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S80x10000.size a ≤ S10000x10000.size a
  hwx1_0 : ∀ i : grid1.Coords, EltTy.bits .f32 = 32 ∨ (Rect.block (s := S10000x10000) S80x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S80x256.size a ≤ S10000x256.size a
  hwx1_2 : ∀ i : grid1.Coords, EltTy.bits .f32 = 32 ∨ (Rect.block (s := S10000x256) S80x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S80x10000.size a ≤ S10000x10000.size a
  hwx1_4 : ∀ i : grid1.Coords, EltTy.bits .bf16 = 32 ∨ (Rect.block (s := S10000x10000) S80x10000.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S80x64.size a ≤ S10000x64.size a
  hwx1_5 : ∀ i : grid1.Coords, EltTy.bits .bf16 = 32 ∨ (Rect.block (s := S10000x64) S80x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .bf16 = 32 ∨ (Rect.block (s := S10000x64) S10000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x64.size a ≤ S10000x64.size a
  hwx2_2 : ∀ i : grid2.Coords, EltTy.bits .f32 = 32 ∨ (Rect.block (s := S10000x64) S400x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x16.size a ≤ S64x16.size a
  hwx2_3 : ∀ i : grid2.Coords, EltTy.bits .f32 = 32 ∨ (Rect.block (s := S64x16) S64x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x16.size a ≤ S10000x16.size a
  hwx2_4 : ∀ i : grid2.Coords, EltTy.bits .bf16 = 32 ∨ (Rect.block (s := S10000x16) S400x16.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .bf16 = 32 ∨ (Rect.block (s := S10000x16) S10000x16.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x16.size a ≤ S10000x16.size a
  hwx3_2 : ∀ i : grid3.Coords, EltTy.bits .f32 = 32 ∨ (Rect.block (s := S10000x16) S400x16.size (cc3_transform_2 i) (hinb3_2 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x64_S16x64_S2000x16_1_1_0_0_n_n : DotDims S2000x64 S16x64 S2000x16 where
  lhsContracting := [1]
  rhsContracting := [1]
  lhsNonContracting := [0]
  rhsNonContracting := [0]
  lhsBatch := []
  rhsBatch := []
  wf := dot_S2000x64_S16x64_S2000x16_1_1_0_0_n_n_wf
def dot_S80x10000_S10000x256_S80x256_1_0_0_1_n_n : DotDims S80x10000 S10000x256 S80x256 where
  lhsContracting := [1]
  rhsContracting := [0]
  lhsNonContracting := [0]
  rhsNonContracting := [1]
  lhsBatch := []
  rhsBatch := []
  wf := dot_S80x10000_S10000x256_S80x256_1_0_0_1_n_n_wf
def dot_S80x256_S256x64_S80x64_1_0_0_1_n_n : DotDims S80x256 S256x64 S80x64 where
  lhsContracting := [1]
  rhsContracting := [0]
  lhsNonContracting := [0]
  rhsNonContracting := [1]
  lhsBatch := []
  rhsBatch := []
  wf := dot_S80x256_S256x64_S80x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x16_S400x16_1_0_0_1_n_n : DotDims S400x64 S64x16 S400x16 where
  lhsContracting := [1]
  rhsContracting := [0]
  lhsNonContracting := [0]
  rhsNonContracting := [1]
  lhsBatch := []
  rhsBatch := []
  wf := dot_S400x64_S64x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S16x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4_0) S2000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_1) S2000x16.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v4_2) S2000x64.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v4_3) S2000x256.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v4_4) S2000x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_arg1) S80x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_4) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4_3) S80x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5_0) S80x10000.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5_1) S80x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v5_0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5_1) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4_2) S400x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S64x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S400x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v5_0) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v7) S400x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S256x128 : Shape := ⟨2, ![256, 128]⟩
abbrev S128 : Shape := ⟨1, ![128]⟩
abbrev S64x16 : Shape := ⟨2, ![64, 16]⟩
abbrev S16x64 : Shape := ⟨2, ![16, 64]⟩
abbrev S10000x256 : Shape := ⟨2, ![10000, 256]⟩
abbrev S1x256 : Shape := ⟨2, ![1, 256]⟩
abbrev S_ : Shape := ⟨0, ![]⟩
abbrev S10000x64 : Shape := ⟨2, ![10000, 64]⟩
abbrev S1x64 : Shape := ⟨2, ![1, 64]⟩
abbrev S1x128 : Shape := ⟨2, ![1, 128]⟩
abbrev S10000x16 : Shape := ⟨2, ![10000, 16]⟩
abbrev S10000 : Shape := ⟨1, ![10000]⟩
abbrev S10000x1 : Shape := ⟨2, ![10000, 1]⟩
abbrev S10000x1x64 : Shape := ⟨3, ![10000, 1, 64]⟩
abbrev S1x16x64 : Shape := ⟨3, ![1, 16, 64]⟩
abbrev S10000x16x64 : Shape := ⟨3, ![10000, 16, 64]⟩

abbrev nBuf : Space → Nat
  | .hbm => 101
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S64x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x256, .f32⟩
  | .hbm, ⟨11, _⟩ => ⟨S256x64, .f32⟩
  | .hbm, ⟨12, _⟩ => ⟨S64x16, .f32⟩
  | .hbm, ⟨13, _⟩ => ⟨S16x64, .f32⟩
  | .hbm, ⟨14, _⟩ => ⟨S10000x256, .f32⟩
  | .hbm, ⟨15, _⟩ => ⟨S1x256, .f32⟩
  | .hbm, ⟨16, _⟩ => ⟨S10000x256, .f32⟩
  | .hbm, ⟨17, _⟩ => ⟨S10000x256, .f32⟩
  | .hbm, ⟨18, _⟩ => ⟨S_, .f32⟩
  | .hbm, ⟨19, _⟩ => ⟨S10000x256, .f32⟩
  | .hbm, ⟨20, _⟩ => ⟨S10000x256, .f32⟩
  | .hbm, ⟨21, _⟩ => ⟨S10000x64, .f32⟩
  | .hbm, ⟨22, _⟩ => ⟨S1x64, .f32⟩
  | .hbm, ⟨23, _⟩ => ⟨S10000x64, .f32⟩
  | .hbm, ⟨24, _⟩ => ⟨S10000x64, .f32⟩
  | .hbm, ⟨25, _⟩ => ⟨S10000x256, .f32⟩
  | .hbm, ⟨26, _⟩ => ⟨S1x256, .f32⟩
  | .hbm, ⟨27, _⟩ => ⟨S10000x256, .f32⟩
  | .hbm, ⟨28, _⟩ => ⟨S10000x256, .f32⟩
  | .hbm, ⟨29, _⟩ => ⟨S_, .f32⟩
  | .hbm, ⟨30, _⟩ => ⟨S10000x256, .f32⟩
  | .hbm, ⟨31, _⟩ => ⟨S10000x256, .f32⟩
  | .hbm, ⟨32, _⟩ => ⟨S10000x128, .f32⟩
  | .hbm, ⟨33, _⟩ => ⟨S1x128, .f32⟩
  | .hbm, ⟨34, _⟩ => ⟨S10000x128, .f32⟩
  | .hbm, ⟨35, _⟩ => ⟨S10000x128, .f32⟩
  | .hbm, ⟨36, _⟩ => ⟨S10000x256, .f32⟩
  | .hbm, ⟨37, _⟩ => ⟨S10000x256, .f32⟩
  | .hbm, ⟨38, _⟩ => ⟨S_, .f32⟩
  | .hbm, ⟨39, _⟩ => ⟨S10000x256, .f32⟩
  | .hbm, ⟨40, _⟩ => ⟨S10000x256, .f32⟩
  | .hbm, ⟨41, _⟩ => ⟨S_, .f32⟩
  | .hbm, ⟨42, _⟩ => ⟨S10000x256, .f32⟩
  | .hbm, ⟨43, _⟩ => ⟨S10000x256, .f32⟩
  | .hbm, ⟨44, _⟩ => ⟨S_, .f32⟩
  | .hbm, ⟨45, _⟩ => ⟨S10000x256, .f32⟩
  | .hbm, ⟨46, _⟩ => ⟨S10000x256, .f32⟩
  | .hbm, ⟨47, _⟩ => ⟨S10000x256, .f32⟩
  | .hbm, ⟨48, _⟩ => ⟨S10000x64, .f32⟩
  | .hbm, ⟨49, _⟩ => ⟨S10000x64, .f32⟩
  | .hbm, ⟨50, _⟩ => ⟨S_, .f32⟩
  | .hbm, ⟨51, _⟩ => ⟨S10000x64, .f32⟩
  | .hbm, ⟨52, _⟩ => ⟨S10000x64, .f32⟩
  | .hbm, ⟨53, _⟩ => ⟨S_, .f32⟩
  | .hbm, ⟨54, _⟩ => ⟨S10000x64, .f32⟩
  | .hbm, ⟨55, _⟩ => ⟨S10000x64, .f32⟩
  | .hbm, ⟨56, _⟩ => ⟨S_, .f32⟩
  | .hbm, ⟨57, _⟩ => ⟨S10000x64, .f32⟩
  | .hbm, ⟨58, _⟩ => ⟨S10000x64, .f32⟩
  | .hbm, ⟨59, _⟩ => ⟨S10000x64, .f32⟩
  | .hbm, ⟨60, _⟩ => ⟨S10000x16, .f32⟩
  | .hbm, ⟨61, _⟩ => ⟨S10000x16, .f32⟩
  | .hbm, ⟨62, _⟩ => ⟨S_, .f32⟩
  | .hbm, ⟨63, _⟩ => ⟨S10000, .f32⟩
  | .hbm, ⟨64, _⟩ => ⟨S_, .f32⟩
  | .hbm, ⟨65, _⟩ => ⟨S10000, .f32⟩
  | .hbm, ⟨66, _⟩ => ⟨S10000, .f32⟩
  | .hbm, ⟨67, _⟩ => ⟨S10000x1, .f32⟩
  | .hbm, ⟨68, _⟩ => ⟨S10000x16, .f32⟩
  | .hbm, ⟨69, _⟩ => ⟨S10000x16, .f32⟩
  | .hbm, ⟨70, _⟩ => ⟨S10000x16, .f32⟩
  | .hbm, ⟨71, _⟩ => ⟨S_, .f32⟩
  | .hbm, ⟨72, _⟩ => ⟨S10000, .f32⟩
  | .hbm, ⟨73, _⟩ => ⟨S10000x1, .f32⟩
  | .hbm, ⟨74, _⟩ => ⟨S10000x16, .f32⟩
  | .hbm, ⟨75, _⟩ => ⟨S10000x16, .f32⟩
  | .hbm, ⟨76, _⟩ => ⟨S10000x1x64, .f32⟩
  | .hbm, ⟨77, _⟩ => ⟨S1x16x64, .f32⟩
  | .hbm, ⟨78, _⟩ => ⟨S10000x16x64, .f32⟩
  | .hbm, ⟨79, _⟩ => ⟨S10000x16x64, .f32⟩
  | .hbm, ⟨80, _⟩ => ⟨S10000x16x64, .f32⟩
  | .hbm, ⟨81, _⟩ => ⟨S10000x16x64, .f32⟩
  | .hbm, ⟨82, _⟩ => ⟨S_, .f32⟩
  | .hbm, ⟨83, _⟩ => ⟨S10000x16, .f32⟩
  | .hbm, ⟨84, _⟩ => ⟨S_, .f32⟩
  | .hbm, ⟨85, _⟩ => ⟨S10000x16, .f32⟩
  | .hbm, ⟨86, _⟩ => ⟨S10000x16, .f32⟩
  | .hbm, ⟨87, _⟩ => ⟨S_, .f32⟩
  | .hbm, ⟨88, _⟩ => ⟨S10000x16, .f32⟩
  | .hbm, ⟨89, _⟩ => ⟨S10000x16, .f32⟩
  | .hbm, ⟨90, _⟩ => ⟨S_, .f32⟩
  | .hbm, ⟨91, _⟩ => ⟨S10000x16, .f32⟩
  | .hbm, ⟨92, _⟩ => ⟨S10000x16, .f32⟩
  | .hbm, ⟨93, _⟩ => ⟨S_, .f32⟩
  | .hbm, ⟨94, _⟩ => ⟨S10000x16, .f32⟩
  | .hbm, ⟨95, _⟩ => ⟨S10000x16, .f32⟩
  | .hbm, ⟨96, _⟩ => ⟨S_, .f32⟩
  | .hbm, ⟨97, _⟩ => ⟨S10000, .f32⟩
  | .hbm, ⟨98, _⟩ => ⟨S10000x1, .f32⟩
  | .hbm, ⟨99, _⟩ => ⟨S10000x16, .f32⟩
  | .hbm, ⟨100, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_cst : Ref sig .tc := ⟨.hbm, 29, rfl⟩
abbrev main_call1_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call2_cst : Ref sig .tc := ⟨.hbm, 38, rfl⟩
abbrev main_call2_v0 : Ref sig .tc := ⟨.hbm, 39, rfl⟩
abbrev main_v20 : Ref sig .tc := ⟨.hbm, 40, rfl⟩
abbrev main_cst : Ref sig .tc := ⟨.hbm, 41, rfl⟩
abbrev main_v21 : Ref sig .tc := ⟨.hbm, 42, rfl⟩
abbrev main_v22 : Ref sig .tc := ⟨.hbm, 43, rfl⟩
abbrev main_cst_0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call3_cst : Ref sig .tc := ⟨.hbm, 50, rfl⟩
abbrev main_call3_v0 : Ref sig .tc := ⟨.hbm, 51, rfl⟩
abbrev main_v28 : Ref sig .tc := ⟨.hbm, 52, rfl⟩
abbrev main_cst_1 : Ref sig .tc := ⟨.hbm, 53, rfl⟩
abbrev main_v29 : Ref sig .tc := ⟨.hbm, 54, rfl⟩
abbrev main_v30 : Ref sig .tc := ⟨.hbm, 55, rfl⟩
abbrev main_cst_2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_3 : Ref sig .tc := ⟨.hbm, 62, rfl⟩
abbrev main_v36 : Ref sig .tc := ⟨.hbm, 63, rfl⟩
abbrev main_cst_4 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_5 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_6 : Ref sig .tc := ⟨.hbm, 82, rfl⟩
abbrev main_v53 : Ref sig .tc := ⟨.hbm, 83, rfl⟩
abbrev main_cst_7 : Ref sig .tc := ⟨.hbm, 84, rfl⟩
abbrev main_v54 : Ref sig .tc := ⟨.hbm, 85, rfl⟩
abbrev main_v55 : Ref sig .tc := ⟨.hbm, 86, rfl⟩
abbrev main_cst_8 : Ref sig .tc := ⟨.hbm, 87, rfl⟩
abbrev main_v56 : Ref sig .tc := ⟨.hbm, 88, rfl⟩
abbrev main_v57 : Ref sig .tc := ⟨.hbm, 89, rfl⟩
abbrev main_cst_9 : Ref sig .tc := ⟨.hbm, 90, rfl⟩
abbrev main_v58 : Ref sig .tc := ⟨.hbm, 91, rfl⟩
abbrev main_v59 : Ref sig .tc := ⟨.hbm, 92, rfl⟩
abbrev main_cst_10 : Ref sig .tc := ⟨.hbm, 93, rfl⟩
abbrev main_v60 : Ref sig .tc := ⟨.hbm, 94, rfl⟩
abbrev main_v61 : Ref sig .tc := ⟨.hbm, 95, rfl⟩
abbrev main_cst_11 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x64 : S_.BroadcastsInDim S10000x64 (![] : Fin 0 → Fin S10000x64.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  bcast_S10000x64_S10000x1x64_0_2 : S10000x64.BroadcastsInDim S10000x1x64 (![0, 2] : Fin 2 → Fin S10000x1x64.rank)
  bcast_S16x64_S1x16x64_1_2 : S16x64.BroadcastsInDim S1x16x64 (![1, 2] : Fin 2 → Fin S1x16x64.rank)
  bcast_S10000x1x64_S10000x16x64_0_1_2 : S10000x1x64.BroadcastsInDim S10000x16x64 (![0, 1, 2] : Fin 3 → Fin S10000x16x64.rank)
  bcast_S1x16x64_S10000x16x64_0_1_2 : S1x16x64.BroadcastsInDim S10000x16x64 (![0, 1, 2] : Fin 3 → Fin S10000x16x64.rank)
  reducesTo_S10000x16x64_S10000x16_d2 : S10000x16x64.ReducesTo [2] S10000x16
  bcast_S_S10000x16 : S_.BroadcastsInDim S10000x16 (![] : Fin 0 → Fin S10000x16.rank)
  dot_S10000x128_S128x256_S10000x256_1_0_0_1_n_n_wf : DotDims.WF S10000x128 S128x256 S10000x256 [1] [0] [0] [1] [] []
  dot_S10000x256_S256x64_S10000x64_1_0_0_1_n_n_wf : DotDims.WF S10000x256 S256x64 S10000x64 [1] [0] [0] [1] [] []
  dot_S10000x64_S64x256_S10000x256_1_0_0_1_n_n_wf : DotDims.WF S10000x64 S64x256 S10000x256 [1] [0] [0] [1] [] []
  dot_S10000x256_S256x128_S10000x128_1_0_0_1_n_n_wf : DotDims.WF S10000x256 S256x128 S10000x128 [1] [0] [0] [1] [] []
  dot_S10000x10000_S10000x256_S10000x256_1_0_0_1_n_n_wf : DotDims.WF S10000x10000 S10000x256 S10000x256 [1] [0] [0] [1] [] []
  dot_S10000x10000_S10000x64_S10000x64_1_0_0_1_n_n_wf : DotDims.WF S10000x10000 S10000x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def dot_S10000x64_S64x256_S10000x256_1_0_0_1_n_n : DotDims S10000x64 S64x256 S10000x256 where
  lhsContracting := [1]
  rhsContracting := [0]
  lhsNonContracting := [0]
  rhsNonContracting := [1]
  lhsBatch := []
  rhsBatch := []
  wf := dot_S10000x64_S64x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.Spec.lean ====
/-
  The forward pass of a structural deep clustering network on the extended reals, index by index.

  Every stage is a function of whole arrays read at an index. A matrix here is an array of shape [a, n], a vector an
  array of shape [n]; an entry is an extended real.

  * `prod L R` is the matrix product: entry (p, j) is the sum over q of L (p, q) · R (q, j).
  * `dense L R b` adds to it the vector b along every row; `denseRow L R B` adds the one-row matrix B instead.
  * `relu` is the maximum with the zero word, `mix` the half-and-half combination of two matrices (the word
    0x3F000000 on both), `softmax` the row-wise exponential of the entry minus the row's maximum (folded from the
    word 0xFF800000), over the row's sum of those exponentials.
  * `sqDist Z C` is the squared distance of row p of Z to row j of C summed coordinate by coordinate;
    `sqDistExpanded Z C` is the same number written as |z|² − 2·(z · c) + |c|².
  * `studentT d` is 1 / (1 + d) normalised over each row.
  The float words stay words: the same word on both sides of an equation is never evaluated.
-/
import Idealize.ShloMosaic.Lib.ValueIdx
import Idealize.ShloMosaic.PureOps.Ideal.Laws

noncomputable section

namespace Cert.Sdcn

open Idealize.ShloMosaic Idealize.ShloMosaic.ValueIdx

variable {a k n : ℕ}

/-- An [a, n] matrix of extended reals. -/
abbrev Mat (a n : ℕ) := FVec Ideal ⟨2, ![a, n]⟩ .f32
/-- An [n] vector of extended reals. -/
abbrev Vect (n : ℕ) := FVec Ideal ⟨1, ![n]⟩ .f32

/-- The words of the constants the two programs share. -/
abbrev zeroW : Ideal .f32 := Ideal.ofBits .f32 0x00000000#32
abbrev halfW : Ideal .f32 := Ideal.ofBits .f32 0x3F000000#32
abbrev oneW : Ideal .f32 := Ideal.ofBits .f32 0x3F800000#32
abbrev twoW : Ideal .f32 := Ideal.ofBits .f32 0x40000000#32
abbrev negInfW : Ideal .f32 := Ideal.ofBits .f32 0xFF800000#32

/-- The matrix product: entry (p, j) is the sum over q of L (p, q) · R (q, j). -/
def prod (L : Mat a k) (R : Mat k n) : Mat a n :=
  fun i => ∑ q : Fin k, L (ix2 (i 0) q) * R (ix2 q (i 1))

/-- The product plus a vector laid along every row. -/
def dense (L : Mat a k) (R : Mat k n) (b : Vect n) : Mat a n :=
  fun i => prod L R i + b (ix1 (i 1))

/-- The product plus a one-row matrix laid along every row. -/
def denseRow (L : Mat a k) (R : Mat k n) (B : Mat 1 n) : Mat a n :=
  fun i => prod L R i + B (ix2 (0 : Fin 1) (i 1))

/-- The rectifier: the maximum with the zero word. -/
def relu (X : Mat a n) : Mat a n := fun i => max (X i) zeroW

/-- Half of one matrix plus half of another. -/
def mix (H T : Mat a n) : Mat a n := fun i => halfW * H i + halfW * T i

/-- The maximum of row p, folded from the word of −∞. -/
def rowMax (L : Mat a n) (p : Fin a) : Ideal .f32 :=
  (Finset.univ : Finset (Fin n)).fold max negInfW (fun j => L (ix2 p j))

/-- Row-wise softmax: exp (entry − row maximum) over the row's sum of those. -/
def softmax (L : Mat a n) : Mat a n :=
  fun i => Ideal.div (Ideal.exp (L i - rowMax L (i 0)))
    (∑ j : Fin n, Ideal.exp (L (ix2 (i 0) j) - rowMax L (i 0)))

/-- Squared distance of row p of Z to row j of C, coordinate by coordinate. -/
def sqDist (Z : Mat a k) (C : Mat n k) : Mat a n :=
  fun i => ∑ q : Fin k, (Z (ix2 (i 0) q) - C (ix2 (i 1) q)) * (Z (ix2 (i 0) q) - C (ix2 (i 1) q))

/-- The same distance as |z|² − 2·(z · c) + |c|². -/
def sqDistExpanded (Z : Mat a k) (C : Mat n k) : Mat a n :=
  fun i => ((∑ q : Fin k, Z (ix2 (i 0) q) * Z (ix2 (i 0) q))
      - twoW * (∑ q : Fin k, Z (ix2 (i 0) q) * C (ix2 (i 1) q)))
    + ∑ q : Fin k, C (ix2 (i 1) q) * C (ix2 (i 1) q)

/-- The Student-t kernel 1 / (1 + d), normalised over each row. -/
def studentT (d : Mat a n) : Mat a n :=
  fun i => Ideal.div (Ideal.div oneW (oneW + d i))
    (∑ j : Fin n, Ideal.div oneW (oneW + d (ix2 (i 0) j)))

/-! ## The network -/

section Network

variable {N D E Zd K : ℕ}
variable (x : Mat N D) (adj : Mat N N) (We1 : Mat D E) (be1 : Vect E) (Wz : Mat E Zd) (bz : Vect Zd)
  (Wd1 : Mat Zd E) (bd1 : Vect E) (Wxb : Mat E D) (bxb : Vect D) (Wg1 : Mat D E) (Wg2 : Mat E Zd) (Wg3 : Mat Zd K)
  (cl : Mat K Zd)

/-- The encoder's hidden layer. -/
def hidden : Mat N E := relu (dense x We1 be1)
/-- The embedding. -/
def embed : Mat N Zd := dense (hidden x We1 be1) Wz bz
/-- The reconstruction. -/
def recon : Mat N D := dense (relu (dense (embed x We1 be1 Wz bz) Wd1 bd1)) Wxb bxb
/-- The graph branch's first, second and third feature matrices (before the adjacency product). -/
def feat1 : Mat N E := prod x Wg1
def feat2 : Mat N Zd := prod (mix (relu (prod adj (feat1 x Wg1))) (hidden x We1 be1)) Wg2
def feat3 : Mat N K :=
  prod (mix (relu (prod adj (feat2 x adj We1 be1 Wg1 Wg2))) (embed x We1 be1 Wz bz)) Wg3
/-- The graph branch's prediction. -/
def predict : Mat N K := softmax (prod adj (feat3 x adj We1 be1 Wz bz Wg1 Wg2 Wg3))
/-- The soft assignment, with the distance written out, and with it expanded. -/
def assign : Mat N K := studentT (sqDist (embed x We1 be1 Wz bz) cl)
def assignExpanded : Mat N K := studentT (sqDistExpanded (embed x We1 be1 Wz bz) cl)

end Network

end Cert.Sdcn

end
-- ==== Proof.RefSpec.lean ====
/-
  The reference program computes the network of the specification.

  Each array of the program is, entry by entry, the array the specification names: the encoder's hidden layer, the
  embedding, the reconstruction, the three graph features with their adjacency products, the softmax of the logits,
  the squared distances to the centres and the Student-t assignment. The equalities are stated for whole arrays and
  proved in program order, each from the ones before it.

  Three facts on the extended reals carry the steps that are not a plain reading. The word 0x3F800000 is the number 1,
  so dividing by it and raising to its power change no extended real, the infinities included. A sum started from the
  zero word is the sum. A maximum folded from the word of −∞ is not changed by one more maximum with that word. No
  other word is evaluated: the same word stands on both sides.
-/
import proofs.«117056_g54168127537287_cont_9to1c4b_553_2_alg».proof.Proof.Gen.ReferenceIdeal.Read
import proofs.«117056_g54168127537287_cont_9to1c4b_553_2_alg».proof.Proof.Spec

noncomputable section

namespace Cert.Sdcn.Ref

open Idealize.ShloMosaic Idealize.ShloMosaic.ValueIdx Cert.ReferenceIdeal

/-! ## The constants and three facts on the extended reals -/

/-- The word 0x3F800000 is the real number 1. -/
theorem oneW_eq : (Ideal.ofBits .f32 0x3F800000#32 : Ideal .f32) = 1 := by
  simp [Ideal.ofBits, Ideal.ieee, -EReal.coe_mul]; norm_num

/-- Dividing by the word of 1 changes no extended real, the two infinities included. -/
theorem div_oneW (d : Ideal .f32) : Ideal.div d (Ideal.ofBits .f32 0x3F800000#32) = d := by
  rw [oneW_eq, ← EReal.coe_one, Ideal.div_coe one_ne_zero]; simp

/-- Raising to the power of the word of 1 changes no extended real either. -/
theorem pow_oneW (t : Ideal .f32) : Ideal.pow t (Ideal.ofBits .f32 0x3F800000#32) = t := by
  rw [oneW_eq, ← EReal.coe_one]
  induction t using EReal.rec with
  | bot => rfl
  | top => simp
  | coe r => rw [Ideal.pow_coe_coe]; simp

/-- A maximum folded from a value is at least that value, so taking the maximum with it again changes nothing. -/
theorem max_fold_self {n : ℕ} (b : Ideal .f32) (f : Fin n → Ideal .f32) :
    max b ((Finset.univ : Finset (Fin n)).fold max b f) = (Finset.univ : Finset (Fin n)).fold max b f :=
  max_eq_right ((Finset.le_fold_max b).mpr (Or.inl le_rfl))

/-! ## Indices and the matrix product

An index of rank one, two or three is the tuple of its coordinates: two indices whose coordinates agree are equal. -/

/-- Two indices of rank one, two or three whose coordinates agree by computation are equal. -/
local macro "idx1" : tactic =>
  `(tactic| (intros; funext c; apply Fin.ext; match c with | ⟨0, _⟩ => rfl))
local macro "idx2" : tactic =>
  `(tactic| (intros; funext c; apply Fin.ext; match c with | ⟨0, _⟩ => rfl | ⟨1, _⟩ => rfl))
local macro "idx3" : tactic =>
  `(tactic| (intros; funext c; apply Fin.ext; match c with | ⟨0, _⟩ => rfl | ⟨1, _⟩ => rfl | ⟨2, _⟩ => rfl))

section Stage

variable {a k n : ℕ}

/-- An array whose entry (p, j) is read as the sum over q of L at (p, q) times R at (q, j) is the matrix product. -/
theorem prod_of_read (L : Mat a k) (R : Mat k n) (f : Mat a n)
    (li : (⟨2, ![a, n]⟩ : Shape).Idx → Fin k → (⟨2, ![a, k]⟩ : Shape).Idx)
    (ri : (⟨2, ![a, n]⟩ : Shape).Idx → Fin k → (⟨2, ![k, n]⟩ : Shape).Idx)
    (hf : ∀ i, f i = ∑ q : Fin k, L (li i q) * R (ri i q))
    (hl : ∀ i q, li i q = ix2 (i 0) q) (hr : ∀ i q, ri i q = ix2 q (i 1)) :
    f = prod L R := by
  funext i
  rw [hf i]
  simp only [hl, hr]
  rfl

end Stage

/-! ## The arrays of the program, in order -/

section Program

variable (x0 : Mat 10000 128) (x1 : Mat 10000 10000) (x2 : Mat 128 256) (x3 : Vect 256) (x4 : Mat 256 64)
  (x5 : Vect 64) (x6 : Mat 64 256) (x7 : Vect 256) (x8 : Mat 256 128) (x9 : Vect 128) (x10 : Mat 128 256)
  (x11 : Mat 256 64) (x12 : Mat 64 16) (x13 : Mat 16 64)

/-! ### The encoder and the decoder -/

theorem v0_eq : Read.val_main_v0 (F := Ideal) x0 x2 = prod x0 x2 :=
  prod_of_read x0 x2 _ Read.lidx_main_v0 Read.ridx_main_v0 (Read.val_main_v0_apply x0 x2) (by idx2) (by idx2)

theorem v3_eq : Read.val_main_v3 (F := Ideal) x0 x2 x3 = dense x0 x2 x3 := by
  funext i
  have e : Read.idx_main_v1 (Read.idx_main_v2 i) = ix1 (i 1) := by idx1
  rw [Read.val_main_v3_apply, v0_eq, Read.val_main_v2_apply, Read.val_main_v1_apply, e]
  rfl

/-- The encoder's hidden layer. -/
theorem hidden_eq : Read.val_main_v4 (F := Ideal) x0 x2 x3 = hidden x0 x2 x3 := by
  funext i
  rw [Read.val_main_v4_apply, v3_eq, Read.val_main_call0_v0_apply, Read.val_main_call0_cst_apply]
  rfl

theorem v5_eq : Read.val_main_v5 (F := Ideal) x0 x2 x3 x4 = prod (hidden x0 x2 x3) x4 := by
  rw [← hidden_eq]
  exact prod_of_read _ x4 _ Read.lidx_main_v5 Read.ridx_main_v5 (Read.val_main_v5_apply x0 x2 x3 x4) (by idx2) (by idx2)

/-- The embedding. -/
theorem embed_eq : Read.val_main_v8 (F := Ideal) x0 x2 x3 x4 x5 = embed x0 x2 x3 x4 x5 := by
  funext i
  have e : Read.idx_main_v6 (Read.idx_main_v7 i) = ix1 (i 1) := by idx1
  rw [Read.val_main_v8_apply, v5_eq, Read.val_main_v7_apply, Read.val_main_v6_apply, e]
  rfl

theorem v9_eq : Read.val_main_v9 (F := Ideal) x0 x2 x3 x4 x5 x6 = prod (embed x0 x2 x3 x4 x5) x6 := by
  rw [← embed_eq]
  exact prod_of_read _ x6 _ Read.lidx_main_v9 Read.ridx_main_v9 (Read.val_main_v9_apply x0 x2 x3 x4 x5 x6) (by idx2) (by idx2)

theorem v12_eq : Read.val_main_v12 (F := Ideal) x0 x2 x3 x4 x5 x6 x7 = dense (embed x0 x2 x3 x4 x5) x6 x7 := by
  funext i
  have e : Read.idx_main_v10 (Read.idx_main_v11 i) = ix1 (i 1) := by idx1
  rw [Read.val_main_v12_apply, v9_eq, Read.val_main_v11_apply, Read.val_main_v10_apply, e]
  rfl

theorem v13_eq : Read.val_main_v13 (F := Ideal) x0 x2 x3 x4 x5 x6 x7 = relu (dense (embed x0 x2 x3 x4 x5) x6 x7) := by
  funext i
  rw [Read.val_main_v13_apply, v12_eq, Read.val_main_call1_v0_apply, Read.val_main_call1_cst_apply]
  rfl

theorem v14_eq : Read.val_main_v14 (F := Ideal) x0 x2 x3 x4 x5 x6 x7 x8
    = prod (relu (dense (embed x0 x2 x3 x4 x5) x6 x7)) x8 := by
  rw [← v13_eq]
  exact prod_of_read _ x8 _ Read.lidx_main_v14 Read.ridx_main_v14 (Read.val_main_v14_apply x0 x2 x3 x4 x5 x6 x7 x8)
    (by idx2) (by idx2)

/-- The reconstruction. -/
theorem recon_eq : Read.val_main_v17 (F := Ideal) x0 x2 x3 x4 x5 x6 x7 x8 x9 = recon x0 x2 x3 x4 x5 x6 x7 x8 x9 := by
  funext i
  have e : Read.idx_main_v15 (Read.idx_main_v16 i) = ix1 (i 1) := by idx1
  rw [Read.val_main_v17_apply, v14_eq, Read.val_main_v16_apply, Read.val_main_v15_apply, e]
  rfl

/-! ### The graph branch -/

theorem v18_eq : Read.val_main_v18 (F := Ideal) x0 x10 = feat1 x0 x10 :=
  prod_of_read x0 x10 _ Read.lidx_main_v18 Read.ridx_main_v18 (Read.val_main_v18_apply x0 x10) (by idx2) (by idx2)

theorem v19_eq : Read.val_main_v19 (F := Ideal) x0 x1 x10 = prod x1 (feat1 x0 x10) := by
  rw [← v18_eq]
  exact prod_of_read x1 _ _ Read.lidx_main_v19 Read.ridx_main_v19 (Read.val_main_v19_apply x0 x1 x10) (by idx2) (by idx2)

theorem v20_eq : Read.val_main_v20 (F := Ideal) x0 x1 x10 = relu (prod x1 (feat1 x0 x10)) := by
  funext i
  rw [Read.val_main_v20_apply, v19_eq, Read.val_main_call2_v0_apply, Read.val_main_call2_cst_apply]
  rfl

theorem v25_eq : Read.val_main_v25 (F := Ideal) x0 x1 x2 x3 x10
    = mix (relu (prod x1 (feat1 x0 x10))) (hidden x0 x2 x3) := by
  funext i
  rw [Read.val_main_v25_apply, Read.val_main_v22_apply, Read.val_main_v24_apply, v20_eq, hidden_eq,
    Read.val_main_v21_apply, Read.val_main_v23_apply, Read.val_main_cst_apply, Read.val_main_cst_0_apply]
  rfl

theorem v26_eq : Read.val_main_v26 (F := Ideal) x0 x1 x2 x3 x10 x11 = feat2 x0 x1 x2 x3 x10 x11 := by
  show _ = prod (mix (relu (prod x1 (feat1 x0 x10))) (hidden x0 x2 x3)) x11
  rw [← v25_eq]
  exact prod_of_read _ x11 _ Read.lidx_main_v26 Read.ridx_main_v26 (Read.val_main_v26_apply x0 x1 x2 x3 x10 x11)
    (by idx2) (by idx2)

theorem v27_eq : Read.val_main_v27 (F := Ideal) x0 x1 x2 x3 x10 x11 = prod x1 (feat2 x0 x1 x2 x3 x10 x11) := by
  rw [← v26_eq]
  exact prod_of_read x1 _ _ Read.lidx_main_v27 Read.ridx_main_v27 (Read.val_main_v27_apply x0 x1 x2 x3 x10 x11)
    (by idx2) (by idx2)

theorem v28_eq : Read.val_main_v28 (F := Ideal) x0 x1 x2 x3 x10 x11 = relu (prod x1 (feat2 x0 x1 x2 x3 x10 x11)) := by
  funext i
  rw [Read.val_main_v28_apply, v27_eq, Read.val_main_call3_v0_apply, Read.val_main_call3_cst_apply]
  rfl

theorem v33_eq : Read.val_main_v33 (F := Ideal) x0 x1 x2 x3 x4 x5 x10 x11
    = mix (relu (prod x1 (feat2 x0 x1 x2 x3 x10 x11))) (embed x0 x2 x3 x4 x5) := by
  funext i
  rw [Read.val_main_v33_apply, Read.val_main_v30_apply, Read.val_main_v32_apply, v28_eq, embed_eq,
    Read.val_main_v29_apply, Read.val_main_v31_apply, Read.val_main_cst_1_apply, Read.val_main_cst_2_apply]
  rfl

theorem v34_eq : Read.val_main_v34 (F := Ideal) x0 x1 x2 x3 x4 x5 x10 x11 x12
    = feat3 x0 x1 x2 x3 x4 x5 x10 x11 x12 := by
  show _ = prod (mix (relu (prod x1 (feat2 x0 x1 x2 x3 x10 x11))) (embed x0 x2 x3 x4 x5)) x12
  rw [← v33_eq]
  exact prod_of_read _ x12 _ Read.lidx_main_v34 Read.ridx_main_v34
    (Read.val_main_v34_apply x0 x1 x2 x3 x4 x5 x10 x11 x12) (by idx2) (by idx2)

/-- The logits: the adjacency matrix times the third feature matrix. -/
theorem v35_eq : Read.val_main_v35 (F := Ideal) x0 x1 x2 x3 x4 x5 x10 x11 x12
    = prod x1 (feat3 x0 x1 x2 x3 x4 x5 x10 x11 x12) := by
  rw [← v34_eq]
  exact prod_of_read x1 _ _ Read.lidx_main_v35 Read.ridx_main_v35
    (Read.val_main_v35_apply x0 x1 x2 x3 x4 x5 x10 x11 x12) (by idx2) (by idx2)

/-! ### The softmax of the logits -/

/-- The row maximum: the fold of the maximum over a row's sixteen entries, from the word of −∞. -/
theorem v36_apply (i : S10000.Idx) : Read.val_main_v36 (F := Ideal) x0 x1 x2 x3 x4 x5 x10 x11 x12 i
    = rowMax (prod x1 (feat3 x0 x1 x2 x3 x4 x5 x10 x11 x12)) (i 0) := by
  have h : S10000x16.Reduces [1] S10000 := by decide
  unfold Read.val_main_v36
  rw [v35_eq, Host.reduce_eq_fold_single FloatOps.maximumf _ _ _ h _ i]
  have hl : ∀ j : Fin 16, h.lift i j = ix2 (i 0) j := by idx2
  have hf : ((prod x1 (feat3 x0 x1 x2 x3 x4 x5 x10 x11 x12)) ∘ h.lift i)
      = fun j : Fin 16 => (prod x1 (feat3 x0 x1 x2 x3 x4 x5 x10 x11 x12)) (ix2 (i 0) j) :=
    funext fun j => congrArg (prod x1 (feat3 x0 x1 x2 x3 x4 x5 x10 x11 x12)) (hl j)
  exact congrArg (fun f => Finset.fold max negInfW f (Finset.univ : Finset (Fin 16))) hf

/-- Taking the maximum with the word of −∞ once more changes nothing. -/
theorem v38_apply (i : S10000.Idx) : Read.val_main_v38 (F := Ideal) x0 x1 x2 x3 x4 x5 x10 x11 x12 i
    = rowMax (prod x1 (feat3 x0 x1 x2 x3 x4 x5 x10 x11 x12)) (i 0) := by
  rw [Read.val_main_v38_apply, v36_apply, Read.val_main_v37_apply, Read.val_main_cst_4_apply]
  exact max_fold_self _ _

theorem v42_apply (i : S10000x16.Idx) : Read.val_main_v42 (F := Ideal) x0 x1 x2 x3 x4 x5 x10 x11 x12 i
    = Ideal.exp (prod x1 (feat3 x0 x1 x2 x3 x4 x5 x10 x11 x12) i
        - rowMax (prod x1 (feat3 x0 x1 x2 x3 x4 x5 x10 x11 x12)) (i 0)) := by
  rw [Read.val_main_v42_apply, Read.val_main_v41_apply, v35_eq, Read.val_main_v40_apply, Read.val_main_v39_apply,
    v38_apply]
  rfl

/-- The graph branch's prediction. -/
theorem predict_eq : Read.val_main_v46 (F := Ideal) x0 x1 x2 x3 x4 x5 x10 x11 x12
    = predict x0 x1 x2 x3 x4 x5 x10 x11 x12 := by
  funext i
  rw [Read.val_main_v46_apply, Read.val_main_v45_apply, Read.val_main_v44_apply, Read.val_main_v43_apply,
    Read.val_main_cst_5_apply]
  simp only [v42_apply, Ideal.ofBits_def, Ideal.ofBits_zero_f32, zero_add, Ideal.hostDivf_def]
  rfl

/-! ### The soft assignment -/

/-- Entry (p, j, q) of the squared difference tensor: coordinate q of row p of the embedding minus coordinate q of
    row j of the centres, squared. -/
theorem v52_eq : Read.val_main_v52 (F := Ideal) x0 x2 x3 x4 x5 x13 = fun i =>
    (embed x0 x2 x3 x4 x5 (ix2 (i 0) (i 2)) - x13 (ix2 (i 1) (i 2)))
      * (embed x0 x2 x3 x4 x5 (ix2 (i 0) (i 2)) - x13 (ix2 (i 1) (i 2))) := by
  funext i
  have e1 : Read.idx_main_v47 (Read.idx_main_v49 i) = ix2 (i 0) (i 2) := by idx2
  have e2 : Read.idx_main_v48 (Read.idx_main_v50 i) = ix2 (i 1) (i 2) := by idx2
  rw [Read.val_main_v52_apply, Read.val_main_v51_apply, Read.val_main_v49_apply, Read.val_main_v47_apply,
    Read.val_main_v50_apply, Read.val_main_v48_apply, embed_eq, e1, e2]
  rfl

/-- The squared distances, summed from the zero word. -/
theorem v53_eq : Read.val_main_v53 (F := Ideal) x0 x2 x3 x4 x5 x13 = sqDist (embed x0 x2 x3 x4 x5) x13 := by
  funext i
  have e : ∀ k, Read.idx_main_v53 i k = ix3 (i 0) (i 1) k := by idx3
  rw [Read.val_main_v53_apply, Read.val_main_cst_6_apply, v52_eq]
  simp only [e, Ideal.ofBits_def, Ideal.ofBits_zero_f32, zero_add]
  rfl

/-- The kernel 1 / (1 + d): the division by the word of 1 and the power of the word of 1 change nothing. -/
theorem v61_eq : Read.val_main_v61 (F := Ideal) x0 x2 x3 x4 x5 x13 = fun i =>
    Ideal.div oneW (oneW + sqDist (embed x0 x2 x3 x4 x5) x13 i) := by
  funext i
  rw [Read.val_main_v61_apply, Read.val_main_v59_apply, Read.val_main_v57_apply, Read.val_main_v55_apply, v53_eq,
    Read.val_main_v54_apply, Read.val_main_v56_apply, Read.val_main_v58_apply, Read.val_main_v60_apply,
    Read.val_main_cst_7_apply, Read.val_main_cst_8_apply, Read.val_main_cst_9_apply, Read.val_main_cst_10_apply]
  simp only [Ideal.ofBits_def, Ideal.hostDivf_def, Ideal.hostPowf_def, Ideal.addf_def, div_oneW, pow_oneW]

/-- The soft assignment. -/
theorem assign_eq : Read.val_main_v65 (F := Ideal) x0 x2 x3 x4 x5 x13 = assign x0 x2 x3 x4 x5 x13 := by
  funext i
  have e : ∀ k, Read.idx_main_v62 (Read.idx_main_v63 (Read.idx_main_v64 i)) k = ix2 (i 0) k := by idx2
  rw [Read.val_main_v65_apply, Read.val_main_v64_apply, Read.val_main_v63_apply, Read.val_main_v62_apply,
    Read.val_main_cst_11_apply, v61_eq]
  simp only [e, Ideal.ofBits_def, Ideal.ofBits_zero_f32, zero_add, Ideal.hostDivf_def]
  rfl

end Program

end Cert.Sdcn.Ref

end
-- ==== Proof.RefRun.lean ====
/-
  The reference program's run, with each result named by the specification.

  Every weakly fair execution of the reference program terminates; its four results are then the reconstruction, the
  soft assignment, the graph branch's prediction and the embedding of the specification, each as a function of the
  argument arrays' initial contents, and the fourteen argument arrays are unchanged. This composes three equalities
  per result: the run leaves the program's composed term in the result, that term is the stage read index by index,
  and the stage is the specification's array.
-/
import proofs.«117056_g54168127537287_cont_9to1c4b_553_2_alg».proof.Proof.Gen.ReferenceIdeal.Run
import proofs.«117056_g54168127537287_cont_9to1c4b_553_2_alg».proof.Proof.Gen.ReferenceIdeal.Read
import proofs.«117056_g54168127537287_cont_9to1c4b_553_2_alg».proof.Proof.RefSpec
import proofs.«117056_g54168127537287_cont_9to1c4b_553_2_alg».proof.Proof.Spec
import proofs.«117056_g54168127537287_cont_9to1c4b_553_2_alg».proof.Defs

noncomputable section

namespace Cert.Sdcn.RefRun

open Idealize.ShloMosaic Idealize.SL.Sem

/-- The reference program runs, and leaves the specification's four arrays in its results and its arguments
    unchanged. -/
theorem run_spec (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
      r.2.mem ((c.tc : Thread Cert.ReferenceIdeal.nD Cert.ReferenceIdeal.τ).loc Cert.ReferenceIdeal.main_v17) = Cert.Sdcn.recon (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_v65) = Cert.Sdcn.assign (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_v46) = Cert.Sdcn.predict (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))
      ∧ r.2.mem ((c.tc : Thread Cert.ReferenceIdeal.nD Cert.ReferenceIdeal.τ).loc Cert.ReferenceIdeal.main_v8) = Cert.Sdcn.embed (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)) :=
  (θ_run (Cert.ReferenceIdeal.defs (F := Ideal)) _ _).mono (fun r h c =>
    ⟨(h c).1.trans ((Cert.ReferenceIdeal.Read.val_main_v17_eq (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).trans
        (Cert.Sdcn.Ref.recon_eq (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)))),
     (h c).2.1.trans ((Cert.ReferenceIdeal.Read.val_main_v65_eq (F := Ideal) m c).trans
        (Cert.Sdcn.Ref.assign_eq (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg13)))),
     (h c).2.2.1.trans ((Cert.ReferenceIdeal.Read.val_main_v46_eq (F := Ideal) m c).trans
        (Cert.Sdcn.Ref.predict_eq (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)))),
     (h c).2.2.2.1.trans ((Cert.ReferenceIdeal.Read.val_main_v8_eq (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).trans
        (Cert.Sdcn.Ref.embed_eq (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)))),
     (h c).2.2.2.2⟩)
    (Cert.ReferenceIdeal.Value.run (F := Ideal) m ρ)

/-- The reference program runs and leaves its fourteen argument arrays unchanged. -/
theorem frame [Cert.ReferenceIdeal.Facts] [Cert.Pre_finite_inputs.Facts] : Cert.frame_ReferenceIdeal :=
  fun m ρ _ => (θ_run (Cert.ReferenceIdeal.defs (F := Ideal)) _ _).mono (fun _ h c => (h c).2.2.2.2)
    (Cert.ReferenceIdeal.Value.run (F := Ideal) m ρ)

end Cert.Sdcn.RefRun

end
-- ==== Proof.LibBatchNorm.lean ====
/-
  General lemmas: batch normalisation followed by a rectifier, on the extended reals, in two arrangements.

  A finite family h of values is normalised with its own mean m = (∑ h) / n and variance v, scaled by γ, shifted by β and
  clipped below at zero. The first arrangement computes the variance as the mean of squares minus the square of the mean,
  clipped below at zero, folds γ and the inverse root into one scale s = γ · (v + ε)^(-1/2) and the mean into one shift
  β − m · s, and returns max (x · s + (β − m · s)) 0. The second computes the variance as the mean of the squared
  deviations and returns max ((x − m) · (v + ε)^(-1/2) · γ + β) 0. When every value, γ, β and ε are real numbers, ε is
  positive and n is the (positive) number of values, the two agree: over the reals the two variances are one number
  (the sum of (h − m)² is the sum of h² minus n · m², because the sum of h is n · m), it is nonnegative, so the clip does
  nothing, its sum with ε is positive, so the inverse root is a real number, and the rest is ring arithmetic. On the
  extended reals the law is false at the infinities (distributivity fails), hence the hypotheses.

  Also here: the predicate "is a real number" on extended reals with its closure under sums, products and finite sums,
  the coercion of a finite real sum, and the inverse root of a positive real.
  Nothing here mentions a program.
-/
import Idealize.ShloMosaic.PureOps.Ideal.Laws

noncomputable section

namespace Cert.LibBatchNorm

open Idealize.ShloMosaic

/-- An extended real that is a real number. -/
def IsReal (x : EReal) : Prop := ∃ r : ℝ, x = (r : EReal)

theorem isReal_coe (r : ℝ) : IsReal (r : EReal) := ⟨r, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

/-- An extended real whose absolute value is below +∞ is a real number. -/
theorem isReal_of_abs_lt_top {x : EReal} (h : max x (-x) < ⊤) : IsReal x := by
  induction x using EReal.rec with
  | bot => simp at h
  | top => simp at h
  | coe r => exact ⟨r, rfl⟩

/-- The inverse square root of a positive real is the real inverse root. -/
theorem rsqrt_coe_pos {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg (ne_of_gt h)]

/-- The first arrangement: variance from the raw moments s = ∑ h and q = ∑ h², clipped at zero; one scale, one shift. -/
def foldedNorm (x s q n γ β ε : EReal) : EReal :=
  max (x * (γ * Ideal.rsqrt (max (Ideal.div q n - Ideal.div s n * Ideal.div s n) 0 + ε))
      + (β - Ideal.div s n * (γ * Ideal.rsqrt (max (Ideal.div q n - Ideal.div s n * Ideal.div s n) 0 + ε)))) 0

/-- The second arrangement: centre, scale by the inverse root of the mean squared deviation plus ε, then γ and β. -/
def centredNorm {ι : Type*} [Fintype ι] (h : ι → EReal) (n γ β ε : EReal) (e : ι) : EReal :=
  max ((h e - Ideal.div (∑ i, h i) n)
        * Ideal.rsqrt (Ideal.div (∑ i, (h i - Ideal.div (∑ i, h i) n) * (h i - Ideal.div (∑ i, h i) n)) n + ε) * γ + β) 0

/-- Over the reals the mean squared deviation is the mean of squares minus the squared mean. -/
theorem real_variance {ι : Type*} [Fintype ι] (f : ι → ℝ) (n : ℝ) (hn : n = (Fintype.card ι : ℝ)) (h0 : n ≠ 0) :
    (∑ i, (f i - (∑ i, f i) * (1 / n)) * (f i - (∑ i, f i) * (1 / n))) * (1 / n)
      = (∑ i, f i * f i) * (1 / n) - (∑ i, f i) * (1 / n) * ((∑ i, f i) * (1 / n)) := by
  have e : ∀ i, (f i - (∑ i, f i) * (1 / n)) * (f i - (∑ i, f i) * (1 / n))
      = f i * f i - 2 * ((∑ i, f i) * (1 / n)) * f i + (∑ i, f i) * (1 / n) * ((∑ i, f i) * (1 / n)) := fun i => by ring
  rw [Finset.sum_congr rfl fun i _ => e i, Finset.sum_add_distrib, Finset.sum_sub_distrib, ← Finset.mul_sum,
    Finset.sum_const, Finset.card_univ, nsmul_eq_mul, ← hn]
  field_simp
  ring

/-- The two arrangements agree on real data. -/
theorem foldedNorm_eq_centredNorm {ι : Type*} [Fintype ι] (h : ι → EReal) (hh : ∀ i, IsReal (h i)) (n : ℝ)
    (hn : n = (Fintype.card ι : ℝ)) (hpos : 0 < n) {γ β ε : EReal} (hγ : IsReal γ) (hβ : IsReal β) (ε' : ℝ) (hε : ε = (ε' : EReal))
    (hε' : 0 < ε') (e : ι) :
    foldedNorm (h e) (∑ i, h i) (∑ i, h i * h i) (n : EReal) γ β ε = centredNorm h (n : EReal) γ β ε e := by
  choose f hf using hh
  obtain ⟨g, rfl⟩ := hγ
  obtain ⟨b, rfl⟩ := hβ
  subst hε
  have hn0 : n ≠ 0 := ne_of_gt hpos
  have hfun : h = fun i => (f i : EReal) := funext hf
  subst hfun
  unfold foldedNorm centredNorm
  simp only [Ideal.div_coe hn0]
  have hs : (∑ i, (f i : EReal)) = ((∑ i, f i : ℝ) : EReal) := (coe_sum _ _).symm
  have hq : (∑ i, (f i : EReal) * (f i : EReal)) = ((∑ i, f i * f i : ℝ) : EReal) := by
    rw [coe_sum]; exact Finset.sum_congr rfl fun i _ => (EReal.coe_mul _ _).symm
  rw [hs, hq]
  have hd : (∑ i, ((f i : EReal) - ((∑ i, f i : ℝ) : EReal) * ((1 / n : ℝ) : EReal)) * ((f i : EReal) - ((∑ i, f i : ℝ) : EReal) * ((1 / n : ℝ) : EReal)))
      = ((∑ i, (f i - (∑ i, f i) * (1 / n)) * (f i - (∑ i, f i) * (1 / n)) : ℝ) : EReal) := by
    refine ((coe_sum Finset.univ fun i => (f i - (∑ i, f i) * (1 / n)) * (f i - (∑ i, f i) * (1 / n))).trans
      (Finset.sum_congr rfl fun i _ => ?_)).symm
    rw [EReal.coe_mul, EReal.coe_sub, EReal.coe_mul]
  rw [hd]
  set S : ℝ := ∑ i, f i with hS
  set Q : ℝ := ∑ i, f i * f i with hQ
  set D : ℝ := ∑ i, (f i - S * (1 / n)) * (f i - S * (1 / n)) with hD
  have hvar : D * (1 / n) = Q * (1 / n) - S * (1 / n) * (S * (1 / n)) := real_variance f n hn hn0
  have hD0 : 0 ≤ D := Finset.sum_nonneg fun i _ => mul_self_nonneg _
  have hv0 : 0 ≤ D * (1 / n) := mul_nonneg hD0 (by positivity)
  have hmax : max (((Q : ℝ) : EReal) * ((1 / n : ℝ) : EReal) - ((S : ℝ) : EReal) * ((1 / n : ℝ) : EReal) * (((S : ℝ) : EReal) * ((1 / n : ℝ) : EReal))) 0
      = ((D * (1 / n) : ℝ) : EReal) := by
    rw [← EReal.coe_mul, ← EReal.coe_mul, ← EReal.coe_mul, ← EReal.coe_sub, ← hvar]
    exact max_eq_left (EReal.coe_nonneg.mpr hv0)
  rw [hmax, ← EReal.coe_mul D, ← EReal.coe_add, rsqrt_coe_pos (by linarith : 0 < D * (1 / n) + ε')]
  simp only [← EReal.coe_mul, ← EReal.coe_sub, ← EReal.coe_add]
  congr 2
  ring

end Cert.LibBatchNorm

end
-- ==== Proof.DistLaw.lean ====
/-
  The squared distance between two rows of real numbers, and the stages that keep entries real.

  For rows z and c of real numbers the coordinate-by-coordinate sum of (z − c)² equals |z|² − 2 (z · c) + |c|²:
  expand each square as z² − 2 z c + c² and split the finite sum. On the extended reals the identity fails at the
  infinities (a difference of infinities is not cancelled by the expansion), hence the hypothesis that every entry is a
  real number. Matrix product, the addition of a vector along rows and the maximum with zero all send arrays of reals to
  arrays of reals, so the embedding of real inputs through real weights is real, and the soft assignment computed from
  the distance equals the one computed from its expansion.
-/
import proofs.«117056_g54168127537287_cont_9to1c4b_553_2_alg».proof.Proof.Spec
import proofs.«117056_g54168127537287_cont_9to1c4b_553_2_alg».proof.Proof.LibBatchNorm

noncomputable section

namespace Cert.Sdcn

open Idealize.ShloMosaic Idealize.ShloMosaic.ValueIdx Cert.LibBatchNorm

/-- The zero word denotes 0. -/
theorem zeroW_eq : zeroW = (0 : EReal) := Ideal.ofBits_zero_f32

/-- The word 0x40000000 denotes the real number 2. -/
theorem twoW_eq : twoW = ((2 : ℝ) : EReal) := by
  show Ideal.ofBits .f32 0x40000000#32 = ((2 : ℝ) : EReal)
  simp [Ideal.ofBits, Ideal.ieee, -EReal.coe_mul]; norm_num

/-- Over the reals: ∑ (z − c)² = ∑ z² − 2 ∑ z c + ∑ c². -/
theorem real_sqDist {ι : Type*} (s : Finset ι) (z c : ι → ℝ) :
    ∑ q ∈ s, (z q - c q) * (z q - c q)
      = (∑ q ∈ s, z q * z q) - 2 * (∑ q ∈ s, z q * c q) + ∑ q ∈ s, c q * c q := by
  have e : ∀ q, (z q - c q) * (z q - c q) = z q * z q - 2 * (z q * c q) + c q * c q := fun q => by ring
  rw [Finset.sum_congr rfl fun q _ => e q, Finset.sum_add_distrib, Finset.sum_sub_distrib, ← Finset.mul_sum]

variable {a k n : ℕ}

/-- On real entries the squared distance equals its expansion. -/
theorem sqDist_eq_expanded (Z : Mat a k) (C : Mat n k) (hZ : ∀ i, IsReal (Z i)) (hC : ∀ i, IsReal (C i)) :
    sqDist Z C = sqDistExpanded Z C := by
  choose z hz using hZ
  choose c hc using hC
  funext i
  show (∑ q : Fin k, (Z (ix2 (i 0) q) - C (ix2 (i 1) q)) * (Z (ix2 (i 0) q) - C (ix2 (i 1) q)))
    = ((∑ q : Fin k, Z (ix2 (i 0) q) * Z (ix2 (i 0) q)) - twoW * (∑ q : Fin k, Z (ix2 (i 0) q) * C (ix2 (i 1) q)))
      + ∑ q : Fin k, C (ix2 (i 1) q) * C (ix2 (i 1) q)
  rw [twoW_eq]
  simp only [hz, hc]
  simp only [← EReal.coe_mul, ← EReal.coe_sub, ← coe_sum, ← EReal.coe_add]
  exact congrArg _ (real_sqDist Finset.univ (fun q => z (ix2 (i 0) q)) (fun q => c (ix2 (i 1) q)))

/-- A product of matrices of reals is a matrix of reals. -/
theorem isReal_prod {L : Mat a k} {R : Mat k n} (hL : ∀ i, IsReal (L i)) (hR : ∀ i, IsReal (R i)) :
    ∀ i, IsReal (prod L R i) := fun _ =>
  isReal_sum _ _ fun _ => isReal_mul (hL _) (hR _)

/-- Adding a vector of reals along the rows of a product of matrices of reals leaves a matrix of reals. -/
theorem isReal_dense {L : Mat a k} {R : Mat k n} {b : Vect n} (hL : ∀ i, IsReal (L i)) (hR : ∀ i, IsReal (R i))
    (hb : ∀ i, IsReal (b i)) : ∀ i, IsReal (dense L R b i) := fun i =>
  isReal_add (isReal_prod hL hR i) (hb _)

/-- The maximum of a real and zero is a real. -/
theorem isReal_relu {X : Mat a n} (hX : ∀ i, IsReal (X i)) : ∀ i, IsReal (relu X i) := fun i => by
  show IsReal (max (X i) zeroW)
  rcases le_total (X i) zeroW with h | h
  · rw [max_eq_right h]; exact ⟨0, zeroW_eq.trans EReal.coe_zero.symm⟩
  · rw [max_eq_left h]; exact hX i

section Network

variable {N D E Zd K : ℕ}
variable {x : Mat N D} {We1 : Mat D E} {be1 : Vect E} {Wz : Mat E Zd} {bz : Vect Zd} {cl : Mat K Zd}

/-- The hidden layer of real inputs through real weights is real. -/
theorem hidden_isReal (hx : ∀ i, IsReal (x i)) (hWe1 : ∀ i, IsReal (We1 i)) (hbe1 : ∀ i, IsReal (be1 i)) :
    ∀ i, IsReal (hidden x We1 be1 i) :=
  isReal_relu (isReal_dense hx hWe1 hbe1)

/-- The embedding of real inputs through real weights is real. -/
theorem embed_isReal (hx : ∀ i, IsReal (x i)) (hWe1 : ∀ i, IsReal (We1 i)) (hbe1 : ∀ i, IsReal (be1 i))
    (hWz : ∀ i, IsReal (Wz i)) (hbz : ∀ i, IsReal (bz i)) : ∀ i, IsReal (embed x We1 be1 Wz bz i) :=
  isReal_dense (hidden_isReal hx hWe1 hbe1) hWz hbz

/-- On real data the soft assignment from the distance is the one from its expansion. -/
theorem assign_eq_expanded (hx : ∀ i, IsReal (x i)) (hWe1 : ∀ i, IsReal (We1 i)) (hbe1 : ∀ i, IsReal (be1 i))
    (hWz : ∀ i, IsReal (Wz i)) (hbz : ∀ i, IsReal (bz i)) (hcl : ∀ i, IsReal (cl i)) :
    assign x We1 be1 Wz bz cl = assignExpanded x We1 be1 Wz bz cl :=
  congrArg studentT (sqDist_eq_expanded _ _ (embed_isReal hx hWe1 hbe1 hWz hbz) hcl)

end Network

end Cert.Sdcn

end
-- ==== Proof.Finite.lean ====
/-
  From the precondition to real entries.

  The precondition is one truth value: for each of the fourteen argument arrays, the test "every entry's absolute value is
  strictly below +∞", the fourteen tests joined by "and". A conjunction that holds gives each conjunct; a test over all
  entries that holds gives the inequality at each entry; an extended real whose absolute value max x (−x) is strictly
  below +∞ is neither +∞ nor −∞, so it is a real number. Hence, under the precondition, every entry of every argument
  array is a real number.
-/
import proofs.«117056_g54168127537287_cont_9to1c4b_553_2_alg».proof.Defs
import proofs.«117056_g54168127537287_cont_9to1c4b_553_2_alg».proof.Proof.LibBatchNorm
import Idealize.ShloMosaic.Lib.ReduceAll
import Idealize.ShloMosaic.Lib.ValueIdx

noncomputable section

namespace Cert.Sdcn.Finite

open Idealize.ShloMosaic Idealize.SL.Sem Cert.LibBatchNorm

/-- The scalar shape has one index. -/
instance : Subsingleton Cert.Pre_finite_inputs.S_.Idx := ⟨fun _ _ => funext fun d => d.elim0⟩

/-- The word 0x7F800000 denotes +∞. -/
theorem posInfW_eq : Ideal.ofBits .f32 0x7F800000#32 = (⊤ : EReal) := by
  simp [Ideal.ofBits, Ideal.ieee]

/-- An ordered "less than" that came out 1 is the order's strict inequality. -/
theorem lt_of_cmp_olt {x y : EReal} (h : Ideal.cmp .olt x y = 1#1) : x < y := by
  by_contra hn
  simp [Ideal.cmp, hn] at h

/-- An array whose test "every |entry| is below +∞" came out 1 holds only real numbers. -/
theorem reals_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu j = 1#1) :
    ∀ i, IsReal (x i) := fun i => by
  have h := Host.reduce_andi_all _ _ hr hu j e i
  have h' : Ideal.cmp .olt (max (x i) (-(x i))) (Ideal.ofBits .f32 0x7F800000#32) = 1#1 := h
  rw [posInfW_eq] at h'
  exact isReal_of_abs_lt_top (lt_of_cmp_olt h')

/-- Under the precondition every entry of each of the fourteen argument arrays is a real number. -/
theorem reals_of_pre_all [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i))
    ∧ (∀ i, IsReal (m ((c.tc : Thread Cert.KernelIdeal.nD Cert.KernelIdeal.τ).loc Cert.KernelIdeal.main_arg7) i))
    ∧ (∀ i, IsReal (m ((c.tc : Thread Cert.KernelIdeal.nD Cert.KernelIdeal.τ).loc Cert.KernelIdeal.main_arg8) i))
    ∧ (∀ i, IsReal (m ((c.tc : Thread Cert.KernelIdeal.nD Cert.KernelIdeal.τ).loc Cert.KernelIdeal.main_arg9) i))
    ∧ (∀ i, IsReal (m ((c.tc : Thread Cert.KernelIdeal.nD Cert.KernelIdeal.τ).loc Cert.KernelIdeal.main_arg10) i))
    ∧ (∀ i, IsReal (m ((c.tc : Thread Cert.KernelIdeal.nD Cert.KernelIdeal.τ).loc Cert.KernelIdeal.main_arg11) i))
    ∧ (∀ i, IsReal (m ((c.tc : Thread Cert.KernelIdeal.nD Cert.KernelIdeal.τ).loc Cert.KernelIdeal.main_arg12) i))
    ∧ (∀ i, IsReal (m ((c.tc : Thread Cert.KernelIdeal.nD Cert.KernelIdeal.τ).loc Cert.KernelIdeal.main_arg13) i)) := by
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  simp only [andi, IntOp.andi_eq_one] at e
  obtain ⟨⟨⟨⟨⟨⟨⟨⟨⟨⟨⟨⟨⟨h0, h1⟩, h2⟩, h3⟩, h4⟩, h5⟩, h6⟩, h7⟩, h8⟩, h9⟩, h10⟩, h11⟩, h12⟩, h13⟩ := e
  exact ⟨reals_of_all _ _ _ _ _ h0,
    reals_of_all _ _ _ _ _ h1,
    reals_of_all _ _ _ _ _ h2,
    reals_of_all _ _ _ _ _ h3,
    reals_of_all _ _ _ _ _ h4,
    reals_of_all _ _ _ _ _ h5,
    reals_of_all _ _ _ _ _ h6,
    reals_of_all _ _ _ _ _ h7,
    reals_of_all _ _ _ _ _ h8,
    reals_of_all _ _ _ _ _ h9,
    reals_of_all _ _ _ _ _ h10,
    reals_of_all _ _ _ _ _ h11,
    reals_of_all _ _ _ _ _ h12,
    reals_of_all _ _ _ _ _ h13⟩

/-- The six arrays the distance law reads: the input, the encoder's two layers with their biases, and the cluster
    centres. -/
theorem reals_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg13) i)) := by
  obtain ⟨h0, -, h2, h3, h4, h5, -, -, -, -, -, -, -, h13⟩ := reals_of_pre_all m h c
  exact ⟨h0, h2, h3, h4, h5, h13⟩

end Cert.Sdcn.Finite

end
-- ==== Proof.SpecRows.lean ====
/-
  Rows: every stage of the network computes entry (p, j) from row p of its matrix operand (and from whole weights),
  so the rows t·B … t·B + B − 1 of a stage of a whole matrix are that stage of those rows of the matrix.

  For each stage of the specification: its value at (p, j) spelt out, and the congruence "matrices that agree on one
  row give the same entry on that row" — between matrices of different heights, which is what relates a block of rows
  to the whole matrix.
-/
import proofs.«117056_g54168127537287_cont_9to1c4b_553_2_alg».proof.Proof.Spec

noncomputable section

namespace Cert.Sdcn

open Idealize.ShloMosaic Idealize.ShloMosaic.ValueIdx

variable {a a' k n : ℕ}

theorem prod_ix2 (L : Mat a k) (R : Mat k n) (p : Fin a) (j : Fin n) :
    prod L R (ix2 p j) = ∑ q : Fin k, L (ix2 p q) * R (ix2 q j) := rfl

theorem denseRow_ix2 (L : Mat a k) (R : Mat k n) (B : Mat 1 n) (p : Fin a) (j : Fin n) :
    denseRow L R B (ix2 p j) = prod L R (ix2 p j) + B (ix2 (0 : Fin 1) j) := rfl

theorem dense_ix2 (L : Mat a k) (R : Mat k n) (b : Vect n) (p : Fin a) (j : Fin n) :
    dense L R b (ix2 p j) = prod L R (ix2 p j) + b (ix1 j) := rfl

theorem relu_ix2 (X : Mat a n) (p : Fin a) (j : Fin n) : relu X (ix2 p j) = max (X (ix2 p j)) zeroW := rfl

theorem mix_ix2 (H T : Mat a n) (p : Fin a) (j : Fin n) :
    mix H T (ix2 p j) = halfW * H (ix2 p j) + halfW * T (ix2 p j) := rfl

theorem softmax_ix2 (L : Mat a n) (p : Fin a) (j : Fin n) :
    softmax L (ix2 p j) = Ideal.div (Ideal.exp (L (ix2 p j) - rowMax L p))
      (∑ j' : Fin n, Ideal.exp (L (ix2 p j') - rowMax L p)) := rfl

theorem studentT_ix2 (d : Mat a n) (p : Fin a) (j : Fin n) :
    studentT d (ix2 p j) = Ideal.div (Ideal.div oneW (oneW + d (ix2 p j)))
      (∑ j' : Fin n, Ideal.div oneW (oneW + d (ix2 p j'))) := rfl

theorem sqDistExpanded_ix2 (Z : Mat a k) (C : Mat n k) (p : Fin a) (j : Fin n) :
    sqDistExpanded Z C (ix2 p j) = ((∑ q : Fin k, Z (ix2 p q) * Z (ix2 p q))
        - twoW * (∑ q : Fin k, Z (ix2 p q) * C (ix2 j q)))
      + ∑ q : Fin k, C (ix2 j q) * C (ix2 j q) := rfl

/-- A product's entry (p, j) reads row p of the left matrix only. -/
theorem prod_rows (L : Mat a k) (L' : Mat a' k) (R : Mat k n) (p : Fin a) (p' : Fin a') (j : Fin n)
    (h : ∀ q : Fin k, L' (ix2 p' q) = L (ix2 p q)) : prod L' R (ix2 p' j) = prod L R (ix2 p j) := by
  rw [prod_ix2, prod_ix2]
  exact Finset.sum_congr rfl fun q _ => by rw [h q]

theorem denseRow_rows (L : Mat a k) (L' : Mat a' k) (R : Mat k n) (B : Mat 1 n) (p : Fin a) (p' : Fin a') (j : Fin n)
    (h : ∀ q : Fin k, L' (ix2 p' q) = L (ix2 p q)) : denseRow L' R B (ix2 p' j) = denseRow L R B (ix2 p j) := by
  rw [denseRow_ix2, denseRow_ix2, prod_rows L L' R p p' j h]

theorem relu_rows (X : Mat a n) (X' : Mat a' n) (p : Fin a) (p' : Fin a') (j : Fin n)
    (h : X' (ix2 p' j) = X (ix2 p j)) : relu X' (ix2 p' j) = relu X (ix2 p j) := by
  rw [relu_ix2, relu_ix2, h]

theorem mix_rows (H T : Mat a n) (H' T' : Mat a' n) (p : Fin a) (p' : Fin a') (j : Fin n)
    (hH : H' (ix2 p' j) = H (ix2 p j)) (hT : T' (ix2 p' j) = T (ix2 p j)) :
    mix H' T' (ix2 p' j) = mix H T (ix2 p j) := by
  rw [mix_ix2, mix_ix2, hH, hT]

theorem rowMax_rows (L : Mat a n) (L' : Mat a' n) (p : Fin a) (p' : Fin a')
    (h : ∀ j : Fin n, L' (ix2 p' j) = L (ix2 p j)) : rowMax L' p' = rowMax L p := by
  unfold rowMax
  rw [show (fun j : Fin n => L' (ix2 p' j)) = fun j : Fin n => L (ix2 p j) from funext h]

/-- A softmax entry reads its own row only. -/
theorem softmax_rows (L : Mat a n) (L' : Mat a' n) (p : Fin a) (p' : Fin a') (j : Fin n)
    (h : ∀ j : Fin n, L' (ix2 p' j) = L (ix2 p j)) : softmax L' (ix2 p' j) = softmax L (ix2 p j) := by
  rw [softmax_ix2, softmax_ix2, rowMax_rows L L' p p' h, h j]
  exact congrArg _ (Finset.sum_congr rfl fun j' _ => by rw [h j'])

/-- A normalised Student-t entry reads its own row of distances only. -/
theorem studentT_rows (d : Mat a n) (d' : Mat a' n) (p : Fin a) (p' : Fin a') (j : Fin n)
    (h : ∀ j : Fin n, d' (ix2 p' j) = d (ix2 p j)) : studentT d' (ix2 p' j) = studentT d (ix2 p j) := by
  rw [studentT_ix2, studentT_ix2, h j]
  exact congrArg _ (Finset.sum_congr rfl fun j' _ => by rw [h j'])

/-- The expanded squared distance at (p, j) reads row p of the points only. -/
theorem sqDistExpanded_rows (Z : Mat a k) (Z' : Mat a' k) (C : Mat n k) (p : Fin a) (p' : Fin a') (j : Fin n)
    (h : ∀ q : Fin k, Z' (ix2 p' q) = Z (ix2 p q)) :
    sqDistExpanded Z' C (ix2 p' j) = sqDistExpanded Z C (ix2 p j) := by
  rw [sqDistExpanded_ix2, sqDistExpanded_ix2]
  simp only [h]

/-- A vector laid along the rows and the one-row matrix holding the same entries give the same dense layer. -/
theorem dense_eq_denseRow (L : Mat a k) (R : Mat k n) (b : Vect n) (B : Mat 1 n)
    (h : ∀ j : Fin n, B (ix2 (0 : Fin 1) j) = b (ix1 j)) : denseRow L R B = dense L R b := by
  funext i
  obtain ⟨p, j, rfl⟩ : ∃ (p : Fin a) (j : Fin n), i = ix2 p j := ⟨i 0, i 1, eq_ix2 i⟩
  rw [denseRow_ix2, dense_ix2, h j]

end Cert.Sdcn

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibPlainDot.lean ====
/-
  General lemmas: the dimension record of a plain matrix product.

  A product of an [a, k] array by a [k, n] array contracts the left operand's axis 1 against the right operand's
  axis 0; the result's axis 0 is the left operand's axis 0 and its axis 1 the right operand's axis 1; nothing is
  batched. For ANY dimension record with those six axis lists:

  * `contr_rank`, `contr_size`: the contraction has one axis, of extent k;
  * `lhs_row`, `lhs_col`: at result index i and contraction position q the left operand is read at
    (i 0, q 0);
  * `rhs_row`, `rhs_col`: the right operand is read at (q 0, i 1).

  These are the six facts under which a host product and a matrix-unit product into a zero accumulator are the sum
  over q of L (p, q) · R (q, j). Nothing here mentions a program: the extents are variables and the record is any
  record with the stated axis lists.
-/
import Idealize.ShloMosaic.Lib.ValueIdx

noncomputable section

namespace Cert.LibPlainDot

open Idealize.ShloMosaic Idealize.ShloMosaic.ValueIdx

variable {a k n : ℕ} (D : DotDims ⟨2, ![a, k]⟩ ⟨2, ![k, n]⟩ ⟨2, ![a, n]⟩)

/-- The contraction has one axis. -/
theorem contr_rank (hlc : D.lhsContracting = [1]) : D.contr.rank = 1 := by
  rw [D.rank_contr, hlc]; rfl

/-- Two coordinates of one index at equal positions are equal. -/
private theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hlc : D.lhsContracting = [1]) (hrc : D.rhsContracting = [0]) (i : (⟨2, ![a, n]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hln : D.lhsNonContracting = [0]) (hrb : D.rhsBatch = []) (hrn : D.rhsNonContracting = [1])
    (i : (⟨2, ![a, n]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Cert.LibPlainDot

end
-- ==== Proof.LibColumnRow.lean ====
/-
  One-column and one-row arrays, read at an index.

  A per-row quantity (one number per row of a matrix: a node's degree factor, a row's maximum, a row's sum) is
  held as a one-column array [a, 1] and used by laying it along every row of an [a, b] matrix; a per-column
  quantity (a bias) is held as a one-row array [1, n]. A vector of length a becomes such a column either by a
  reshape (the row-major position is kept, and position p of the column is entry p) or by a broadcast along
  axis 0; a vector of length n becomes a row by a reshape or by a broadcast along axis 1. The lemmas below read
  each of these at an index (p, c), and say that the reshape and the broadcast of a vector into a column, and into
  a row, are the same array.
-/
import Idealize.ShloMosaic.Lib.Pipeline.Value
import Idealize.ShloMosaic.Lib.ValueIdx
import Idealize.ShloMosaic.Lib.ValueLayout

namespace Cert.LibColumnRow

open Idealize.ShloMosaic Idealize.ShloMosaic.ValueIdx

variable {α : Type}

/-- A column [a, 1] laid along every row of an [a, b] array reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a reshaped into a column [a, 1] reads, at (p, u), the vector's entry p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector of length a broadcast along axis 0 into a column [a, 1] reads, at (p, u), the vector's entry p. -/
theorem broadcastInDim_a_a1_apply {a : ℕ} (hd : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] hd x (ix2 p u) = x (ix1 p) := by
  refine broadcastInDim_apply ![0] hd x (ix2 p u) (ix1 p) fun ax => ?_
  match ax with
  | ⟨0, _⟩ =>
    show p.val = if a = 1 then 0 else p.val
    split
    · have := p.isLt; omega
    · rfl

/-- The reshape of a vector into a column is its broadcast along axis 0 into that column. -/
theorem shapeCast_col_eq_broadcastInDim {a : ℕ} (x : (⟨1, ![a]⟩ : Shape).Idx → α)
    (h : (⟨1, ![a]⟩ : Shape).ShapeCasts ⟨2, ![a, 1]⟩) (hd : (⟨1, ![a]⟩ : Shape).BroadcastsInDim ⟨2, ![a, 1]⟩ ![0]) :
    shapeCast ⟨2, ![a, 1]⟩ x h = broadcastInDim ⟨2, ![a, 1]⟩ ![0] hd x := by
  funext i
  obtain ⟨p, u, rfl⟩ : ∃ (p : Fin a) (u : Fin 1), i = ix2 p u := ⟨i 0, i 1, eq_ix2 i⟩
  rw [shapeCast_a_a1_apply, broadcastInDim_a_a1_apply]

/-- A vector of length n broadcast along axis 1 into a row [1, n] reads, at (u, c), the vector's entry c. -/
theorem broadcastInDim_n_1n_apply {n : ℕ} (hd : (⟨1, ![n]⟩ : Shape).BroadcastsInDim ⟨2, ![1, n]⟩ ![1])
    (x : (⟨1, ![n]⟩ : Shape).Idx → α) (u : Fin 1) (c : Fin n) :
    broadcastInDim ⟨2, ![1, n]⟩ ![1] hd x (ix2 u c) = x (ix1 c) := by
  refine broadcastInDim_apply ![1] hd x (ix2 u c) (ix1 c) fun ax => ?_
  match ax with
  | ⟨0, _⟩ =>
    show c.val = if n = 1 then 0 else c.val
    split
    · have := c.isLt; omega
    · rfl

/-- The reshape of a vector into a row is its broadcast along axis 1 into that row. -/
theorem shapeCast_row_eq_broadcastInDim {n : ℕ} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, c, rfl⟩ : ∃ (u : Fin 1) (c : Fin n), i = ix2 u c := ⟨i 0, i 1, eq_ix2 i⟩
  rw [shapeCast_a_1a_apply, broadcastInDim_n_1n_apply]

end Cert.LibColumnRow
-- ==== Proof.Region3.lean ====
/-
  Row-wise softmax of a matrix product, as the vector operations compute it.

  For a matrix L of shape [a, n] the row maximum is taken by a reduction along axis 1 folded from the word of −∞,
  reshaped into a column [a, 1] and laid along every row; the exponentials of the entries less that maximum are
  summed along axis 1 from the zero word, the sums reshaped and laid out the same way; the quotient, entry by
  entry, is softmax L. A reduced index p with the column q put back is the index (p, q).
-/
import proofs.«117056_g54168127537287_cont_9to1c4b_553_2_alg».proof.Proof.Gen.KernelIdeal.Frame
import proofs.«117056_g54168127537287_cont_9to1c4b_553_2_alg».proof.Proof.Spec
import proofs.«117056_g54168127537287_cont_9to1c4b_553_2_alg».proof.Proof.LibAffine
import proofs.«117056_g54168127537287_cont_9to1c4b_553_2_alg».proof.Proof.LibPlainDot
import proofs.«117056_g54168127537287_cont_9to1c4b_553_2_alg».proof.Proof.LibColumnRow
import proofs.«117056_g54168127537287_cont_9to1c4b_553_2_alg».proof.Proof.SpecRows
import Idealize.ShloMosaic.Lib.Pipeline.Value

set_option maxRecDepth 16384

noncomputable section

namespace Cert.Sdcn.Kern

open Cert.KernelIdeal Cert.KernelIdeal.Gen Idealize.ShloMosaic Idealize.ShloMosaic.ValueIdx Idealize.ShloMosaic.TcCoe Idealize.SL.Sem
open Idealize.ShloMosaic.Pipeline (Dat)

section RowOps

variable {a n : ℕ}

/-- The reduced index p with column q put back is (p, q). -/
theorem lift_row (h : (⟨2, ![a, n]⟩ : Shape).Reduces [1] (⟨1, ![a]⟩ : Shape)) (p : Fin a)
    (q : Fin ((⟨2, ![a, n]⟩ : Shape).size 1)) : h.lift (ix1 p) q = ix2 p (⟨q.val, q.isLt⟩ : Fin n) := by
  funext c; apply Fin.ext
  fin_cases c <;> rfl

/-- The reduction by maximum along axis 1, from the word of −∞, is the row maximum. -/
theorem rowMax_reduce (L : Mat a n) (h : (⟨2, ![a, n]⟩ : Shape).Reduces [1] (⟨1, ![a]⟩ : Shape)) (hφ : FKind.Formats .f32)
    (hacc : (0xFF800000#32 : BitVec 32) = FKind.maximumf.neutral .f32 hφ) (p : Fin a) :
    multiReduction (F := Ideal) .maximumf [1] ⟨1, ![a]⟩ L 0xFF800000#32 h hφ hacc (ix1 p) = rowMax L p := by
  rw [Ideal.multiReduction_maximumf_single]
  have hf : (L ∘ h.lift (ix1 p)) = fun q : Fin n => L (ix2 p q) := funext fun q => congrArg L (lift_row h p q)
  rw [hf]
  rfl

/-- The reduction by sum along axis 1, from the zero word, is the row sum. -/
theorem rowSum_reduce (X : Mat a n) (h : (⟨2, ![a, n]⟩ : Shape).Reduces [1] (⟨1, ![a]⟩ : Shape)) (hφ : FKind.Formats .f32)
    (hacc : (0x00000000#32 : BitVec 32) = FKind.add.neutral .f32 hφ) (p : Fin a) :
    multiReduction (F := Ideal) .add [1] ⟨1, ![a]⟩ X 0x00000000#32 h hφ hacc (ix1 p) = ∑ q : Fin n, X (ix2 p q) := by
  rw [Ideal.multiReduction_add_single]
  exact Finset.sum_congr rfl fun q _ => congrArg X (lift_row h p q)

end RowOps

section Softmax

variable {a n : ℕ}

/-- A vector of per-row numbers, reshaped into a column and laid along every row, reads at (p, j) its entry p. -/
theorem alongRows_apply (v : Vect a) (hsc : (⟨1, ![a]⟩ : Shape).ShapeCasts ⟨2, ![a, 1]⟩)
    (hb : (⟨2, ![a, 1]⟩ : Shape).Broadcasts ⟨2, ![a, n]⟩) (p : Fin a) (j : Fin n) :
    broadcastTo ⟨2, ![a, n]⟩ (shapeCast ⟨2, ![a, 1]⟩ v hsc) hb (ix2 p j) = v (ix1 p) := by
  rw [LibColumnRow.broadcastTo_a1_ab_apply, LibColumnRow.shapeCast_a_a1_apply]

/-- If m holds each row's maximum along that row, e the exponentials of the entries less m, and s each row's sum of
    e along that row, then e over s, entry by entry, is the softmax. -/
theorem softmax_of_parts (L m e s : Mat a n) (hm : ∀ p j, m (ix2 p j) = rowMax L p) (he : e = exp (subf L m))
    (hs : ∀ p j, s (ix2 p j) = ∑ q : Fin n, e (ix2 p q)) : divf e s = softmax L := by
  have hE : ∀ (p : Fin a) (j : Fin n), e (ix2 p j) = Ideal.exp (L (ix2 p j) - rowMax L p) := fun p j => by
    rw [he]
    show FloatOps.exp (subf L m (ix2 p j)) = _
    rw [subf_apply, hm, Ideal.exp_def]
  funext i
  obtain ⟨p, j, rfl⟩ : ∃ (p : Fin a) (j : Fin n), i = ix2 p j := ⟨i 0, i 1, eq_ix2 i⟩
  rw [divf_apply, hs, hE]
  unfold softmax
  show _ = Ideal.div (Ideal.exp (L (ix2 p j) - rowMax L p)) (∑ q : Fin n, Ideal.exp (L (ix2 p q) - rowMax L p))
  rw [Finset.sum_congr rfl fun q _ => hE p q]

end Softmax

/-! ## The third adjacency pass: the payload of its one store -/

/-- A matrix-unit product of a [400, 10000] by a [10000, 16] array into the zero accumulator is their product. -/
theorem dot3_eq (x0 : FVec Ideal S400x10000 .bf16) (x1 : FVec Ideal S10000x16 .bf16) :
    matmul dot_S400x10000_S10000x16_S400x16_1_0_0_1_n_n none x0 x1 (constant S400x16 .f32 0x00000000#32)
      = prod (fun i => x0 i) (fun i => x1 i) := by
  funext i
  obtain ⟨p, j, rfl⟩ : ∃ (p : Fin 400) (j : Fin 16), i = ix2 p j := ⟨i 0, i 1, eq_ix2 i⟩
  exact LibAffine.coreDot_ix2 dot_S400x10000_S10000x16_S400x16_1_0_0_1_n_n
    (LibPlainDot.contr_rank _ rfl) (LibPlainDot.contr_size _ rfl) (LibPlainDot.lhs_row _ rfl rfl) (LibPlainDot.lhs_col _ rfl)
    (LibPlainDot.rhs_row _ rfl rfl) (LibPlainDot.rhs_col _ rfl rfl rfl rfl) none x0 x1 p j

/-- The payload is the softmax of the product of the two loaded blocks. -/
theorem pay3_eq (x0 : Vec Ideal S400x10000 .bf16) (x1 : Vec Ideal S10000x16 .bf16) :
    k3_pay1 (F := Ideal) x0 x1 = softmax (prod (fun i => x0 i) (fun i => x1 i)) := by
  unfold k3_pay1
  simp only [shapeCast_self]
  rw [dot3_eq]
  exact softmax_of_parts _ _ _ _ (fun p j => (alongRows_apply _ _ _ p j).trans (rowMax_reduce _ _ _ _ p)) rfl
    (fun p j => (alongRows_apply _ _ _ p j).trans (rowSum_reduce _ _ _ _ p))

section Rows

variable {a a' k n : ℕ}

/-- An entry of the softmax of a product reads one row of the left matrix: if row y 0 of A' is row i 0 of A, the right
    matrices are the same and the columns agree, the two entries are equal. -/
theorem softmax_prod_at (A : Mat a k) (A' : Mat a' k) (R R' : Mat k n) (y : (⟨2, ![a', n]⟩ : Shape).Idx)
    (i : (⟨2, ![a, n]⟩ : Shape).Idx) (hA : ∀ q : Fin k, A' (ix2 (y 0) q) = A (ix2 (i 0) q)) (hR : R' = R)
    (hj : y 1 = i 1) : softmax (prod A' R') y = softmax (prod A R) i := by
  subst hR
  rw [eq_ix2 y, eq_ix2 i, hj]
  exact softmax_rows (prod A R') (prod A' R') (i 0) (y 0) (i 1) fun j => prod_rows A A' R' (i 0) (y 0) j hA

end Rows

/-! ## The third adjacency pass: from blocks to the array -/

section Region3

variable (V : (c : Dev nD) → (b : Ref sig .tc) → Buf (Elt Ideal) ((c : Thread nD τ).loc b))

private theorem zero_offsets : (![0, 0] : Fin 2 → Nat) = fun _ => 0 := funext fun a => by fin_cases a <;> rfl

/-- The adjacency copy and the third feature matrix as the pass finds them. -/
abbrev adj3 (c : Dev nD) : Mat 10000 10000 := fun i => V c (Pipeline.arrRef spec3 0) i
abbrev feat3In (c : Dev nD) : Mat 10000 16 := fun i => V c (Pipeline.arrRef spec3 1) i

/-- The index maps over the grid: the adjacency and the result move one block of rows per point, the feature
    matrix stays whole. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is rows 400·t … 400·t + 399 of the softmax of the adjacency times the features. -/
theorem flushed3_eq (c : Dev nD) (t : Fin cfg3.N) :
    (dat3 V c).flushed 2 t = ((cfg3.win 2).blk t).view.read (Elt Ideal) (softmax (prod (adj3 V c) (feat3In V c))) := by
  show (cfg3.win 2).cut (grid3.coords t) ((dat3 V c).after 2 t) = _
  rw [after3_2]
  unfold out3_2
  rw [View.canon_unit_zero zero_offsets]
  simp only [View.ld_unit_zero (S := S400x10000) zero_offsets, View.ld_unit_zero (S := S10000x16) zero_offsets]
  rw [pay3_eq]
  obtain ⟨e0, e1, e2, e3, e4, e5⟩ := idx_facts3 t
  funext y
  show softmax (prod (fun i => iblk3 V c 0 t i) fun i => iblk3 V c 1 t i) y
    = softmax (prod (adj3 V c) (feat3In V c)) (((cfg3.win 2).blk t).view.emb y)
  refine softmax_prod_at (adj3 V c) (fun i => iblk3 V c 0 t i) (feat3In V c) (fun i => iblk3 V c 1 t i) y
    (((cfg3.win 2).blk t).view.emb y) (fun q => ?_) (funext fun i => ?_) (Fin.ext ?_)
  · show V c (Pipeline.arrRef spec3 0) (((cfg3.win 0).blk t).view.emb (ix2 (y 0) q))
      = V c (Pipeline.arrRef spec3 0) (ix2 ((((cfg3.win 2).blk t).view.emb y) 0) q)
    refine congrArg _ (funext fun ax => Fin.ext ?_)
    match ax with
    | ⟨0, _⟩ => show win3_0.index t (0 : Fin 2) * 400 + 1 * (y 0).val = win3_2.index t (0 : Fin 2) * 400 + 1 * (y 0).val; omega
    | ⟨1, _⟩ => show win3_0.index t (1 : Fin 2) * 10000 + 1 * q.val = q.val; omega
  · show V c (Pipeline.arrRef spec3 1) (((cfg3.win 1).blk t).view.emb i) = V c (Pipeline.arrRef spec3 1) i
    refine congrArg _ (funext fun ax => Fin.ext ?_)
    match ax with
    | ⟨0, _⟩ => show win3_1.index t (0 : Fin 2) * 10000 + 1 * (i 0).val = (i 0).val; omega
    | ⟨1, _⟩ => show win3_1.index t (1 : Fin 2) * 16 + 1 * (i 1).val = (i 1).val; omega
  · show (y 1).val = win3_2.index t (1 : Fin 2) * 16 + 1 * (y 1).val; omega

/-- An index of the result is in point t's block iff each coordinate is in the block's range on its axis. -/
theorem mem_blk3 (t : Fin cfg3.N) (i : S10000x16.Idx) :
    i ∈ ((cfg3.win 2).blk t).view.set ↔ ∀ ax : Fin 2, win3_2.index t ax * S400x16.size ax ≤ (i ax).val
      ∧ (i ax).val < win3_2.index t ax * S400x16.size ax + S400x16.size ax := by
  show i ∈ ((View.whole main_v7).slice (win3_2.rect t)).set ↔ _
  rw [View.set_slice_whole, Rect.mem_set_unit]
  exact Iff.rfl

/-- Row r of the result is in the block of point r / 400. -/
theorem cover3 (i : S10000x16.Idx) :
    ∃ t : Fin cfg3.N, (cfg3.win 2).flush t = true ∧ i ∈ ((cfg3.win 2).blk t).view.set := by
  have hi0 : (i 0).val < 10000 := (i 0).isLt
  have hi1 : (i 1).val < 16 := (i 1).isLt
  have hN : (i 0).val / 400 < cfg3.N := by
    show (i 0).val / 400 < grid3.N
    rw [N_3]; omega
  obtain ⟨-, -, -, -, e4, e5⟩ := idx_facts3 ⟨(i 0).val / 400, hN⟩
  have e4' : win3_2.index ⟨(i 0).val / 400, hN⟩ (0 : Fin 2) = (i 0).val / 400 := e4
  refine ⟨⟨(i 0).val / 400, hN⟩, flush3_2 _, ?_⟩
  rw [mem_blk3]
  intro ax
  match ax with
  | ⟨0, _⟩ =>
    show win3_2.index ⟨(i 0).val / 400, hN⟩ (0 : Fin 2) * 400 ≤ (i 0).val
      ∧ (i 0).val < win3_2.index ⟨(i 0).val / 400, hN⟩ (0 : Fin 2) * 400 + 400
    omega
  | ⟨1, _⟩ =>
    show win3_2.index ⟨(i 0).val / 400, hN⟩ (1 : Fin 2) * 16 ≤ (i 1).val
      ∧ (i 1).val < win3_2.index ⟨(i 0).val / 400, hN⟩ (1 : Fin 2) * 16 + 16
    omega

/-- After the third pass its result array is the row-wise softmax of the adjacency copy times the third feature
    matrix, both as the pass found them. -/
theorem region3_eq (c : Dev nD) :
    (dat3 V c).arrAt 2 cfg3.N = softmax (prod (adj3 V c) (feat3In V c)) :=
  (dat3 V c).arrAt_eq_of_cover 2 (softmax (prod (adj3 V c) (feat3In V c))) (fun t _ => flushed3_eq V c t) cover3

end Region3

end Cert.Sdcn.Kern

end
-- ==== Proof.Regions12.lean ====
/-
  The two mixing passes over the adjacency.

  Each pass takes a block of rows of the adjacency A, a whole feature matrix F, the same rows of a second matrix T
  and a whole weight W, and leaves the same rows of (½ · max(A · F, 0) + ½ · T) · W. Every stage computes entry
  (p, j) from row p of its left operand, so the rows a grid point handles of the stage of the whole arrays are the
  stage of those rows; the blocks of rows tile the result, so after the pass the result array is the stage of the
  arrays the pass found. The first pass also leaves a copy of the adjacency it read.
-/
import proofs.«117056_g54168127537287_cont_9to1c4b_553_2_alg».proof.Proof.Gen.KernelIdeal.Frame
import proofs.«117056_g54168127537287_cont_9to1c4b_553_2_alg».proof.Proof.Spec
import proofs.«117056_g54168127537287_cont_9to1c4b_553_2_alg».proof.Proof.SpecRows
import proofs.«117056_g54168127537287_cont_9to1c4b_553_2_alg».proof.Proof.LibAffine
import proofs.«117056_g54168127537287_cont_9to1c4b_553_2_alg».proof.Proof.LibPlainDot
import Idealize.ShloMosaic.Lib.Pipeline.Value

set_option maxRecDepth 16384

noncomputable section

namespace Cert.Sdcn.Kern

open Cert.KernelIdeal Cert.KernelIdeal.Gen Idealize.ShloMosaic Idealize.ShloMosaic.ValueIdx Idealize.ShloMosaic.TcCoe Idealize.SL.Sem
open Idealize.ShloMosaic.Pipeline (Dat)

section Stage

variable {a a' k m n : ℕ}

/-- A matrix-unit product into the zero accumulator, for a dimension record that contracts the left operand's
    columns against the right operand's rows and batches nothing, is the matrix product. -/
theorem dot_eq_prod {φ₁ φ₂ : FTy} (D : DotDims ⟨2, ![a, k]⟩ ⟨2, ![k, n]⟩ ⟨2, ![a, n]⟩)
    (hlc : D.lhsContracting = [1]) (hrc : D.rhsContracting = [0]) (hln : D.lhsNonContracting = [0])
    (hrn : D.rhsNonContracting = [1]) (hlb : D.lhsBatch = []) (hrb : D.rhsBatch = [])
    (L : FVec Ideal ⟨2, ![a, k]⟩ φ₁) (R : FVec Ideal ⟨2, ![k, n]⟩ φ₂) :
    matmul D none L R (constant ⟨2, ![a, n]⟩ .f32 0x00000000#32) = prod (fun i => L i) (fun i => R i) := by
  funext i
  obtain ⟨p, j, rfl⟩ : ∃ (p : Fin a) (j : Fin n), i = ix2 p j := ⟨i 0, i 1, eq_ix2 i⟩
  exact LibAffine.coreDot_ix2 D (LibPlainDot.contr_rank D hlc) (LibPlainDot.contr_size D hlc)
    (LibPlainDot.lhs_row D hlb hln) (LibPlainDot.lhs_col D hlc) (LibPlainDot.rhs_row D hlc hrc)
    (LibPlainDot.rhs_col D hlb hln hrb hrn) none L R p j

/-- Half the rectified matrix plus half the other one, as the entrywise operations spell it. -/
theorem mix_relu_ops (P T : Mat a n) :
    addf (mulf (broadcast ⟨2, ![a, n]⟩ (Scalar.ofBits (F := Ideal) .f32 0x3F000000#32))
        (maximumf P (broadcast ⟨2, ![a, n]⟩ (Scalar.ofBits (F := Ideal) .f32 0x00000000#32))))
      (mulf (broadcast ⟨2, ![a, n]⟩ (Scalar.ofBits (F := Ideal) .f32 0x3F000000#32)) T) = mix (relu P) T := rfl

/-- An entry of (½ · max(A · F, 0) + ½ · T) · W reads one row of A and the same row of T: if row y 0 of A' and T' is
    row i 0 of A and T, the whole matrices are the same and the columns agree, the two entries are equal. -/
theorem stage_at (A : Mat a k) (A' : Mat a' k) (Fm Fm' : Mat k m) (T : Mat a m) (T' : Mat a' m) (W W' : Mat m n)
    (y : (⟨2, ![a', n]⟩ : Shape).Idx) (i : (⟨2, ![a, n]⟩ : Shape).Idx)
    (hA : ∀ q : Fin k, A' (ix2 (y 0) q) = A (ix2 (i 0) q)) (hF : Fm' = Fm)
    (hT : ∀ q : Fin m, T' (ix2 (y 0) q) = T (ix2 (i 0) q)) (hW : W' = W) (hj : y 1 = i 1) :
    prod (mix (relu (prod A' Fm')) T') W' y = prod (mix (relu (prod A Fm)) T) W i := by
  subst hF hW
  rw [eq_ix2 y, eq_ix2 i, hj]
  exact prod_rows _ _ W' (i 0) (y 0) (i 1) fun q =>
    mix_rows _ _ _ _ (i 0) (y 0) q (relu_rows _ _ (i 0) (y 0) q (prod_rows A A' Fm' (i 0) (y 0) q hA)) (hT q)

end Stage

private theorem zero_offsets : (![0, 0] : Fin 2 → Nat) = fun _ => 0 := funext fun a => by fin_cases a <;> rfl

/-! ## The second pass -/

/-- The payload of its one store is the stage of the four loaded blocks. -/
theorem pay2_eq (x0 : Vec Ideal S400x10000 .bf16) (x1 : Vec Ideal S10000x64 .bf16) (x2 : Vec Ideal S400x64 .f32)
    (x3 : Vec Ideal S64x16 .f32) :
    (fun i => k2_pay1 (F := Ideal) x0 x1 x2 x3 i : Mat 400 16)
      = prod (mix (relu (prod (fun i => x0 i) (fun i => x1 i))) (fun i => x2 i)) (fun i => x3 i) := by
  unfold k2_pay1
  simp only [shapeCast_self]
  rw [dot_eq_prod dot_S400x10000_S10000x64_S400x64_1_0_0_1_n_n rfl rfl rfl rfl rfl rfl]
  show (fun i => matmul (φ₁ := .f32) (φ₂ := .f32) dot_S400x64_S64x16_S400x16_1_0_0_1_n_n none
      (mix (relu (prod (fun i => x0 i) (fun i => x1 i))) (fun i => x2 i)) x3 (constant S400x16 .f32 0x00000000#32) i) = _
  rw [dot_eq_prod dot_S400x64_S64x16_S400x16_1_0_0_1_n_n rfl rfl rfl rfl rfl rfl]

section Region2

variable (V : (c : Dev nD) → (b : Ref sig .tc) → Buf (Elt Ideal) ((c : Thread nD τ).loc b))

/-- The four arrays of the second pass as it finds them: the adjacency copy, the second feature matrix, the embedding
    and the third graph weight. -/
abbrev adj2 (c : Dev nD) : Mat 10000 10000 := fun i => V c (Pipeline.arrRef spec2 0) i
abbrev feat2In (c : Dev nD) : Mat 10000 64 := fun i => V c (Pipeline.arrRef spec2 1) i
abbrev embed2 (c : Dev nD) : Mat 10000 64 := fun i => V c (Pipeline.arrRef spec2 2) i
abbrev weight2 (c : Dev nD) : Mat 64 16 := fun i => V c (Pipeline.arrRef spec2 3) i

/-- The index maps over the grid: the adjacency, the embedding and the result move one block of rows per point, the
    feature matrix and the weight stay whole. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is rows 400·t … 400·t + 399 of the stage of the four arrays. -/
theorem flushed2_eq (c : Dev nD) (t : Fin cfg2.N) :
    (dat2 V c).flushed 4 t = ((cfg2.win 4).blk t).view.read (Elt Ideal)
      (prod (mix (relu (prod (adj2 V c) (feat2In V c))) (embed2 V c)) (weight2 V c)) := by
  show (cfg2.win 4).cut (grid2.coords t) ((dat2 V c).after 4 t) = _
  rw [after2_4]
  unfold out2_4
  rw [View.canon_unit_zero zero_offsets]
  simp only [View.ld_unit_zero (S := S400x10000) zero_offsets, View.ld_unit_zero (S := S10000x64) zero_offsets,
    View.ld_unit_zero (S := S400x64) zero_offsets, View.ld_unit_zero (S := S64x16) zero_offsets]
  obtain ⟨e0, e1, e2, e3, e4, e5, e6, e7, e8, e9⟩ := idx_facts2 t
  funext y
  show k2_pay1 (F := Ideal) (iblk2 V c 0 t) (iblk2 V c 1 t) (iblk2 V c 2 t) (iblk2 V c 3 t) y
    = prod (mix (relu (prod (adj2 V c) (feat2In V c))) (embed2 V c)) (weight2 V c) (((cfg2.win 4).blk t).view.emb y)
  refine (congrFun (pay2_eq (iblk2 V c 0 t) (iblk2 V c 1 t) (iblk2 V c 2 t) (iblk2 V c 3 t)) y).trans ?_
  refine stage_at (adj2 V c) (fun i => iblk2 V c 0 t i) (feat2In V c) (fun i => iblk2 V c 1 t i) (embed2 V c)
    (fun i => iblk2 V c 2 t i) (weight2 V c) (fun i => iblk2 V c 3 t i) y (((cfg2.win 4).blk t).view.emb y)
    (fun q => ?_) (funext fun i => ?_) (fun q => ?_) (funext fun i => ?_) (Fin.ext ?_)
  · show V c (Pipeline.arrRef spec2 0) (((cfg2.win 0).blk t).view.emb (ix2 (y 0) q))
      = V c (Pipeline.arrRef spec2 0) (ix2 ((((cfg2.win 4).blk t).view.emb y) 0) q)
    refine congrArg _ (funext fun ax => Fin.ext ?_)
    match ax with
    | ⟨0, _⟩ => show win2_0.index t (0 : Fin 2) * 400 + 1 * (y 0).val = win2_4.index t (0 : Fin 2) * 400 + 1 * (y 0).val; omega
    | ⟨1, _⟩ => show win2_0.index t (1 : Fin 2) * 10000 + 1 * q.val = q.val; omega
  · show V c (Pipeline.arrRef spec2 1) (((cfg2.win 1).blk t).view.emb i) = V c (Pipeline.arrRef spec2 1) i
    refine congrArg _ (funext fun ax => Fin.ext ?_)
    match ax with
    | ⟨0, _⟩ => show win2_1.index t (0 : Fin 2) * 10000 + 1 * (i 0).val = (i 0).val; omega
    | ⟨1, _⟩ => show win2_1.index t (1 : Fin 2) * 64 + 1 * (i 1).val = (i 1).val; omega
  · show V c (Pipeline.arrRef spec2 2) (((cfg2.win 2).blk t).view.emb (ix2 (y 0) q))
      = V c (Pipeline.arrRef spec2 2) (ix2 ((((cfg2.win 4).blk t).view.emb y) 0) q)
    refine congrArg _ (funext fun ax => Fin.ext ?_)
    match ax with
    | ⟨0, _⟩ => show win2_2.index t (0 : Fin 2) * 400 + 1 * (y 0).val = win2_4.index t (0 : Fin 2) * 400 + 1 * (y 0).val; omega
    | ⟨1, _⟩ => show win2_2.index t (1 : Fin 2) * 64 + 1 * q.val = q.val; omega
  · show V c (Pipeline.arrRef spec2 3) (((cfg2.win 3).blk t).view.emb i) = V c (Pipeline.arrRef spec2 3) i
    refine congrArg _ (funext fun ax => Fin.ext ?_)
    match ax with
    | ⟨0, _⟩ => show win2_3.index t (0 : Fin 2) * 64 + 1 * (i 0).val = (i 0).val; omega
    | ⟨1, _⟩ => show win2_3.index t (1 : Fin 2) * 16 + 1 * (i 1).val = (i 1).val; omega
  · show (y 1).val = win2_4.index t (1 : Fin 2) * 16 + 1 * (y 1).val; omega

/-- An index of the result is in point t's block iff each coordinate is in the block's range on its axis. -/
theorem mem_blk2 (t : Fin cfg2.N) (i : S10000x16.Idx) :
    i ∈ ((cfg2.win 4).blk t).view.set ↔ ∀ ax : Fin 2, win2_4.index t ax * S400x16.size ax ≤ (i ax).val
      ∧ (i ax).val < win2_4.index t ax * S400x16.size ax + S400x16.size ax := by
  show i ∈ ((View.whole main_v6).slice (win2_4.rect t)).set ↔ _
  rw [View.set_slice_whole, Rect.mem_set_unit]
  exact Iff.rfl

/-- Row r of the result is in the block of point r / 400. -/
theorem cover2 (i : S10000x16.Idx) :
    ∃ t : Fin cfg2.N, (cfg2.win 4).flush t = true ∧ i ∈ ((cfg2.win 4).blk t).view.set := by
  have hi0 : (i 0).val < 10000 := (i 0).isLt
  have hi1 : (i 1).val < 16 := (i 1).isLt
  have hN : (i 0).val / 400 < cfg2.N := by
    show (i 0).val / 400 < grid2.N
    rw [N_2]; omega
  obtain ⟨-, -, -, -, -, -, -, -, e8, e9⟩ := idx_facts2 ⟨(i 0).val / 400, hN⟩
  have e8' : win2_4.index ⟨(i 0).val / 400, hN⟩ (0 : Fin 2) = (i 0).val / 400 := e8
  refine ⟨⟨(i 0).val / 400, hN⟩, flush2_4 _, ?_⟩
  rw [mem_blk2]
  intro ax
  match ax with
  | ⟨0, _⟩ =>
    show win2_4.index ⟨(i 0).val / 400, hN⟩ (0 : Fin 2) * 400 ≤ (i 0).val
      ∧ (i 0).val < win2_4.index ⟨(i 0).val / 400, hN⟩ (0 : Fin 2) * 400 + 400
    omega
  | ⟨1, _⟩ =>
    show win2_4.index ⟨(i 0).val / 400, hN⟩ (1 : Fin 2) * 16 ≤ (i 1).val
      ∧ (i 1).val < win2_4.index ⟨(i 0).val / 400, hN⟩ (1 : Fin 2) * 16 + 16
    omega

/-- After the second pass its result array is (½ · max(A · F, 0) + ½ · Z) · W of the four arrays as the pass found
    them. -/
theorem region2_eq (c : Dev nD) :
    (dat2 V c).arrAt 4 cfg2.N
      = prod (mix (relu (prod (adj2 V c) (feat2In V c))) (embed2 V c)) (weight2 V c) :=
  (dat2 V c).arrAt_eq_of_cover 4 (prod (mix (relu (prod (adj2 V c) (feat2In V c))) (embed2 V c)) (weight2 V c))
    (fun t _ => flushed2_eq V c t) cover2

end Region2

/-! ## The first pass -/

/-- The payload of the first store is the loaded adjacency block itself. -/
theorem pay1_copy_eq (x0 : Vec Ideal S80x10000 .f32) : (fun i => k1_pay1 (F := Ideal) x0 i : Mat 80 10000) = fun i => x0 i := rfl

/-- The payload of the second store is the stage of the four loaded blocks. -/
theorem pay1_eq (x0 : Vec Ideal S80x10000 .f32) (x1 : Vec Ideal S10000x256 .bf16) (x2 : Vec Ideal S80x256 .f32)
    (x3 : Vec Ideal S256x64 .f32) :
    (fun i => k1_pay2 (F := Ideal) x0 x1 x2 x3 i : Mat 80 64)
      = prod (mix (relu (prod (fun i => x0 i) (fun i => x1 i))) (fun i => x2 i)) (fun i => x3 i) := by
  unfold k1_pay2
  simp only [shapeCast_self]
  rw [dot_eq_prod dot_S80x10000_S10000x256_S80x256_1_0_0_1_n_n rfl rfl rfl rfl rfl rfl]
  show (fun i => matmul (φ₁ := .f32) (φ₂ := .f32) dot_S80x256_S256x64_S80x64_1_0_0_1_n_n none
      (mix (relu (prod (fun i => x0 i) (fun i => x1 i))) (fun i => x2 i)) x3 (constant S80x64 .f32 0x00000000#32) i) = _
  rw [dot_eq_prod dot_S80x256_S256x64_S80x64_1_0_0_1_n_n rfl rfl rfl rfl rfl rfl]

section Region1

variable (V : (c : Dev nD) → (b : Ref sig .tc) → Buf (Elt Ideal) ((c : Thread nD τ).loc b))

/-- The four arrays of the first pass as it finds them: the adjacency, the first feature matrix, the encoder's hidden
    layer and the second graph weight. -/
abbrev adj1 (c : Dev nD) : Mat 10000 10000 := fun i => V c (Pipeline.arrRef spec1 0) i
abbrev feat1In (c : Dev nD) : Mat 10000 256 := fun i => V c (Pipeline.arrRef spec1 1) i
abbrev hidden1 (c : Dev nD) : Mat 10000 256 := fun i => V c (Pipeline.arrRef spec1 2) i
abbrev weight1 (c : Dev nD) : Mat 256 64 := fun i => V c (Pipeline.arrRef spec1 3) i

/-- The index maps over the grid: the adjacency, the hidden layer and the two results move one block of rows per
    point, the feature matrix and the weight stay whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- What point t writes back to the copy is rows 80·t … 80·t + 79 of the adjacency. -/
theorem flushed1_copy_eq (c : Dev nD) (t : Fin cfg1.N) :
    (dat1 V c).flushed 4 t = ((cfg1.win 4).blk t).view.read (Elt Ideal) (adj1 V c) := by
  show (cfg1.win 4).cut (grid1.coords t) ((dat1 V c).after 4 t) = _
  rw [after1_4]
  unfold out1_4
  rw [View.canon_unit_zero zero_offsets]
  simp only [View.ld_unit_zero (S := S80x10000) zero_offsets]
  obtain ⟨e0, e1, e2, e3, e4, e5, e6, e7, e8, e9, e10, e11⟩ := idx_facts1 t
  funext y
  show V c (Pipeline.arrRef spec1 0) (((cfg1.win 0).blk t).view.emb y)
    = V c (Pipeline.arrRef spec1 0) (((cfg1.win 4).blk t).view.emb y)
  refine congrArg _ (funext fun ax => Fin.ext ?_)
  match ax with
  | ⟨0, _⟩ => show win1_0.index t (0 : Fin 2) * 80 + 1 * (y 0).val = win1_4.index t (0 : Fin 2) * 80 + 1 * (y 0).val; omega
  | ⟨1, _⟩ => show win1_0.index t (1 : Fin 2) * 10000 + 1 * (y 1).val = win1_4.index t (1 : Fin 2) * 10000 + 1 * (y 1).val; omega

/-- What point t writes back to the second result is rows 80·t … 80·t + 79 of the stage of the four arrays. -/
theorem flushed1_eq (c : Dev nD) (t : Fin cfg1.N) :
    (dat1 V c).flushed 5 t = ((cfg1.win 5).blk t).view.read (Elt Ideal)
      (prod (mix (relu (prod (adj1 V c) (feat1In V c))) (hidden1 V c)) (weight1 V c)) := by
  show (cfg1.win 5).cut (grid1.coords t) ((dat1 V c).after 5 t) = _
  rw [after1_5]
  unfold out1_5
  rw [View.canon_unit_zero zero_offsets]
  simp only [View.ld_unit_zero (S := S80x10000) zero_offsets, View.ld_unit_zero (S := S10000x256) zero_offsets,
    View.ld_unit_zero (S := S80x256) zero_offsets, View.ld_unit_zero (S := S256x64) zero_offsets]
  obtain ⟨e0, e1, e2, e3, e4, e5, e6, e7, e8, e9, e10, e11⟩ := idx_facts1 t
  funext y
  show k1_pay2 (F := Ideal) (iblk1 V c 0 t) (iblk1 V c 1 t) (iblk1 V c 2 t) (iblk1 V c 3 t) y
    = prod (mix (relu (prod (adj1 V c) (feat1In V c))) (hidden1 V c)) (weight1 V c) (((cfg1.win 5).blk t).view.emb y)
  refine (congrFun (pay1_eq (iblk1 V c 0 t) (iblk1 V c 1 t) (iblk1 V c 2 t) (iblk1 V c 3 t)) y).trans ?_
  refine stage_at (adj1 V c) (fun i => iblk1 V c 0 t i) (feat1In V c) (fun i => iblk1 V c 1 t i) (hidden1 V c)
    (fun i => iblk1 V c 2 t i) (weight1 V c) (fun i => iblk1 V c 3 t i) y (((cfg1.win 5).blk t).view.emb y)
    (fun q => ?_) (funext fun i => ?_) (fun q => ?_) (funext fun i => ?_) (Fin.ext ?_)
  · show V c (Pipeline.arrRef spec1 0) (((cfg1.win 0).blk t).view.emb (ix2 (y 0) q))
      = V c (Pipeline.arrRef spec1 0) (ix2 ((((cfg1.win 5).blk t).view.emb y) 0) q)
    refine congrArg _ (funext fun ax => Fin.ext ?_)
    match ax with
    | ⟨0, _⟩ => show win1_0.index t (0 : Fin 2) * 80 + 1 * (y 0).val = win1_5.index t (0 : Fin 2) * 80 + 1 * (y 0).val; omega
    | ⟨1, _⟩ => show win1_0.index t (1 : Fin 2) * 10000 + 1 * q.val = q.val; omega
  · show V c (Pipeline.arrRef spec1 1) (((cfg1.win 1).blk t).view.emb i) = V c (Pipeline.arrRef spec1 1) i
    refine congrArg _ (funext fun ax => Fin.ext ?_)
    match ax with
    | ⟨0, _⟩ => show win1_1.index t (0 : Fin 2) * 10000 + 1 * (i 0).val = (i 0).val; omega
    | ⟨1, _⟩ => show win1_1.index t (1 : Fin 2) * 256 + 1 * (i 1).val = (i 1).val; omega
  · show V c (Pipeline.arrRef spec1 2) (((cfg1.win 2).blk t).view.emb (ix2 (y 0) q))
      = V c (Pipeline.arrRef spec1 2) (ix2 ((((cfg1.win 5).blk t).view.emb y) 0) q)
    refine congrArg _ (funext fun ax => Fin.ext ?_)
    match ax with
    | ⟨0, _⟩ => show win1_2.index t (0 : Fin 2) * 80 + 1 * (y 0).val = win1_5.index t (0 : Fin 2) * 80 + 1 * (y 0).val; omega
    | ⟨1, _⟩ => show win1_2.index t (1 : Fin 2) * 256 + 1 * q.val = q.val; omega
  · show V c (Pipeline.arrRef spec1 3) (((cfg1.win 3).blk t).view.emb i) = V c (Pipeline.arrRef spec1 3) i
    refine congrArg _ (funext fun ax => Fin.ext ?_)
    match ax with
    | ⟨0, _⟩ => show win1_3.index t (0 : Fin 2) * 256 + 1 * (i 0).val = (i 0).val; omega
    | ⟨1, _⟩ => show win1_3.index t (1 : Fin 2) * 64 + 1 * (i 1).val = (i 1).val; omega
  · show (y 1).val = win1_5.index t (1 : Fin 2) * 64 + 1 * (y 1).val; omega

/-- An index of the copy is in point t's block iff each coordinate is in the block's range on its axis. -/
theorem mem_blk1_copy (t : Fin cfg1.N) (i : S10000x10000.Idx) :
    i ∈ ((cfg1.win 4).blk t).view.set ↔ ∀ ax : Fin 2, win1_4.index t ax * S80x10000.size ax ≤ (i ax).val
      ∧ (i ax).val < win1_4.index t ax * S80x10000.size ax + S80x10000.size ax := by
  show i ∈ ((View.whole main_v5_0).slice (win1_4.rect t)).set ↔ _
  rw [View.set_slice_whole, Rect.mem_set_unit]
  exact Iff.rfl

/-- An index of the second result is in point t's block iff each coordinate is in the block's range on its axis. -/
theorem mem_blk1 (t : Fin cfg1.N) (i : S10000x64.Idx) :
    i ∈ ((cfg1.win 5).blk t).view.set ↔ ∀ ax : Fin 2, win1_5.index t ax * S80x64.size ax ≤ (i ax).val
      ∧ (i ax).val < win1_5.index t ax * S80x64.size ax + S80x64.size ax := by
  show i ∈ ((View.whole main_v5_1).slice (win1_5.rect t)).set ↔ _
  rw [View.set_slice_whole, Rect.mem_set_unit]
  exact Iff.rfl

/-- Row r of the copy is in the block of point r / 80. -/
theorem cover1_copy (i : S10000x10000.Idx) :
    ∃ t : Fin cfg1.N, (cfg1.win 4).flush t = true ∧ i ∈ ((cfg1.win 4).blk t).view.set := by
  have hi0 : (i 0).val < 10000 := (i 0).isLt
  have hi1 : (i 1).val < 10000 := (i 1).isLt
  have hN : (i 0).val / 80 < cfg1.N := by
    show (i 0).val / 80 < grid1.N
    rw [N_1]; omega
  obtain ⟨-, -, -, -, -, -, -, -, e8, e9, -, -⟩ := idx_facts1 ⟨(i 0).val / 80, hN⟩
  have e8' : win1_4.index ⟨(i 0).val / 80, hN⟩ (0 : Fin 2) = (i 0).val / 80 := e8
  refine ⟨⟨(i 0).val / 80, hN⟩, flush1_4 _, ?_⟩
  rw [mem_blk1_copy]
  intro ax
  match ax with
  | ⟨0, _⟩ =>
    show win1_4.index ⟨(i 0).val / 80, hN⟩ (0 : Fin 2) * 80 ≤ (i 0).val
      ∧ (i 0).val < win1_4.index ⟨(i 0).val / 80, hN⟩ (0 : Fin 2) * 80 + 80
    omega
  | ⟨1, _⟩ =>
    show win1_4.index ⟨(i 0).val / 80, hN⟩ (1 : Fin 2) * 10000 ≤ (i 1).val
      ∧ (i 1).val < win1_4.index ⟨(i 0).val / 80, hN⟩ (1 : Fin 2) * 10000 + 10000
    omega

/-- Row r of the second result is in the block of point r / 80. -/
theorem cover1 (i : S10000x64.Idx) :
    ∃ t : Fin cfg1.N, (cfg1.win 5).flush t = true ∧ i ∈ ((cfg1.win 5).blk t).view.set := by
  have hi0 : (i 0).val < 10000 := (i 0).isLt
  have hi1 : (i 1).val < 64 := (i 1).isLt
  have hN : (i 0).val / 80 < cfg1.N := by
    show (i 0).val / 80 < grid1.N
    rw [N_1]; omega
  obtain ⟨-, -, -, -, -, -, -, -, -, -, e10, e11⟩ := idx_facts1 ⟨(i 0).val / 80, hN⟩
  have e10' : win1_5.index ⟨(i 0).val / 80, hN⟩ (0 : Fin 2) = (i 0).val / 80 := e10
  refine ⟨⟨(i 0).val / 80, hN⟩, flush1_5 _, ?_⟩
  rw [mem_blk1]
  intro ax
  match ax with
  | ⟨0, _⟩ =>
    show win1_5.index ⟨(i 0).val / 80, hN⟩ (0 : Fin 2) * 80 ≤ (i 0).val
      ∧ (i 0).val < win1_5.index ⟨(i 0).val / 80, hN⟩ (0 : Fin 2) * 80 + 80
    omega
  | ⟨1, _⟩ =>
    show win1_5.index ⟨(i 0).val / 80, hN⟩ (1 : Fin 2) * 64 ≤ (i 1).val
      ∧ (i 1).val < win1_5.index ⟨(i 0).val / 80, hN⟩ (1 : Fin 2) * 64 + 64
    omega

/-- After the first pass the copy is the adjacency the pass found. -/
theorem region1_copy_eq (c : Dev nD) : (dat1 V c).arrAt 4 cfg1.N = adj1 V c :=
  (dat1 V c).arrAt_eq_of_cover 4 (adj1 V c) (fun t _ => flushed1_copy_eq V c t) cover1_copy

/-- After the first pass its second result array is (½ · max(A · F, 0) + ½ · H) · W of the four arrays as the pass
    found them. -/
theorem region1_eq (c : Dev nD) :
    (dat1 V c).arrAt 5 cfg1.N
      = prod (mix (relu (prod (adj1 V c) (feat1In V c))) (hidden1 V c)) (weight1 V c) :=
  (dat1 V c).arrAt_eq_of_cover 5 (prod (mix (relu (prod (adj1 V c) (feat1In V c))) (hidden1 V c)) (weight1 V c))
    (fun t _ => flushed1_eq V c t) cover1

end Region1

end Cert.Sdcn.Kern

end
-- ==== Proof.PrepBlock.lean ====
/-
  One grid point of the first kernel region, as mathematics on its blocks.

  The region's body takes a block of 2000 rows of the input matrix and the whole weights, and computes on that block the
  encoder's hidden layer, the embedding, the reconstruction and the first graph feature product. Each is the
  specification's stage applied to the block: a matrix-unit product into a zero accumulator is the matrix product, a
  one-row bias broadcast over the rows and added makes it the dense layer, the maximum with a broadcast zero word is the
  rectifier, and narrowing to sixteen bits changes nothing on the extended reals.
-/
import proofs.«117056_g54168127537287_cont_9to1c4b_553_2_alg».proof.Proof.Gen.KernelIdeal.Skeleton
import proofs.«117056_g54168127537287_cont_9to1c4b_553_2_alg».proof.Proof.SpecRows
import proofs.«117056_g54168127537287_cont_9to1c4b_553_2_alg».proof.Proof.LibAffine
import proofs.«117056_g54168127537287_cont_9to1c4b_553_2_alg».proof.Proof.LibPlainDot
import Idealize.ShloMosaic.Lib.ValueLayout
import Idealize.ShloMosaic.Lib.ValueIdx
import Idealize.ShloMosaic.Lib.Pipeline.Value
import Idealize.ShloMosaic.PureOps.Ideal.Laws

noncomputable section

namespace Cert.Sdcn.Prep

open Cert.KernelIdeal Cert.KernelIdeal.Gen Idealize.ShloMosaic Idealize.ShloMosaic.ValueIdx Cert.Sdcn

variable {a k n : ℕ}

/-- A matrix-unit product of an [a, k] by a [k, n] array into the zero accumulator is the matrix product. -/
theorem coreProd {φ₁ φ₂ : FTy} (D : DotDims ⟨2, ![a, k]⟩ ⟨2, ![k, n]⟩ ⟨2, ![a, n]⟩)
    (hlc : D.lhsContracting = [1]) (hlb : D.lhsBatch = []) (hln : D.lhsNonContracting = [0])
    (hrc : D.rhsContracting = [0]) (hrb : D.rhsBatch = []) (hrn : D.rhsNonContracting = [1])
    (prec : Option ContractPrecision) (L : FVec Ideal ⟨2, ![a, k]⟩ φ₁) (R : FVec Ideal ⟨2, ![k, n]⟩ φ₂) :
    FloatOps.matmul D prec L R (constant ⟨2, ![a, n]⟩ .f32 0x00000000#32) = prod (fun i => L i) (fun i => R i) := by
  funext i
  obtain ⟨p, j, rfl⟩ : ∃ (p : Fin a) (j : Fin n), i = ix2 p j := ⟨i 0, i 1, eq_ix2 i⟩
  rw [Cert.LibAffine.coreDot_ix2 D (Cert.LibPlainDot.contr_rank D hlc) (Cert.LibPlainDot.contr_size D hlc)
    (Cert.LibPlainDot.lhs_row D hlb hln) (Cert.LibPlainDot.lhs_col D hlc) (Cert.LibPlainDot.rhs_row D hlc hrc)
    (Cert.LibPlainDot.rhs_col D hlb hln hrb hrn), prod_ix2]

/-- That product plus a one-row bias (seen through a cast to its own shape) broadcast over the rows is the dense layer. -/
theorem coreDenseRow {φ₁ φ₂ : FTy} (D : DotDims ⟨2, ![a, k]⟩ ⟨2, ![k, n]⟩ ⟨2, ![a, n]⟩)
    (hlc : D.lhsContracting = [1]) (hlb : D.lhsBatch = []) (hln : D.lhsNonContracting = [0])
    (hrc : D.rhsContracting = [0]) (hrb : D.rhsBatch = []) (hrn : D.rhsNonContracting = [1])
    (hb : (⟨2, ![1, n]⟩ : Shape).Broadcasts ⟨2, ![a, n]⟩) (hc : (⟨2, ![1, n]⟩ : Shape).ShapeCasts ⟨2, ![1, n]⟩)
    (prec : Option ContractPrecision) (L : FVec Ideal ⟨2, ![a, k]⟩ φ₁) (R : FVec Ideal ⟨2, ![k, n]⟩ φ₂)
    (B : FVec Ideal ⟨2, ![1, n]⟩ .f32) :
    addf (FloatOps.matmul D prec L R (constant ⟨2, ![a, n]⟩ .f32 0x00000000#32))
        (broadcastTo ⟨2, ![a, n]⟩ (shapeCast ⟨2, ![1, n]⟩ B hc) hb)
      = denseRow (fun i => L i) (fun i => R i) B := by
  funext i
  obtain ⟨p, j, rfl⟩ : ∃ (p : Fin a) (j : Fin n), i = ix2 p j := ⟨i 0, i 1, eq_ix2 i⟩
  rw [addf_apply, coreProd D hlc hlb hln hrc hrb hrn, shapeCast_self, broadcastTo_1b_ab_apply, denseRow_ix2]

/-- The maximum with the broadcast zero word is the rectifier. -/
theorem coreRelu (X : FVec Ideal ⟨2, ![a, n]⟩ .f32) :
    maximumf X (broadcast ⟨2, ![a, n]⟩ (Scalar.ofBits (F := Ideal) .f32 0x00000000#32)) = relu X := rfl

/-- The hidden layer of a block of rows. -/
def hiddenB (x : Vec Ideal S2000x128 .f32) (w : Vec Ideal S128x256 .f32) (b : Vec Ideal S1x256 .f32) : Mat 2000 256 :=
  relu (denseRow (fun i => x i) (fun i => w i) (fun i => b i))

/-- The embedding of a block of rows. -/
def embedB (x : Vec Ideal S2000x128 .f32) (w : Vec Ideal S128x256 .f32) (b : Vec Ideal S1x256 .f32)
    (wz : Vec Ideal S256x64 .f32) (bz : Vec Ideal S1x64 .f32) : Mat 2000 64 :=
  denseRow (hiddenB x w b) (fun i => wz i) (fun i => bz i)

/-- The reconstruction of a block of rows. -/
def reconB (x : Vec Ideal S2000x128 .f32) (w : Vec Ideal S128x256 .f32) (b : Vec Ideal S1x256 .f32)
    (wz : Vec Ideal S256x64 .f32) (bz : Vec Ideal S1x64 .f32) (wd : Vec Ideal S64x256 .f32) (bd : Vec Ideal S1x256 .f32)
    (wx : Vec Ideal S256x128 .f32) (bx : Vec Ideal S1x128 .f32) : Mat 2000 128 :=
  denseRow (relu (denseRow (embedB x w b wz bz) (fun i => wd i) (fun i => bd i))) (fun i => wx i) (fun i => bx i)

theorem pay_hidden (x : Vec Ideal S2000x128 .f32) (w : Vec Ideal S128x256 .f32) (b : Vec Ideal S1x256 .f32) :
    k0_pay3 (F := Ideal) x w b = hiddenB x w b := by
  unfold k0_pay3 hiddenB
  dsimp only
  exact (congrArg (fun X : FVec Ideal S2000x256 .f32 =>
        maximumf X (broadcast S2000x256 (Scalar.ofBits (F := Ideal) .f32 0x00000000#32)))
      (coreDenseRow dot_S2000x128_S128x256_S2000x256_1_0_0_1_n_n rfl rfl rfl rfl rfl rfl
        broadcasts_S1x256_S2000x256 shapeCasts_S1x256_S1x256 none x w b)).trans (coreRelu _)

theorem pay_embed (x : Vec Ideal S2000x128 .f32) (w : Vec Ideal S128x256 .f32) (b : Vec Ideal S1x256 .f32)
    (wz : Vec Ideal S256x64 .f32) (bz : Vec Ideal S1x64 .f32) :
    k0_pay4 (F := Ideal) x w b wz bz = embedB x w b wz bz := by
  unfold k0_pay4 embedB
  dsimp only
  rw [pay_hidden]
  exact coreDenseRow dot_S2000x256_S256x64_S2000x64_1_0_0_1_n_n rfl rfl rfl rfl rfl rfl
    broadcasts_S1x64_S2000x64 shapeCasts_S1x64_S1x64 none (hiddenB x w b) wz bz

theorem pay_recon (x : Vec Ideal S2000x128 .f32) (w : Vec Ideal S128x256 .f32) (b : Vec Ideal S1x256 .f32)
    (wz : Vec Ideal S256x64 .f32) (bz : Vec Ideal S1x64 .f32) (wd : Vec Ideal S64x256 .f32) (bd : Vec Ideal S1x256 .f32)
    (wx : Vec Ideal S256x128 .f32) (bx : Vec Ideal S1x128 .f32) :
    k0_pay5 (F := Ideal) x w b wz bz wd bd wx bx = reconB x w b wz bz wd bd wx bx := by
  unfold k0_pay5 reconB
  dsimp only
  rw [pay_embed]
  have h1 := coreDenseRow (φ₁ := .f32) (φ₂ := .f32) dot_S2000x64_S64x256_S2000x256_1_0_0_1_n_n rfl rfl rfl rfl rfl rfl
    broadcasts_S1x256_S2000x256 shapeCasts_S1x256_S1x256 none (embedB x w b wz bz) wd bd
  have h2 := (congrArg (fun X : FVec Ideal S2000x256 .f32 =>
        maximumf X (broadcast S2000x256 (Scalar.ofBits (F := Ideal) .f32 0x00000000#32))) h1).trans (coreRelu _)
  exact (congrArg (fun Y : FVec Ideal S2000x256 .f32 =>
        addf (FloatOps.matmul dot_S2000x256_S256x128_S2000x128_1_0_0_1_n_n none Y wx (constant S2000x128 .f32 0x00000000#32))
          (broadcastTo S2000x128 (shapeCast S1x128 bx shapeCasts_S1x128_S1x128) broadcasts_S1x128_S2000x128)) h2).trans
    (coreDenseRow (φ₁ := .f32) (φ₂ := .f32) dot_S2000x256_S256x128_S2000x128_1_0_0_1_n_n rfl rfl rfl rfl rfl rfl
      broadcasts_S1x128_S2000x128 shapeCasts_S1x128_S1x128 none
      (relu (denseRow (embedB x w b wz bz) (fun i => wd i) (fun i => bd i))) wx bx)

/-- The first graph feature product of a block of rows, in its sixteen-bit array. -/
theorem pay_feat1 (x : Vec Ideal S2000x128 .f32) (wg : Vec Ideal S128x256 .f32) :
    k0_pay2 (F := Ideal) x wg = fun i => prod (a := 2000) (k := 128) (n := 256) (fun i => x i) (fun i => wg i) i := by
  unfold k0_pay2
  dsimp only
  funext i
  rw [truncf_apply]
  exact congrFun (coreProd dot_S2000x128_S128x256_S2000x256_1_0_0_1_n_n rfl rfl rfl rfl rfl rfl none x wg) i

end Cert.Sdcn.Prep

end
-- ==== Proof.PrepIdx.lean ====
/-
  The geometry of the first kernel region: which entries of its arrays each grid point reads and writes.

  The grid has five points. Point t reads rows 2000·t … 2000·t + 1999 of the input matrix and the whole of every weight,
  bias and centre array, and writes rows 2000·t … 2000·t + 1999 of each of its five output arrays: the five blocks of
  an output tile its 10000 rows, so every entry of an output array lies in exactly the block of the point row / 2000.
-/
import proofs.«117056_g54168127537287_cont_9to1c4b_553_2_alg».proof.Proof.Gen.KernelIdeal.Frame
import Idealize.ShloMosaic.Lib.ValueIdx
import Idealize.ShloMosaic.Lib.Pipeline.Value

noncomputable section

set_option maxRecDepth 16384

namespace Cert.Sdcn.Prep

open Cert.KernelIdeal Cert.KernelIdeal.Gen Idealize.ShloMosaic Idealize.ShloMosaic.TcCoe Idealize.ShloMosaic.ValueIdx
open Idealize.SL.Sem
open Idealize.ShloMosaic.Pipeline (Dat Cfg Window)

theorem origin2 : (![0, 0] : Fin 2 → Nat) = fun _ => 0 := funext fun a => by fin_cases a <;> rfl

theorem points : cfg0.N = 5 := N_0

/-- Row p of point t's block is row 2000·t + p of the array. -/
def rowOf (t : Fin cfg0.N) (p : Fin 2000) : Fin 10000 :=
  ⟨t.val * 2000 + p.val, by have := t.isLt; have h := points; have := p.isLt; omega⟩

theorem rowOf_val (t : Fin cfg0.N) (p : Fin 2000) : (rowOf t p).val = t.val * 2000 + p.val := rfl

/-! ## The index maps, decided over the five points -/

theorem index_0 : ∀ t : Fin cfg0.N, win0_0.index t (0 : Fin 2) = t.val ∧ win0_0.index t (1 : Fin 2) = 0 :=
  (by decide +kernel : ∀ t : Fin grid0.N, _)
theorem index_1 : ∀ t : Fin cfg0.N, win0_1.index t (0 : Fin 2) = 0 ∧ win0_1.index t (1 : Fin 2) = 0 :=
  (by decide +kernel : ∀ t : Fin grid0.N, _)
theorem index_2 : ∀ t : Fin cfg0.N, win0_2.index t (0 : Fin 2) = 0 ∧ win0_2.index t (1 : Fin 2) = 0 :=
  (by decide +kernel : ∀ t : Fin grid0.N, _)
theorem index_3 : ∀ t : Fin cfg0.N, win0_3.index t (0 : Fin 2) = 0 ∧ win0_3.index t (1 : Fin 2) = 0 :=
  (by decide +kernel : ∀ t : Fin grid0.N, _)
theorem index_4 : ∀ t : Fin cfg0.N, win0_4.index t (0 : Fin 2) = 0 ∧ win0_4.index t (1 : Fin 2) = 0 :=
  (by decide +kernel : ∀ t : Fin grid0.N, _)
theorem index_5 : ∀ t : Fin cfg0.N, win0_5.index t (0 : Fin 2) = 0 ∧ win0_5.index t (1 : Fin 2) = 0 :=
  (by decide +kernel : ∀ t : Fin grid0.N, _)
theorem index_6 : ∀ t : Fin cfg0.N, win0_6.index t (0 : Fin 2) = 0 ∧ win0_6.index t (1 : Fin 2) = 0 :=
  (by decide +kernel : ∀ t : Fin grid0.N, _)
theorem index_7 : ∀ t : Fin cfg0.N, win0_7.index t (0 : Fin 2) = 0 ∧ win0_7.index t (1 : Fin 2) = 0 :=
  (by decide +kernel : ∀ t : Fin grid0.N, _)
theorem index_8 : ∀ t : Fin cfg0.N, win0_8.index t (0 : Fin 2) = 0 ∧ win0_8.index t (1 : Fin 2) = 0 :=
  (by decide +kernel : ∀ t : Fin grid0.N, _)
theorem index_9 : ∀ t : Fin cfg0.N, win0_9.index t (0 : Fin 2) = 0 ∧ win0_9.index t (1 : Fin 2) = 0 :=
  (by decide +kernel : ∀ t : Fin grid0.N, _)
theorem index_10 : ∀ t : Fin cfg0.N, win0_10.index t (0 : Fin 2) = 0 ∧ win0_10.index t (1 : Fin 2) = 0 :=
  (by decide +kernel : ∀ t : Fin grid0.N, _)
theorem index_11 : ∀ t : Fin cfg0.N, win0_11.index t (0 : Fin 2) = t.val ∧ win0_11.index t (1 : Fin 2) = 0 :=
  (by decide +kernel : ∀ t : Fin grid0.N, _)
theorem onto_11 : ∀ q : Fin 5, ∃ t : Fin cfg0.N, win0_11.index t = ![q.val, 0] :=
  (by decide +kernel : ∀ q : Fin 5, ∃ t : Fin grid0.N, win0_11.index t = ![q.val, 0])
theorem index_12 : ∀ t : Fin cfg0.N, win0_12.index t (0 : Fin 2) = t.val ∧ win0_12.index t (1 : Fin 2) = 0 :=
  (by decide +kernel : ∀ t : Fin grid0.N, _)
theorem onto_12 : ∀ q : Fin 5, ∃ t : Fin cfg0.N, win0_12.index t = ![q.val, 0] :=
  (by decide +kernel : ∀ q : Fin 5, ∃ t : Fin grid0.N, win0_12.index t = ![q.val, 0])
theorem index_13 : ∀ t : Fin cfg0.N, win0_13.index t (0 : Fin 2) = t.val ∧ win0_13.index t (1 : Fin 2) = 0 :=
  (by decide +kernel : ∀ t : Fin grid0.N, _)
theorem onto_13 : ∀ q : Fin 5, ∃ t : Fin cfg0.N, win0_13.index t = ![q.val, 0] :=
  (by decide +kernel : ∀ q : Fin 5, ∃ t : Fin grid0.N, win0_13.index t = ![q.val, 0])
theorem index_14 : ∀ t : Fin cfg0.N, win0_14.index t (0 : Fin 2) = t.val ∧ win0_14.index t (1 : Fin 2) = 0 :=
  (by decide +kernel : ∀ t : Fin grid0.N, _)
theorem onto_14 : ∀ q : Fin 5, ∃ t : Fin cfg0.N, win0_14.index t = ![q.val, 0] :=
  (by decide +kernel : ∀ q : Fin 5, ∃ t : Fin grid0.N, win0_14.index t = ![q.val, 0])
theorem index_15 : ∀ t : Fin cfg0.N, win0_15.index t (0 : Fin 2) = t.val ∧ win0_15.index t (1 : Fin 2) = 0 :=
  (by decide +kernel : ∀ t : Fin grid0.N, _)
theorem onto_15 : ∀ q : Fin 5, ∃ t : Fin cfg0.N, win0_15.index t = ![q.val, 0] :=
  (by decide +kernel : ∀ q : Fin 5, ∃ t : Fin grid0.N, win0_15.index t = ![q.val, 0])

variable (V : (c : Dev nD) → (b : Ref sig .tc) → Buf (Elt Ideal) ((c : Thread nD τ).loc b))

/-! ## What a point reads -/

/-- Entry (p, q) of point t's block of the input matrix is entry (2000·t + p, q) of the matrix. -/
theorem entry_0 (c : Dev nD) (t : Fin cfg0.N) (p : Fin 2000) (q : Fin 128) :
    iblk0 V c 0 t (ix2 p q) = V c (Pipeline.arrRef spec0 0) (ix2 (rowOf t p) q) := by
  show V c (Pipeline.arrRef spec0 0) (((cfg0.win 0).blk t).view.emb (ix2 p q)) = _
  refine congrArg _ (funext fun a => Fin.ext ?_)
  obtain ⟨e0, e1⟩ := index_0 t
  match a with
  | ⟨0, _⟩ => show win0_0.index t (0 : Fin 2) * 2000 + 1 * p.val = t.val * 2000 + p.val; omega
  | ⟨1, _⟩ => show win0_0.index t (1 : Fin 2) * 128 + 1 * q.val = q.val; omega

/-- Point t's block of array 1 is the whole array. -/
theorem entry_1 (c : Dev nD) (t : Fin cfg0.N) (i : (⟨2, ![128, 256]⟩ : Shape).Idx) :
    iblk0 V c 1 t i = V c (Pipeline.arrRef spec0 1) i := by
  show V c (Pipeline.arrRef spec0 1) (((cfg0.win 1).blk t).view.emb i) = _
  refine congrArg _ (funext fun a => Fin.ext ?_)
  obtain ⟨e0, e1⟩ := index_1 t
  match a with
  | ⟨0, _⟩ => show win0_1.index t (0 : Fin 2) * 128 + 1 * (i 0).val = (i 0).val; omega
  | ⟨1, _⟩ => show win0_1.index t (1 : Fin 2) * 256 + 1 * (i 1).val = (i 1).val; omega

/-- Point t's block of array 2 is the whole array. -/
theorem entry_2 (c : Dev nD) (t : Fin cfg0.N) (i : (⟨2, ![1, 256]⟩ : Shape).Idx) :
    iblk0 V c 2 t i = V c (Pipeline.arrRef spec0 2) i := by
  show V c (Pipeline.arrRef spec0 2) (((cfg0.win 2).blk t).view.emb i) = _
  refine congrArg _ (funext fun a => Fin.ext ?_)
  obtain ⟨e0, e1⟩ := index_2 t
  match a with
  | ⟨0, _⟩ => show win0_2.index t (0 : Fin 2) * 1 + 1 * (i 0).val = (i 0).val; omega
  | ⟨1, _⟩ => show win0_2.index t (1 : Fin 2) * 256 + 1 * (i 1).val = (i 1).val; omega

/-- Point t's block of array 3 is the whole array. -/
theorem entry_3 (c : Dev nD) (t : Fin cfg0.N) (i : (⟨2, ![256, 64]⟩ : Shape).Idx) :
    iblk0 V c 3 t i = V c (Pipeline.arrRef spec0 3) i := by
  show V c (Pipeline.arrRef spec0 3) (((cfg0.win 3).blk t).view.emb i) = _
  refine congrArg _ (funext fun a => Fin.ext ?_)
  obtain ⟨e0, e1⟩ := index_3 t
  match a with
  | ⟨0, _⟩ => show win0_3.index t (0 : Fin 2) * 256 + 1 * (i 0).val = (i 0).val; omega
  | ⟨1, _⟩ => show win0_3.index t (1 : Fin 2) * 64 + 1 * (i 1).val = (i 1).val; omega

/-- Point t's block of array 4 is the whole array. -/
theorem entry_4 (c : Dev nD) (t : Fin cfg0.N) (i : (⟨2, ![1, 64]⟩ : Shape).Idx) :
    iblk0 V c 4 t i = V c (Pipeline.arrRef spec0 4) i := by
  show V c (Pipeline.arrRef spec0 4) (((cfg0.win 4).blk t).view.emb i) = _
  refine congrArg _ (funext fun a => Fin.ext ?_)
  obtain ⟨e0, e1⟩ := index_4 t
  match a with
  | ⟨0, _⟩ => show win0_4.index t (0 : Fin 2) * 1 + 1 * (i 0).val = (i 0).val; omega
  | ⟨1, _⟩ => show win0_4.index t (1 : Fin 2) * 64 + 1 * (i 1).val = (i 1).val; omega

/-- Point t's block of array 5 is the whole array. -/
theorem entry_5 (c : Dev nD) (t : Fin cfg0.N) (i : (⟨2, ![64, 256]⟩ : Shape).Idx) :
    iblk0 V c 5 t i = V c (Pipeline.arrRef spec0 5) i := by
  show V c (Pipeline.arrRef spec0 5) (((cfg0.win 5).blk t).view.emb i) = _
  refine congrArg _ (funext fun a => Fin.ext ?_)
  obtain ⟨e0, e1⟩ := index_5 t
  match a with
  | ⟨0, _⟩ => show win0_5.index t (0 : Fin 2) * 64 + 1 * (i 0).val = (i 0).val; omega
  | ⟨1, _⟩ => show win0_5.index t (1 : Fin 2) * 256 + 1 * (i 1).val = (i 1).val; omega

/-- Point t's block of array 6 is the whole array. -/
theorem entry_6 (c : Dev nD) (t : Fin cfg0.N) (i : (⟨2, ![1, 256]⟩ : Shape).Idx) :
    iblk0 V c 6 t i = V c (Pipeline.arrRef spec0 6) i := by
  show V c (Pipeline.arrRef spec0 6) (((cfg0.win 6).blk t).view.emb i) = _
  refine congrArg _ (funext fun a => Fin.ext ?_)
  obtain ⟨e0, e1⟩ := index_6 t
  match a with
  | ⟨0, _⟩ => show win0_6.index t (0 : Fin 2) * 1 + 1 * (i 0).val = (i 0).val; omega
  | ⟨1, _⟩ => show win0_6.index t (1 : Fin 2) * 256 + 1 * (i 1).val = (i 1).val; omega

/-- Point t's block of array 7 is the whole array. -/
theorem entry_7 (c : Dev nD) (t : Fin cfg0.N) (i : (⟨2, ![256, 128]⟩ : Shape).Idx) :
    iblk0 V c 7 t i = V c (Pipeline.arrRef spec0 7) i := by
  show V c (Pipeline.arrRef spec0 7) (((cfg0.win 7).blk t).view.emb i) = _
  refine congrArg _ (funext fun a => Fin.ext ?_)
  obtain ⟨e0, e1⟩ := index_7 t
  match a with
  | ⟨0, _⟩ => show win0_7.index t (0 : Fin 2) * 256 + 1 * (i 0).val = (i 0).val; omega
  | ⟨1, _⟩ => show win0_7.index t (1 : Fin 2) * 128 + 1 * (i 1).val = (i 1).val; omega

/-- Point t's block of array 8 is the whole array. -/
theorem entry_8 (c : Dev nD) (t : Fin cfg0.N) (i : (⟨2, ![1, 128]⟩ : Shape).Idx) :
    iblk0 V c 8 t i = V c (Pipeline.arrRef spec0 8) i := by
  show V c (Pipeline.arrRef spec0 8) (((cfg0.win 8).blk t).view.emb i) = _
  refine congrArg _ (funext fun a => Fin.ext ?_)
  obtain ⟨e0, e1⟩ := index_8 t
  match a with
  | ⟨0, _⟩ => show win0_8.index t (0 : Fin 2) * 1 + 1 * (i 0).val = (i 0).val; omega
  | ⟨1, _⟩ => show win0_8.index t (1 : Fin 2) * 128 + 1 * (i 1).val = (i 1).val; omega

/-- Point t's block of array 9 is the whole array. -/
theorem entry_9 (c : Dev nD) (t : Fin cfg0.N) (i : (⟨2, ![128, 256]⟩ : Shape).Idx) :
    iblk0 V c 9 t i = V c (Pipeline.arrRef spec0 9) i := by
  show V c (Pipeline.arrRef spec0 9) (((cfg0.win 9).blk t).view.emb i) = _
  refine congrArg _ (funext fun a => Fin.ext ?_)
  obtain ⟨e0, e1⟩ := index_9 t
  match a with
  | ⟨0, _⟩ => show win0_9.index t (0 : Fin 2) * 128 + 1 * (i 0).val = (i 0).val; omega
  | ⟨1, _⟩ => show win0_9.index t (1 : Fin 2) * 256 + 1 * (i 1).val = (i 1).val; omega

/-- Point t's block of array 10 is the whole array. -/
theorem entry_10 (c : Dev nD) (t : Fin cfg0.N) (i : (⟨2, ![16, 64]⟩ : Shape).Idx) :
    iblk0 V c 10 t i = V c (Pipeline.arrRef spec0 10) i := by
  show V c (Pipeline.arrRef spec0 10) (((cfg0.win 10).blk t).view.emb i) = _
  refine congrArg _ (funext fun a => Fin.ext ?_)
  obtain ⟨e0, e1⟩ := index_10 t
  match a with
  | ⟨0, _⟩ => show win0_10.index t (0 : Fin 2) * 16 + 1 * (i 0).val = (i 0).val; omega
  | ⟨1, _⟩ => show win0_10.index t (1 : Fin 2) * 64 + 1 * (i 1).val = (i 1).val; omega

/-! ## What a point writes -/

/-- Entry y of point t's block of output 11 sits at row 2000·t + y₀, column y₁ of the array. -/
theorem place_11 (t : Fin cfg0.N) (y : (⟨2, ![2000, 128]⟩ : Shape).Idx) :
    ((cfg0.win 11).blk t).view.emb y = ix2 (rowOf t (y 0)) (y 1) := by
  funext a; apply Fin.ext
  obtain ⟨e0, e1⟩ := index_11 t
  match a with
  | ⟨0, _⟩ => show win0_11.index t (0 : Fin 2) * 2000 + 1 * (y 0).val = t.val * 2000 + (y 0).val; omega
  | ⟨1, _⟩ => show win0_11.index t (1 : Fin 2) * 128 + 1 * (y 1).val = (y 1).val; omega

theorem mem_11 (t : Fin cfg0.N) (i : (⟨2, ![10000, 128]⟩ : Shape).Idx) :
    i ∈ ((cfg0.win 11).blk t).view.set ↔ ∀ a : Fin 2, win0_11.index t a * (⟨2, ![2000, 128]⟩ : Shape).size a ≤ (i a).val
      ∧ (i a).val < win0_11.index t a * (⟨2, ![2000, 128]⟩ : Shape).size a + (⟨2, ![2000, 128]⟩ : Shape).size a := by
  show i ∈ ((View.whole main_v4_0).slice (win0_11.rect t)).set ↔ _
  rw [View.set_slice_whole, Rect.mem_set_unit]
  exact Iff.rfl

/-- Every entry of output 11 lies in the block of the point row / 2000. -/
theorem cover_11 (i : (⟨2, ![10000, 128]⟩ : Shape).Idx) :
    ∃ t : Fin cfg0.N, (cfg0.win 11).flush t = true ∧ i ∈ ((cfg0.win 11).blk t).view.set := by
  have hi0 : (i 0).val < 10000 := (i 0).isLt
  have hi1 : (i 1).val < 128 := (i 1).isLt
  obtain ⟨t, ht⟩ := onto_11 ⟨(i 0).val / 2000, by omega⟩
  have q0 : win0_11.index t (0 : Fin 2) = (i 0).val / 2000 := congrFun ht 0
  have q1 : win0_11.index t (1 : Fin 2) = 0 := congrFun ht 1
  refine ⟨t, flush0_11 t, ?_⟩
  rw [mem_11]
  intro a
  match a with
  | ⟨0, _⟩ => show win0_11.index t (0 : Fin 2) * 2000 ≤ (i 0).val ∧ (i 0).val < win0_11.index t (0 : Fin 2) * 2000 + 2000; omega
  | ⟨1, _⟩ => show win0_11.index t (1 : Fin 2) * 128 ≤ (i 1).val ∧ (i 1).val < win0_11.index t (1 : Fin 2) * 128 + 128; omega

/-- Entry y of point t's block of output 12 sits at row 2000·t + y₀, column y₁ of the array. -/
theorem place_12 (t : Fin cfg0.N) (y : (⟨2, ![2000, 16]⟩ : Shape).Idx) :
    ((cfg0.win 12).blk t).view.emb y = ix2 (rowOf t (y 0)) (y 1) := by
  funext a; apply Fin.ext
  obtain ⟨e0, e1⟩ := index_12 t
  match a with
  | ⟨0, _⟩ => show win0_12.index t (0 : Fin 2) * 2000 + 1 * (y 0).val = t.val * 2000 + (y 0).val; omega
  | ⟨1, _⟩ => show win0_12.index t (1 : Fin 2) * 16 + 1 * (y 1).val = (y 1).val; omega

theorem mem_12 (t : Fin cfg0.N) (i : (⟨2, ![10000, 16]⟩ : Shape).Idx) :
    i ∈ ((cfg0.win 12).blk t).view.set ↔ ∀ a : Fin 2, win0_12.index t a * (⟨2, ![2000, 16]⟩ : Shape).size a ≤ (i a).val
      ∧ (i a).val < win0_12.index t a * (⟨2, ![2000, 16]⟩ : Shape).size a + (⟨2, ![2000, 16]⟩ : Shape).size a := by
  show i ∈ ((View.whole main_v4_1).slice (win0_12.rect t)).set ↔ _
  rw [View.set_slice_whole, Rect.mem_set_unit]
  exact Iff.rfl

/-- Every entry of output 12 lies in the block of the point row / 2000. -/
theorem cover_12 (i : (⟨2, ![10000, 16]⟩ : Shape).Idx) :
    ∃ t : Fin cfg0.N, (cfg0.win 12).flush t = true ∧ i ∈ ((cfg0.win 12).blk t).view.set := by
  have hi0 : (i 0).val < 10000 := (i 0).isLt
  have hi1 : (i 1).val < 16 := (i 1).isLt
  obtain ⟨t, ht⟩ := onto_12 ⟨(i 0).val / 2000, by omega⟩
  have q0 : win0_12.index t (0 : Fin 2) = (i 0).val / 2000 := congrFun ht 0
  have q1 : win0_12.index t (1 : Fin 2) = 0 := congrFun ht 1
  refine ⟨t, flush0_12 t, ?_⟩
  rw [mem_12]
  intro a
  match a with
  | ⟨0, _⟩ => show win0_12.index t (0 : Fin 2) * 2000 ≤ (i 0).val ∧ (i 0).val < win0_12.index t (0 : Fin 2) * 2000 + 2000; omega
  | ⟨1, _⟩ => show win0_12.index t (1 : Fin 2) * 16 ≤ (i 1).val ∧ (i 1).val < win0_12.index t (1 : Fin 2) * 16 + 16; omega

/-- Entry y of point t's block of output 13 sits at row 2000·t + y₀, column y₁ of the array. -/
theorem place_13 (t : Fin cfg0.N) (y : (⟨2, ![2000, 64]⟩ : Shape).Idx) :
    ((cfg0.win 13).blk t).view.emb y = ix2 (rowOf t (y 0)) (y 1) := by
  funext a; apply Fin.ext
  obtain ⟨e0, e1⟩ := index_13 t
  match a with
  | ⟨0, _⟩ => show win0_13.index t (0 : Fin 2) * 2000 + 1 * (y 0).val = t.val * 2000 + (y 0).val; omega
  | ⟨1, _⟩ => show win0_13.index t (1 : Fin 2) * 64 + 1 * (y 1).val = (y 1).val; omega

theorem mem_13 (t : Fin cfg0.N) (i : (⟨2, ![10000, 64]⟩ : Shape).Idx) :
    i ∈ ((cfg0.win 13).blk t).view.set ↔ ∀ a : Fin 2, win0_13.index t a * (⟨2, ![2000, 64]⟩ : Shape).size a ≤ (i a).val
      ∧ (i a).val < win0_13.index t a * (⟨2, ![2000, 64]⟩ : Shape).size a + (⟨2, ![2000, 64]⟩ : Shape).size a := by
  show i ∈ ((View.whole main_v4_2).slice (win0_13.rect t)).set ↔ _
  rw [View.set_slice_whole, Rect.mem_set_unit]
  exact Iff.rfl

/-- Every entry of output 13 lies in the block of the point row / 2000. -/
theorem cover_13 (i : (⟨2, ![10000, 64]⟩ : Shape).Idx) :
    ∃ t : Fin cfg0.N, (cfg0.win 13).flush t = true ∧ i ∈ ((cfg0.win 13).blk t).view.set := by
  have hi0 : (i 0).val < 10000 := (i 0).isLt
  have hi1 : (i 1).val < 64 := (i 1).isLt
  obtain ⟨t, ht⟩ := onto_13 ⟨(i 0).val / 2000, by omega⟩
  have q0 : win0_13.index t (0 : Fin 2) = (i 0).val / 2000 := congrFun ht 0
  have q1 : win0_13.index t (1 : Fin 2) = 0 := congrFun ht 1
  refine ⟨t, flush0_13 t, ?_⟩
  rw [mem_13]
  intro a
  match a with
  | ⟨0, _⟩ => show win0_13.index t (0 : Fin 2) * 2000 ≤ (i 0).val ∧ (i 0).val < win0_13.index t (0 : Fin 2) * 2000 + 2000; omega
  | ⟨1, _⟩ => show win0_13.index t (1 : Fin 2) * 64 ≤ (i 1).val ∧ (i 1).val < win0_13.index t (1 : Fin 2) * 64 + 64; omega

/-- Entry y of point t's block of output 14 sits at row 2000·t + y₀, column y₁ of the array. -/
theorem place_14 (t : Fin cfg0.N) (y : (⟨2, ![2000, 256]⟩ : Shape).Idx) :
    ((cfg0.win 14).blk t).view.emb y = ix2 (rowOf t (y 0)) (y 1) := by
  funext a; apply Fin.ext
  obtain ⟨e0, e1⟩ := index_14 t
  match a with
  | ⟨0, _⟩ => show win0_14.index t (0 : Fin 2) * 2000 + 1 * (y 0).val = t.val * 2000 + (y 0).val; omega
  | ⟨1, _⟩ => show win0_14.index t (1 : Fin 2) * 256 + 1 * (y 1).val = (y 1).val; omega

theorem mem_14 (t : Fin cfg0.N) (i : (⟨2, ![10000, 256]⟩ : Shape).Idx) :
    i ∈ ((cfg0.win 14).blk t).view.set ↔ ∀ a : Fin 2, win0_14.index t a * (⟨2, ![2000, 256]⟩ : Shape).size a ≤ (i a).val
      ∧ (i a).val < win0_14.index t a * (⟨2, ![2000, 256]⟩ : Shape).size a + (⟨2, ![2000, 256]⟩ : Shape).size a := by
  show i ∈ ((View.whole main_v4_3).slice (win0_14.rect t)).set ↔ _
  rw [View.set_slice_whole, Rect.mem_set_unit]
  exact Iff.rfl

/-- Every entry of output 14 lies in the block of the point row / 2000. -/
theorem cover_14 (i : (⟨2, ![10000, 256]⟩ : Shape).Idx) :
    ∃ t : Fin cfg0.N, (cfg0.win 14).flush t = true ∧ i ∈ ((cfg0.win 14).blk t).view.set := by
  have hi0 : (i 0).val < 10000 := (i 0).isLt
  have hi1 : (i 1).val < 256 := (i 1).isLt
  obtain ⟨t, ht⟩ := onto_14 ⟨(i 0).val / 2000, by omega⟩
  have q0 : win0_14.index t (0 : Fin 2) = (i 0).val / 2000 := congrFun ht 0
  have q1 : win0_14.index t (1 : Fin 2) = 0 := congrFun ht 1
  refine ⟨t, flush0_14 t, ?_⟩
  rw [mem_14]
  intro a
  match a with
  | ⟨0, _⟩ => show win0_14.index t (0 : Fin 2) * 2000 ≤ (i 0).val ∧ (i 0).val < win0_14.index t (0 : Fin 2) * 2000 + 2000; omega
  | ⟨1, _⟩ => show win0_14.index t (1 : Fin 2) * 256 ≤ (i 1).val ∧ (i 1).val < win0_14.index t (1 : Fin 2) * 256 + 256; omega

/-- Entry y of point t's block of output 15 sits at row 2000·t + y₀, column y₁ of the array. -/
theorem place_15 (t : Fin cfg0.N) (y : (⟨2, ![2000, 256]⟩ : Shape).Idx) :
    ((cfg0.win 15).blk t).view.emb y = ix2 (rowOf t (y 0)) (y 1) := by
  funext a; apply Fin.ext
  obtain ⟨e0, e1⟩ := index_15 t
  match a with
  | ⟨0, _⟩ => show win0_15.index t (0 : Fin 2) * 2000 + 1 * (y 0).val = t.val * 2000 + (y 0).val; omega
  | ⟨1, _⟩ => show win0_15.index t (1 : Fin 2) * 256 + 1 * (y 1).val = (y 1).val; omega

theorem mem_15 (t : Fin cfg0.N) (i : (⟨2, ![10000, 256]⟩ : Shape).Idx) :
    i ∈ ((cfg0.win 15).blk t).view.set ↔ ∀ a : Fin 2, win0_15.index t a * (⟨2, ![2000, 256]⟩ : Shape).size a ≤ (i a).val
      ∧ (i a).val < win0_15.index t a * (⟨2, ![2000, 256]⟩ : Shape).size a + (⟨2, ![2000, 256]⟩ : Shape).size a := by
  show i ∈ ((View.whole main_v4_4).slice (win0_15.rect t)).set ↔ _
  rw [View.set_slice_whole, Rect.mem_set_unit]
  exact Iff.rfl

/-- Every entry of output 15 lies in the block of the point row / 2000. -/
theorem cover_15 (i : (⟨2, ![10000, 256]⟩ : Shape).Idx) :
    ∃ t : Fin cfg0.N, (cfg0.win 15).flush t = true ∧ i ∈ ((cfg0.win 15).blk t).view.set := by
  have hi0 : (i 0).val < 10000 := (i 0).isLt
  have hi1 : (i 1).val < 256 := (i 1).isLt
  obtain ⟨t, ht⟩ := onto_15 ⟨(i 0).val / 2000, by omega⟩
  have q0 : win0_15.index t (0 : Fin 2) = (i 0).val / 2000 := congrFun ht 0
  have q1 : win0_15.index t (1 : Fin 2) = 0 := congrFun ht 1
  refine ⟨t, flush0_15 t, ?_⟩
  rw [mem_15]
  intro a
  match a with
  | ⟨0, _⟩ => show win0_15.index t (0 : Fin 2) * 2000 ≤ (i 0).val ∧ (i 0).val < win0_15.index t (0 : Fin 2) * 2000 + 2000; omega
  | ⟨1, _⟩ => show win0_15.index t (1 : Fin 2) * 256 ≤ (i 1).val ∧ (i 1).val < win0_15.index t (1 : Fin 2) * 256 + 256; omega

end Cert.Sdcn.Prep

end
-- ==== Proof.PrepValue.lean ====
/-
  The first kernel region as whole-array functions.

  From the arrays the region finds on entry (the input matrix, the weights, the one-row biases, the centres) its five
  output arrays end holding the encoder's hidden layer, the embedding, the reconstruction, the first graph feature
  product and the soft assignment of those arrays. Each grid point computes its block of 2000 rows from the same rows
  of the input matrix; a stage's entry (p, j) reads only row p of its matrix operand, so the block a point writes back
  is that block of the whole-array stage; the five blocks tile each output.
-/
import proofs.«117056_g54168127537287_cont_9to1c4b_553_2_alg».proof.Proof.Gen.KernelIdeal.Frame
import proofs.«117056_g54168127537287_cont_9to1c4b_553_2_alg».proof.Proof.PrepBlock
import proofs.«117056_g54168127537287_cont_9to1c4b_553_2_alg».proof.Proof.PrepIdx
import proofs.«117056_g54168127537287_cont_9to1c4b_553_2_alg».proof.Proof.SpecRows
import Idealize.ShloMosaic.Lib.Pipeline.Value

noncomputable section

set_option maxRecDepth 16384

namespace Cert.Sdcn.Prep

open Cert.KernelIdeal Cert.KernelIdeal.Gen Idealize.ShloMosaic Idealize.ShloMosaic.TcCoe Idealize.ShloMosaic.ValueIdx Cert.Sdcn
open Idealize.SL.Sem
open Idealize.ShloMosaic.Pipeline (Dat Cfg Window)

variable {a a' k n : ℕ}

/-- A product's entry (p, j) reads row p of the left operand and column j of the right one. -/
theorem prod_congr_at (L : Mat a k) (L' : Mat a' k) (R R' : Mat k n) (p : Fin a) (p' : Fin a') (j : Fin n)
    (hL : ∀ q : Fin k, L' (ix2 p' q) = L (ix2 p q)) (hR : ∀ q : Fin k, R' (ix2 q j) = R (ix2 q j)) :
    prod L' R' (ix2 p' j) = prod L R (ix2 p j) := by
  rw [prod_ix2, prod_ix2]
  exact Finset.sum_congr rfl fun q _ => by rw [hL q, hR q]

/-- A dense layer's entry (p, j) reads row p of the matrix, column j of the weight and entry j of the bias row. -/
theorem denseRow_congr_at (L : Mat a k) (L' : Mat a' k) (R R' : Mat k n) (B B' : Mat 1 n) (p : Fin a) (p' : Fin a') (j : Fin n)
    (hL : ∀ q : Fin k, L' (ix2 p' q) = L (ix2 p q)) (hR : ∀ q : Fin k, R' (ix2 q j) = R (ix2 q j))
    (hB : B' (ix2 (0 : Fin 1) j) = B (ix2 (0 : Fin 1) j)) :
    denseRow L' R' B' (ix2 p' j) = denseRow L R B (ix2 p j) := by
  rw [denseRow_ix2, denseRow_ix2, prod_congr_at L L' R R' p p' j hL hR, hB]

variable (V : (c : Dev nD) → (b : Ref sig .tc) → Buf (Elt Ideal) ((c : Thread nD τ).loc b))

/-! ## The arrays the region finds, and the stages of them -/

def xA (c : Dev nD) : Mat 10000 128 := fun i => V c (Pipeline.arrRef spec0 0) i
def w1A (c : Dev nD) : Mat 128 256 := fun i => V c (Pipeline.arrRef spec0 1) i
def b1A (c : Dev nD) : Mat 1 256 := fun i => V c (Pipeline.arrRef spec0 2) i
def wzA (c : Dev nD) : Mat 256 64 := fun i => V c (Pipeline.arrRef spec0 3) i
def bzA (c : Dev nD) : Mat 1 64 := fun i => V c (Pipeline.arrRef spec0 4) i
def wdA (c : Dev nD) : Mat 64 256 := fun i => V c (Pipeline.arrRef spec0 5) i
def bdA (c : Dev nD) : Mat 1 256 := fun i => V c (Pipeline.arrRef spec0 6) i
def wxA (c : Dev nD) : Mat 256 128 := fun i => V c (Pipeline.arrRef spec0 7) i
def bxA (c : Dev nD) : Mat 1 128 := fun i => V c (Pipeline.arrRef spec0 8) i
def wgA (c : Dev nD) : Mat 128 256 := fun i => V c (Pipeline.arrRef spec0 9) i
def clA (c : Dev nD) : Mat 16 64 := fun i => V c (Pipeline.arrRef spec0 10) i

/-- The hidden layer, the embedding, the reconstruction and the first feature product of the arrays as found. -/
def hiddenW (c : Dev nD) : Mat 10000 256 := relu (denseRow (xA V c) (w1A V c) (b1A V c))
def embedW (c : Dev nD) : Mat 10000 64 := denseRow (hiddenW V c) (wzA V c) (bzA V c)
def reconW (c : Dev nD) : Mat 10000 128 :=
  denseRow (relu (denseRow (embedW V c) (wdA V c) (bdA V c))) (wxA V c) (bxA V c)
def feat1W (c : Dev nD) : Mat 10000 256 := prod (xA V c) (wgA V c)

/-! ## A point's block of rows is the stage's block of rows -/

theorem hidden_blk (c : Dev nD) (t : Fin cfg0.N) (p : Fin 2000) (q : Fin 256) :
    hiddenB (iblk0 V c 0 t) (iblk0 V c 1 t) (iblk0 V c 2 t) (ix2 p q) = hiddenW V c (ix2 (rowOf t p) q) := by
  unfold hiddenB hiddenW
  exact relu_rows _ _ _ _ _ (denseRow_congr_at _ _ _ _ _ _ _ _ _ (fun q' => entry_0 V c t p q')
    (fun q' => entry_1 V c t _) (entry_2 V c t _))

theorem embed_blk (c : Dev nD) (t : Fin cfg0.N) (p : Fin 2000) (q : Fin 64) :
    embedB (iblk0 V c 0 t) (iblk0 V c 1 t) (iblk0 V c 2 t) (iblk0 V c 3 t) (iblk0 V c 4 t) (ix2 p q)
      = embedW V c (ix2 (rowOf t p) q) := by
  unfold embedB embedW
  exact denseRow_congr_at _ _ _ _ _ _ _ _ _ (fun q' => hidden_blk V c t p q')
    (fun q' => entry_3 V c t _) (entry_4 V c t _)

theorem recon_blk (c : Dev nD) (t : Fin cfg0.N) (p : Fin 2000) (q : Fin 128) :
    reconB (iblk0 V c 0 t) (iblk0 V c 1 t) (iblk0 V c 2 t) (iblk0 V c 3 t) (iblk0 V c 4 t) (iblk0 V c 5 t)
        (iblk0 V c 6 t) (iblk0 V c 7 t) (iblk0 V c 8 t) (ix2 p q)
      = reconW V c (ix2 (rowOf t p) q) := by
  unfold reconB reconW
  exact denseRow_congr_at _ _ _ _ _ _ _ _ _
    (fun q' => relu_rows _ _ _ _ _ (denseRow_congr_at _ _ _ _ _ _ _ _ _ (fun q'' => embed_blk V c t p q'')
      (fun q'' => entry_5 V c t _) (entry_6 V c t _)))
    (fun q' => entry_7 V c t _) (entry_8 V c t _)

theorem feat1_blk (c : Dev nD) (t : Fin cfg0.N) (p : Fin 2000) (q : Fin 256) :
    prod (a := 2000) (k := 128) (n := 256) (fun i => iblk0 V c 0 t i) (fun i => iblk0 V c 9 t i) (ix2 p q)
      = feat1W V c (ix2 (rowOf t p) q) := by
  unfold feat1W
  exact prod_congr_at _ _ _ _ _ _ _ (fun q' => entry_0 V c t p q') (fun q' => entry_9 V c t _)

/-! ## What each point writes back, and the arrays after the region -/

theorem flushed_14 (c : Dev nD) (t : Fin cfg0.N) :
    (dat0 V c).flushed 14 t = ((cfg0.win 14).blk t).view.read (Elt Ideal) (hiddenW V c) := by
  show (cfg0.win 14).cut (grid0.coords t) ((dat0 V c).after 14 t) = _
  rw [after0_14]
  unfold out0_14
  rw [View.canon_unit_zero origin2]
  simp only [View.ld_unit_zero (S := S2000x128) origin2, View.ld_unit_zero (S := S128x256) origin2, View.ld_unit_zero (S := S1x256) origin2, View.ld_unit_zero (S := S256x64) origin2, View.ld_unit_zero (S := S1x64) origin2, View.ld_unit_zero (S := S64x256) origin2, View.ld_unit_zero (S := S256x128) origin2, View.ld_unit_zero (S := S1x128) origin2, View.ld_unit_zero (S := S16x64) origin2]
  rw [pay_hidden]
  funext y
  show hiddenB (iblk0 V c 0 t) (iblk0 V c 1 t) (iblk0 V c 2 t) y = hiddenW V c (((cfg0.win 14).blk t).view.emb y)
  rw [place_14 t y]
  exact (congrArg _ (eq_ix2 y)).trans (hidden_blk V c t (y 0) (y 1))

theorem final_14 (c : Dev nD) : (dat0 V c).arrAt 14 cfg0.N = hiddenW V c :=
  (dat0 V c).arrAt_eq_of_cover 14 (hiddenW V c) (fun t _ => flushed_14 V c t) cover_14

theorem flushed_13 (c : Dev nD) (t : Fin cfg0.N) :
    (dat0 V c).flushed 13 t = ((cfg0.win 13).blk t).view.read (Elt Ideal) (embedW V c) := by
  show (cfg0.win 13).cut (grid0.coords t) ((dat0 V c).after 13 t) = _
  rw [after0_13]
  unfold out0_13
  rw [View.canon_unit_zero origin2]
  simp only [View.ld_unit_zero (S := S2000x128) origin2, View.ld_unit_zero (S := S128x256) origin2, View.ld_unit_zero (S := S1x256) origin2, View.ld_unit_zero (S := S256x64) origin2, View.ld_unit_zero (S := S1x64) origin2, View.ld_unit_zero (S := S64x256) origin2, View.ld_unit_zero (S := S256x128) origin2, View.ld_unit_zero (S := S1x128) origin2, View.ld_unit_zero (S := S16x64) origin2]
  rw [pay_embed]
  funext y
  show embedB (iblk0 V c 0 t) (iblk0 V c 1 t) (iblk0 V c 2 t) (iblk0 V c 3 t) (iblk0 V c 4 t) y
    = embedW V c (((cfg0.win 13).blk t).view.emb y)
  rw [place_13 t y]
  exact (congrArg _ (eq_ix2 y)).trans (embed_blk V c t (y 0) (y 1))

theorem final_13 (c : Dev nD) : (dat0 V c).arrAt 13 cfg0.N = embedW V c :=
  (dat0 V c).arrAt_eq_of_cover 13 (embedW V c) (fun t _ => flushed_13 V c t) cover_13

theorem flushed_11 (c : Dev nD) (t : Fin cfg0.N) :
    (dat0 V c).flushed 11 t = ((cfg0.win 11).blk t).view.read (Elt Ideal) (reconW V c) := by
  show (cfg0.win 11).cut (grid0.coords t) ((dat0 V c).after 11 t) = _
  rw [after0_11]
  unfold out0_11
  rw [View.canon_unit_zero origin2]
  simp only [View.ld_unit_zero (S := S2000x128) origin2, View.ld_unit_zero (S := S128x256) origin2, View.ld_unit_zero (S := S1x256) origin2, View.ld_unit_zero (S := S256x64) origin2, View.ld_unit_zero (S := S1x64) origin2, View.ld_unit_zero (S := S64x256) origin2, View.ld_unit_zero (S := S256x128) origin2, View.ld_unit_zero (S := S1x128) origin2, View.ld_unit_zero (S := S16x64) origin2]
  rw [pay_recon]
  funext y
  show reconB (iblk0 V c 0 t) (iblk0 V c 1 t) (iblk0 V c 2 t) (iblk0 V c 3 t) (iblk0 V c 4 t) (iblk0 V c 5 t)
      (iblk0 V c 6 t) (iblk0 V c 7 t) (iblk0 V c 8 t) y
    = reconW V c (((cfg0.win 11).blk t).view.emb y)
  rw [place_11 t y]
  exact (congrArg _ (eq_ix2 y)).trans (recon_blk V c t (y 0) (y 1))

theorem final_11 (c : Dev nD) : (dat0 V c).arrAt 11 cfg0.N = reconW V c :=
  (dat0 V c).arrAt_eq_of_cover 11 (reconW V c) (fun t _ => flushed_11 V c t) cover_11

theorem flushed_15 (c : Dev nD) (t : Fin cfg0.N) :
    (dat0 V c).flushed 15 t = ((cfg0.win 15).blk t).view.read (Elt Ideal) (feat1W V c) := by
  show (cfg0.win 15).cut (grid0.coords t) ((dat0 V c).after 15 t) = _
  rw [after0_15]
  unfold out0_15
  rw [View.canon_unit_zero origin2]
  simp only [View.ld_unit_zero (S := S2000x128) origin2, View.ld_unit_zero (S := S128x256) origin2, View.ld_unit_zero (S := S1x256) origin2, View.ld_unit_zero (S := S256x64) origin2, View.ld_unit_zero (S := S1x64) origin2, View.ld_unit_zero (S := S64x256) origin2, View.ld_unit_zero (S := S256x128) origin2, View.ld_unit_zero (S := S1x128) origin2, View.ld_unit_zero (S := S16x64) origin2]
  rw [pay_feat1]
  funext y
  show prod (a := 2000) (k := 128) (n := 256) (fun i => iblk0 V c 0 t i) (fun i => iblk0 V c 9 t i) y
    = feat1W V c (((cfg0.win 15).blk t).view.emb y)
  rw [place_15 t y]
  exact (congrArg _ (eq_ix2 y)).trans (feat1_blk V c t (y 0) (y 1))

theorem final_15 (c : Dev nD) : (dat0 V c).arrAt 15 cfg0.N = feat1W V c :=
  (dat0 V c).arrAt_eq_of_cover 15 (feat1W V c) (fun t _ => flushed_15 V c t) cover_15

end Cert.Sdcn.Prep

end
-- ==== Proof.PrepAssign.lean ====
/-
  The soft assignment of a block of rows, as the kernel's first region computes it.

  For a block z of embedded points (one per row) and the cluster centres c (one per row), the region forms
    zz (p)   = ∑ q, z (p, q)²          a sum along each row of z ∘ z, held as a column and laid along the rows,
    cc (j)   = ∑ q, c (j, q)²          a sum along each row of c ∘ c, held as a row and laid along the columns,
    zc (p,j) = ∑ q, z (p, q) · c (j, q)  a product that contracts the SECOND axis of both operands (z · cᵀ),
  then d = (zz − 2 · zc) + cc, t = 1 / (1 + d), and divides t by its sum along each row. That is the normalised
  Student-t kernel of the expanded squared distance, entry by entry: each layout step only moves an entry, each
  sum along an axis is a finite sum over that axis's coordinate, and the contraction's one axis is re-indexed by its
  coordinate.

  The first part is general (variable extents; any dimension record with the stated axis lists); the last theorem
  instantiates it at the region's shapes.
-/
import proofs.«117056_g54168127537287_cont_9to1c4b_553_2_alg».proof.Proof.Gen.KernelIdeal.Skeleton
import proofs.«117056_g54168127537287_cont_9to1c4b_553_2_alg».proof.Proof.SpecRows
import proofs.«117056_g54168127537287_cont_9to1c4b_553_2_alg».proof.Proof.LibColumnRow
import proofs.«117056_g54168127537287_cont_9to1c4b_553_2_alg».proof.Proof.LibAffine
import proofs.«117056_g54168127537287_cont_9to1c4b_553_2_alg».proof.Proof.LibPlainDot
import Idealize.ShloMosaic.Lib.ValueLayout
import Idealize.ShloMosaic.Lib.ValueIdx
import Idealize.ShloMosaic.Lib.Pipeline.Value
import Idealize.ShloMosaic.PureOps.Ideal.Laws

noncomputable section

namespace Cert.Sdcn.PrepAssign

open Cert.KernelIdeal Cert.KernelIdeal.Gen Idealize.ShloMosaic Idealize.ShloMosaic.ValueIdx Cert.Sdcn

/-! ## A product contracting the second axis of both operands -/

section Transposed

variable {a k n : ℕ} (D : DotDims ⟨2, ![a, k]⟩ ⟨2, ![n, k]⟩ ⟨2, ![a, n]⟩)

/-- The contraction has one axis. -/
theorem contr_rank (hlc : D.lhsContracting = [1]) : D.contr.rank = 1 := by
  rw [D.rank_contr, hlc]; rfl

/-- Two coordinates of one index at equal positions are equal. -/
theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the result's column. -/
theorem rhs_row (hlb : D.lhsBatch = []) (hln : D.lhsNonContracting = [0]) (hrb : D.rhsBatch = []) (hrn : D.rhsNonContracting = [0])
    (i : (⟨2, ![a, n]⟩ : Shape).Idx) (q : D.contr.Idx) :
    (D.rhsIdx i q 0).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

/-- The right operand's column is the contraction position. -/
theorem rhs_col (hlc : D.lhsContracting = [1]) (hrc : D.rhsContracting = [1]) (i : (⟨2, ![a, n]⟩ : Shape).Idx) (q : D.contr.Idx) :
    (D.rhsIdx i q 1).val = (q ⟨0, by rw [contr_rank D hlc]; exact Nat.one_pos⟩).val :=
  D.rhsIdx_val_of_single hrc i q

/-- A matrix-unit product of an [a, k] by an [n, k] array into the zero accumulator, contracting the second axis of
    both, is at (p, j) the sum over q of L (p, q) · R (j, q). -/
theorem coreDotT_ix2 {φ₁ φ₂ : FTy} (hlc : D.lhsContracting = [1]) (hrc : D.rhsContracting = [1])
    (hln : D.lhsNonContracting = [0]) (hrn : D.rhsNonContracting = [0]) (hlb : D.lhsBatch = []) (hrb : D.rhsBatch = [])
    (prec : Option ContractPrecision) (L : FVec Ideal ⟨2, ![a, k]⟩ φ₁) (R : FVec Ideal ⟨2, ![n, k]⟩ φ₂) (p : Fin a) (j : Fin n) :
    matmul (F := Ideal) D prec L R (constant ⟨2, ![a, n]⟩ .f32 0x00000000#32) (ix2 p j)
      = ∑ q : Fin k, L (ix2 p q) * R (ix2 j q) := by
  have hr := contr_rank D hlc
  have hs := contr_size D hlc
  show FloatOps.matmul D prec L R (constant ⟨2, ![a, n]⟩ .f32 0x00000000#32) (ix2 p j) = _
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact lhs_row D hlb hln _ _
    | ⟨1, _⟩ => exact (lhs_col D hlc _ _).trans hq)
  have er : D.rhsIdx (ix2 p j) ((contrEquiv1 D k hr hs).symm q) = ix2 j q := funext fun ax => Fin.ext (by
    match ax with
    | ⟨0, _⟩ => exact rhs_row D hlb hln hrb hrn _ _
    | ⟨1, _⟩ => exact (rhs_col D hlc hrc _ _).trans hq)
  rw [el, er]

end Transposed

/-! ## A sum along the rows, and a vector laid out as a column or as a row -/

section Layout

variable {a k n : ℕ}

/-- The sum of an [a, k] array along its second axis is, at p, the sum over q of the entries (p, q). -/
theorem rowSum_apply (src : FVec Ideal ⟨2, ![a, k]⟩ .f32) (h : (⟨2, ![a, k]⟩ : Shape).Reduces [1] ⟨1, ![a]⟩)
    (hφ : FKind.Formats .f32) (hacc : (0x00000000#32 : BitVec FTy.f32.bits) = FKind.add.neutral .f32 hφ) (p : Fin a) :
    multiReduction (F := Ideal) .add [1] ⟨1, ![a]⟩ src 0x00000000#32 h hφ hacc (ix1 p) = ∑ q : Fin k, src (ix2 p q) := by
  rw [Ideal.multiReduction_add_single]
  refine Finset.sum_congr rfl fun q _ => congrArg src (funext fun ax => Fin.ext ?_)
  match ax with
  | ⟨0, _⟩ => rfl
  | ⟨1, _⟩ => rfl

/-- A vector of length a, reshaped into a column and laid along the rows of an [a, n] array, reads at (p, j) its
    entry p. -/
theorem column_apply {α : Type} (x : (⟨1, ![a]⟩ : Shape).Idx → α) (hc : (⟨1, ![a]⟩ : Shape).ShapeCasts ⟨2, ![a, 1]⟩)
    (hb : (⟨2, ![a, 1]⟩ : Shape).Broadcasts ⟨2, ![a, n]⟩) (p : Fin a) (j : Fin n) :
    broadcastTo ⟨2, ![a, n]⟩ (shapeCast ⟨2, ![a, 1]⟩ x hc) hb (ix2 p j) = x (ix1 p) := by
  rw [Cert.LibColumnRow.broadcastTo_a1_ab_apply, Cert.LibColumnRow.shapeCast_a_a1_apply]

/-- A vector of length n, reshaped into a row and laid along the columns of an [a, n] array, reads at (p, j) its
    entry j. -/
theorem row_apply {α : Type} (x : (⟨1, ![n]⟩ : Shape).Idx → α) (hc : (⟨1, ![n]⟩ : Shape).ShapeCasts ⟨2, ![1, n]⟩)
    (hb : (⟨2, ![1, n]⟩ : Shape).Broadcasts ⟨2, ![a, n]⟩) (p : Fin a) (j : Fin n) :
    broadcastTo ⟨2, ![a, n]⟩ (shapeCast ⟨2, ![1, n]⟩ x hc) hb (ix2 p j) = x (ix1 j) := by
  rw [broadcastTo_1b_ab_apply, shapeCast_a_1a_apply]

end Layout

/-! ## The two stages, entry by entry -/

section Stage

variable {a k n : ℕ}

/-- The row sums of z ∘ z laid along the rows, minus w times the product contracting both second axes, plus the row
    sums of c ∘ c laid along the columns: at (p, j), ∑ z (p, ·)² − w · ∑ z (p, ·) c (j, ·) + ∑ c (j, ·)². -/
theorem expanded_apply (D : DotDims ⟨2, ![a, k]⟩ ⟨2, ![n, k]⟩ ⟨2, ![a, n]⟩)
    (hlc : D.lhsContracting = [1]) (hrc : D.rhsContracting = [1])
    (hln : D.lhsNonContracting = [0]) (hrn : D.rhsNonContracting = [0]) (hlb : D.lhsBatch = []) (hrb : D.rhsBatch = [])
    (hz : (⟨2, ![a, k]⟩ : Shape).Reduces [1] ⟨1, ![a]⟩) (hzc : (⟨1, ![a]⟩ : Shape).ShapeCasts ⟨2, ![a, 1]⟩)
    (hzb : (⟨2, ![a, 1]⟩ : Shape).Broadcasts ⟨2, ![a, n]⟩)
    (hc : (⟨2, ![n, k]⟩ : Shape).Reduces [1] ⟨1, ![n]⟩) (hcc : (⟨1, ![n]⟩ : Shape).ShapeCasts ⟨2, ![1, n]⟩)
    (hcb : (⟨2, ![1, n]⟩ : Shape).Broadcasts ⟨2, ![a, n]⟩)
    (hφ : FKind.Formats .f32) (hacc : (0x00000000#32 : BitVec FTy.f32.bits) = FKind.add.neutral .f32 hφ)
    (prec : Option ContractPrecision) (w : Ideal .f32)
    (z : FVec Ideal ⟨2, ![a, k]⟩ .f32) (c : FVec Ideal ⟨2, ![n, k]⟩ .f32) (p : Fin a) (j : Fin n) :
    addf
        (subf
          (broadcastTo ⟨2, ![a, n]⟩
            (shapeCast ⟨2, ![a, 1]⟩ (multiReduction (F := Ideal) .add [1] ⟨1, ![a]⟩ (mulf z z) 0x00000000#32 hz hφ hacc) hzc) hzb)
          (mulf (broadcast ⟨2, ![a, n]⟩ w)
            (matmul (F := Ideal) D prec z c (constant ⟨2, ![a, n]⟩ .f32 0x00000000#32))))
        (broadcastTo ⟨2, ![a, n]⟩
          (shapeCast ⟨2, ![1, n]⟩ (multiReduction (F := Ideal) .add [1] ⟨1, ![n]⟩ (mulf c c) 0x00000000#32 hc hφ hacc) hcc) hcb)
        (ix2 p j)
      = ((∑ q : Fin k, z (ix2 p q) * z (ix2 p q)) - w * ∑ q : Fin k, z (ix2 p q) * c (ix2 j q))
        + ∑ q : Fin k, c (ix2 j q) * c (ix2 j q) := by
  rw [addf_apply, subf_apply, mulf_apply, broadcast_apply, column_apply, row_apply, rowSum_apply, rowSum_apply,
    coreDotT_ix2 D hlc hrc hln hrn hlb hrb]
  simp only [mulf_apply]

/-- w / (w + d), divided by its sum along each row laid back along the rows: at (p, j) the quotient of
    w / (w + d (p, j)) by the sum over j' of w / (w + d (p, j')). -/
theorem normalised_apply (hd : (⟨2, ![a, n]⟩ : Shape).Reduces [1] ⟨1, ![a]⟩) (hdc : (⟨1, ![a]⟩ : Shape).ShapeCasts ⟨2, ![a, 1]⟩)
    (hdb : (⟨2, ![a, 1]⟩ : Shape).Broadcasts ⟨2, ![a, n]⟩)
    (hφ : FKind.Formats .f32) (hacc : (0x00000000#32 : BitVec FTy.f32.bits) = FKind.add.neutral .f32 hφ)
    (w : Ideal .f32) (d : FVec Ideal ⟨2, ![a, n]⟩ .f32) (p : Fin a) (j : Fin n) :
    divf (divf (broadcast ⟨2, ![a, n]⟩ w) (addf (broadcast ⟨2, ![a, n]⟩ w) d))
        (broadcastTo ⟨2, ![a, n]⟩
          (shapeCast ⟨2, ![a, 1]⟩
            (multiReduction (F := Ideal) .add [1] ⟨1, ![a]⟩
              (divf (broadcast ⟨2, ![a, n]⟩ w) (addf (broadcast ⟨2, ![a, n]⟩ w) d)) 0x00000000#32 hd hφ hacc) hdc) hdb)
        (ix2 p j)
      = Ideal.div (Ideal.div w (w + d (ix2 p j))) (∑ j' : Fin n, Ideal.div w (w + d (ix2 p j'))) := by
  rw [divf_apply, column_apply, rowSum_apply]
  simp only [divf_apply, addf_apply, broadcast_apply]

/-- The first stage as an array: it is the expanded squared distance with the word w in place of the factor. -/
theorem expanded_eq (D : DotDims ⟨2, ![a, k]⟩ ⟨2, ![n, k]⟩ ⟨2, ![a, n]⟩)
    (hlc : D.lhsContracting = [1]) (hrc : D.rhsContracting = [1])
    (hln : D.lhsNonContracting = [0]) (hrn : D.rhsNonContracting = [0]) (hlb : D.lhsBatch = []) (hrb : D.rhsBatch = [])
    (hz : (⟨2, ![a, k]⟩ : Shape).Reduces [1] ⟨1, ![a]⟩) (hzc : (⟨1, ![a]⟩ : Shape).ShapeCasts ⟨2, ![a, 1]⟩)
    (hzb : (⟨2, ![a, 1]⟩ : Shape).Broadcasts ⟨2, ![a, n]⟩)
    (hc : (⟨2, ![n, k]⟩ : Shape).Reduces [1] ⟨1, ![n]⟩) (hcc : (⟨1, ![n]⟩ : Shape).ShapeCasts ⟨2, ![1, n]⟩)
    (hcb : (⟨2, ![1, n]⟩ : Shape).Broadcasts ⟨2, ![a, n]⟩)
    (hφ : FKind.Formats .f32) (hacc : (0x00000000#32 : BitVec FTy.f32.bits) = FKind.add.neutral .f32 hφ)
    (prec : Option ContractPrecision)
    (z : FVec Ideal ⟨2, ![a, k]⟩ .f32) (c : FVec Ideal ⟨2, ![n, k]⟩ .f32) :
    addf
        (subf
          (broadcastTo ⟨2, ![a, n]⟩
            (shapeCast ⟨2, ![a, 1]⟩ (multiReduction (F := Ideal) .add [1] ⟨1, ![a]⟩ (mulf z z) 0x00000000#32 hz hφ hacc) hzc) hzb)
          (mulf (broadcast ⟨2, ![a, n]⟩ twoW)
            (matmul (F := Ideal) D prec z c (constant ⟨2, ![a, n]⟩ .f32 0x00000000#32))))
        (broadcastTo ⟨2, ![a, n]⟩
          (shapeCast ⟨2, ![1, n]⟩ (multiReduction (F := Ideal) .add [1] ⟨1, ![n]⟩ (mulf c c) 0x00000000#32 hc hφ hacc) hcc) hcb)
      = sqDistExpanded z c := by
  funext i
  obtain ⟨p, j, rfl⟩ : ∃ (p : Fin a) (j : Fin n), i = ix2 p j := ⟨i 0, i 1, eq_ix2 i⟩
  rw [sqDistExpanded_ix2]
  exact expanded_apply D hlc hrc hln hrn hlb hrb hz hzc hzb hc hcc hcb hφ hacc prec twoW z c p j

/-- The second stage as an array: it is the normalised Student-t kernel. -/
theorem normalised_eq (hd : (⟨2, ![a, n]⟩ : Shape).Reduces [1] ⟨1, ![a]⟩) (hdc : (⟨1, ![a]⟩ : Shape).ShapeCasts ⟨2, ![a, 1]⟩)
    (hdb : (⟨2, ![a, 1]⟩ : Shape).Broadcasts ⟨2, ![a, n]⟩)
    (hφ : FKind.Formats .f32) (hacc : (0x00000000#32 : BitVec FTy.f32.bits) = FKind.add.neutral .f32 hφ)
    (d : FVec Ideal ⟨2, ![a, n]⟩ .f32) :
    divf (divf (broadcast ⟨2, ![a, n]⟩ oneW) (addf (broadcast ⟨2, ![a, n]⟩ oneW) d))
        (broadcastTo ⟨2, ![a, n]⟩
          (shapeCast ⟨2, ![a, 1]⟩
            (multiReduction (F := Ideal) .add [1] ⟨1, ![a]⟩
              (divf (broadcast ⟨2, ![a, n]⟩ oneW) (addf (broadcast ⟨2, ![a, n]⟩ oneW) d)) 0x00000000#32 hd hφ hacc) hdc) hdb)
      = studentT d := by
  funext i
  obtain ⟨p, j, rfl⟩ : ∃ (p : Fin a) (j : Fin n), i = ix2 p j := ⟨i 0, i 1, eq_ix2 i⟩
  rw [studentT_ix2]
  exact normalised_apply hd hdc hdb hφ hacc oneW d p j

end Stage

/-! ## The region's payload -/

/-- The value the first region stores for a block of rows is the normalised Student-t kernel of the expanded squared
    distance from each row of the block to each cluster centre. -/
theorem pay_assign (z : FVec Ideal S2000x64 .f32) (c : Vec Ideal S16x64 .f32) :
    k0_pay1 (F := Ideal) z c
      = studentT (sqDistExpanded (a := 2000) (k := 64) (n := 16) (fun i => z i) (fun i => c i)) :=
  (normalised_eq (a := 2000) (n := 16) reduces_S2000x16_S2000 shapeCasts_S2000_S2000x1 broadcasts_S2000x1_S2000x16
      (.inl rfl) rfl _).trans
    (congrArg studentT
      (expanded_eq (a := 2000) (k := 64) (n := 16) dot_S2000x64_S16x64_S2000x16_1_1_0_0_n_n rfl rfl rfl rfl rfl rfl
        reduces_S2000x64_S2000 shapeCasts_S2000_S2000x1 broadcasts_S2000x1_S2000x16
        reduces_S16x64_S16 shapeCasts_S16_S1x16 broadcasts_S1x16_S2000x16 (.inl rfl) rfl none
        (fun i => z i) (fun i => c i)))

end Cert.Sdcn.PrepAssign

end
-- ==== Proof.PrepAssignValue.lean ====
/-
  The soft assignment written by the first kernel region.

  Each grid point takes its block of rows of the embedding and the whole centre array, forms the squared distances in
  the expanded form |z|² − 2·(z · c) + |c|², and normalises 1 / (1 + d) over each row. A row of distances reads one row
  of the embedding, and the normalisation reads one row of distances, so the block a point writes back is that block of
  rows of the whole-array soft assignment; the blocks tile the output.
-/
import proofs.«117056_g54168127537287_cont_9to1c4b_553_2_alg».proof.Proof.Gen.KernelIdeal.Frame
import proofs.«117056_g54168127537287_cont_9to1c4b_553_2_alg».proof.Proof.PrepValue
import proofs.«117056_g54168127537287_cont_9to1c4b_553_2_alg».proof.Proof.PrepAssign
import Idealize.ShloMosaic.Lib.Pipeline.Value

noncomputable section

set_option maxRecDepth 16384

namespace Cert.Sdcn.Prep

open Cert.KernelIdeal Cert.KernelIdeal.Gen Idealize.ShloMosaic Idealize.ShloMosaic.TcCoe Idealize.ShloMosaic.ValueIdx Cert.Sdcn
open Idealize.SL.Sem
open Idealize.ShloMosaic.Pipeline (Dat Cfg Window)

variable {a a' k n : ℕ}

/-- The expanded squared distance at (p, j) reads row p of the points and row j of the centres. -/
theorem sqDistExpanded_congr_at (Z : Mat a k) (Z' : Mat a' k) (C C' : Mat n k) (p : Fin a) (p' : Fin a') (j : Fin n)
    (hZ : ∀ q : Fin k, Z' (ix2 p' q) = Z (ix2 p q)) (hC : ∀ q : Fin k, C' (ix2 j q) = C (ix2 j q)) :
    sqDistExpanded Z' C' (ix2 p' j) = sqDistExpanded Z C (ix2 p j) := by
  rw [sqDistExpanded_ix2, sqDistExpanded_ix2]
  simp only [hZ, hC]

variable (V : (c : Dev nD) → (b : Ref sig .tc) → Buf (Elt Ideal) ((c : Thread nD τ).loc b))

/-- The soft assignment of the arrays as the region finds them, distances expanded. -/
def assignW (c : Dev nD) : Mat 10000 16 := studentT (sqDistExpanded (embedW V c) (clA V c))

theorem assign_blk (c : Dev nD) (t : Fin cfg0.N) (p : Fin 2000) (j : Fin 16) :
    studentT (sqDistExpanded (a := 2000) (k := 64) (n := 16)
        (fun i => embedB (iblk0 V c 0 t) (iblk0 V c 1 t) (iblk0 V c 2 t) (iblk0 V c 3 t) (iblk0 V c 4 t) i)
        (fun i => iblk0 V c 10 t i)) (ix2 p j)
      = assignW V c (ix2 (rowOf t p) j) := by
  unfold assignW
  exact studentT_rows _ _ _ _ _ fun j' => sqDistExpanded_congr_at _ _ _ _ _ _ _
    (fun q => embed_blk V c t p q) (fun q => entry_10 V c t _)

theorem flushed_12 (c : Dev nD) (t : Fin cfg0.N) :
    (dat0 V c).flushed 12 t = ((cfg0.win 12).blk t).view.read (Elt Ideal) (assignW V c) := by
  show (cfg0.win 12).cut (grid0.coords t) ((dat0 V c).after 12 t) = _
  rw [after0_12]
  unfold out0_12
  rw [View.canon_unit_zero origin2]
  simp only [View.ld_unit_zero (S := S2000x128) origin2, View.ld_unit_zero (S := S128x256) origin2, View.ld_unit_zero (S := S1x256) origin2, View.ld_unit_zero (S := S256x64) origin2, View.ld_unit_zero (S := S1x64) origin2, View.ld_unit_zero (S := S64x256) origin2, View.ld_unit_zero (S := S256x128) origin2, View.ld_unit_zero (S := S1x128) origin2, View.ld_unit_zero (S := S16x64) origin2]
  rw [pay_embed, Cert.Sdcn.PrepAssign.pay_assign]
  funext y
  show studentT (sqDistExpanded (a := 2000) (k := 64) (n := 16)
        (fun i => embedB (iblk0 V c 0 t) (iblk0 V c 1 t) (iblk0 V c 2 t) (iblk0 V c 3 t) (iblk0 V c 4 t) i)
        (fun i => iblk0 V c 10 t i)) y
    = assignW V c (((cfg0.win 12).blk t).view.emb y)
  rw [place_12 t y]
  exact (congrArg _ (eq_ix2 y)).trans (assign_blk V c t (y 0) (y 1))

theorem final_12 (c : Dev nD) : (dat0 V c).arrAt 12 cfg0.N = assignW V c :=
  (dat0 V c).arrAt_eq_of_cover 12 (assignW V c) (fun t _ => flushed_12 V c t) cover_12

end Cert.Sdcn.Prep

end
-- ==== Proof.KernelFold.lean ====
/-
  The buffers between the regions of the program.

  The program is four reshapes of the bias vectors followed by four regions. At each boundary a buffer holds either
  what a region's write-backs left in it or what it held at the boundary before. Followed back from a boundary, each
  array a region reads, and each array the program returns, is one of three things: an argument as launched, a bias
  vector laid out as a matrix of one row, or an output of an earlier region. This module says, for every such array,
  which of the three it is.
-/
import proofs.«117056_g54168127537287_cont_9to1c4b_553_2_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.Sdcn.Fold

open Idealize.ShloMosaic Idealize.ShloMosaic.TcCoe Idealize.ShloMosaic.ValueIdx
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-! ## Across the four reshapes

The opening stretch writes the four one-row copies of the bias vectors and nothing else, so every other buffer
holds after it what it held at launch. -/

/-- No operation of the opening stretch writes the buffer at hand. -/
local macro "not_written" : tactic =>
  `(tactic| (refine List.forall_iff_forall_mem.mp ?_
             simp only [hostOps0, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

theorem W1_main_arg0 (c : Dev nD) : W1 m ρ c (Proc.devRef .tc main_arg0) = m ((c : Thread nD τ).loc main_arg0) :=
  StableHlo.after_of_forall_not_mem (b := Proc.devRef .tc main_arg0) _ _ (by not_written)
theorem W1_main_arg1 (c : Dev nD) : W1 m ρ c (Proc.devRef .tc main_arg1) = m ((c : Thread nD τ).loc main_arg1) :=
  StableHlo.after_of_forall_not_mem (b := Proc.devRef .tc main_arg1) _ _ (by not_written)
theorem W1_main_arg2 (c : Dev nD) : W1 m ρ c (Proc.devRef .tc main_arg2) = m ((c : Thread nD τ).loc main_arg2) :=
  StableHlo.after_of_forall_not_mem (b := Proc.devRef .tc main_arg2) _ _ (by not_written)
theorem W1_main_arg4 (c : Dev nD) : W1 m ρ c (Proc.devRef .tc main_arg4) = m ((c : Thread nD τ).loc main_arg4) :=
  StableHlo.after_of_forall_not_mem (b := Proc.devRef .tc main_arg4) _ _ (by not_written)
theorem W1_main_arg6 (c : Dev nD) : W1 m ρ c (Proc.devRef .tc main_arg6) = m ((c : Thread nD τ).loc main_arg6) :=
  StableHlo.after_of_forall_not_mem (b := Proc.devRef .tc main_arg6) _ _ (by not_written)
theorem W1_main_arg8 (c : Dev nD) : W1 m ρ c (Proc.devRef .tc main_arg8) = m ((c : Thread nD τ).loc main_arg8) :=
  StableHlo.after_of_forall_not_mem (b := Proc.devRef .tc main_arg8) _ _ (by not_written)
theorem W1_main_arg10 (c : Dev nD) : W1 m ρ c (Proc.devRef .tc main_arg10) = m ((c : Thread nD τ).loc main_arg10) :=
  StableHlo.after_of_forall_not_mem (b := Proc.devRef .tc main_arg10) _ _ (by not_written)
theorem W1_main_arg11 (c : Dev nD) : W1 m ρ c (Proc.devRef .tc main_arg11) = m ((c : Thread nD τ).loc main_arg11) :=
  StableHlo.after_of_forall_not_mem (b := Proc.devRef .tc main_arg11) _ _ (by not_written)
theorem W1_main_arg12 (c : Dev nD) : W1 m ρ c (Proc.devRef .tc main_arg12) = m ((c : Thread nD τ).loc main_arg12) :=
  StableHlo.after_of_forall_not_mem (b := Proc.devRef .tc main_arg12) _ _ (by not_written)
theorem W1_main_arg13 (c : Dev nD) : W1 m ρ c (Proc.devRef .tc main_arg13) = m ((c : Thread nD τ).loc main_arg13) :=
  StableHlo.after_of_forall_not_mem (b := Proc.devRef .tc main_arg13) _ _ (by not_written)

/-! ## What the first region finds: the seven arguments it reads as launched -/

theorem r0_x (c : Dev nD) : V1 m ρ c (Pipeline.arrRef spec0 0) = m ((c : Thread nD τ).loc main_arg0) := W1_main_arg0 m ρ c
theorem r0_we1 (c : Dev nD) : V1 m ρ c (Pipeline.arrRef spec0 1) = m ((c : Thread nD τ).loc main_arg2) := W1_main_arg2 m ρ c
theorem r0_wz (c : Dev nD) : V1 m ρ c (Pipeline.arrRef spec0 3) = m ((c : Thread nD τ).loc main_arg4) := W1_main_arg4 m ρ c
theorem r0_wd (c : Dev nD) : V1 m ρ c (Pipeline.arrRef spec0 5) = m ((c : Thread nD τ).loc main_arg6) := W1_main_arg6 m ρ c
theorem r0_wx (c : Dev nD) : V1 m ρ c (Pipeline.arrRef spec0 7) = m ((c : Thread nD τ).loc main_arg8) := W1_main_arg8 m ρ c
theorem r0_wg (c : Dev nD) : V1 m ρ c (Pipeline.arrRef spec0 9) = m ((c : Thread nD τ).loc main_arg10) := W1_main_arg10 m ρ c
theorem r0_cl (c : Dev nD) : V1 m ρ c (Pipeline.arrRef spec0 10) = m ((c : Thread nD τ).loc main_arg13) := W1_main_arg13 m ρ c

/-! ## The four one-row copies of the bias vectors

Each is the bias vector laid out as a matrix of one row: its entry (0, j) is entry j of the vector. -/

section OneRow
variable {α : Type} {n : ℕ}

/-- A vector of n entries laid out as one row, read at (0, j), is entry j. -/
theorem shapeCast_oneRow_apply (hsc : (⟨1, ![n]⟩ : Shape).ShapeCasts (⟨2, ![1, n]⟩ : Shape))
    (z : (⟨1, ![n]⟩ : Shape).Idx → α) (j : Fin n) :
    shapeCast (⟨2, ![1, n]⟩ : Shape) z hsc (ix2 (0 : Fin 1) j) = z (ix1 j) :=
  (shapeCast_addUnit_apply ![n] z hsc (ix2 (0 : Fin 1) j)).trans
    (congrArg z (funext fun a => by fin_cases a; rfl))

end OneRow

theorem r0_be1 (c : Dev nD) (j : Fin 256) :
    V1 m ρ c (Pipeline.arrRef spec0 2) (ix2 (0 : Fin 1) j) = m ((c : Thread nD τ).loc main_arg3) (ix1 j) := by
  have e : (V1 m ρ c main_v0 : S1x256.Idx → Elt F .f32)
      = shapeCast S1x256 (m ((c : Thread nD τ).loc main_arg3) : S256.Idx → Elt F .f32) shapeCasts_S256_S1x256 := by
    show StableHlo.after hostOps0 (W0 m ρ c) (Proc.devRef .tc main_v0) = _
    after_results
    rfl
  exact (congrFun e _).trans (shapeCast_oneRow_apply _ _ j)

theorem r0_bz (c : Dev nD) (j : Fin 64) :
    V1 m ρ c (Pipeline.arrRef spec0 4) (ix2 (0 : Fin 1) j) = m ((c : Thread nD τ).loc main_arg5) (ix1 j) := by
  have e : (V1 m ρ c main_v1 : S1x64.Idx → Elt F .f32)
      = shapeCast S1x64 (m ((c : Thread nD τ).loc main_arg5) : S64.Idx → Elt F .f32) shapeCasts_S64_S1x64 := by
    show StableHlo.after hostOps0 (W0 m ρ c) (Proc.devRef .tc main_v1) = _
    after_results
    rfl
  exact (congrFun e _).trans (shapeCast_oneRow_apply _ _ j)

theorem r0_bd (c : Dev nD) (j : Fin 256) :
    V1 m ρ c (Pipeline.arrRef spec0 6) (ix2 (0 : Fin 1) j) = m ((c : Thread nD τ).loc main_arg7) (ix1 j) := by
  have e : (V1 m ρ c main_v2 : S1x256.Idx → Elt F .f32)
      = shapeCast S1x256 (m ((c : Thread nD τ).loc main_arg7) : S256.Idx → Elt F .f32) shapeCasts_S256_S1x256 := by
    show StableHlo.after hostOps0 (W0 m ρ c) (Proc.devRef .tc main_v2) = _
    after_results
    rfl
  exact (congrFun e _).trans (shapeCast_oneRow_apply _ _ j)

theorem r0_bx (c : Dev nD) (j : Fin 128) :
    V1 m ρ c (Pipeline.arrRef spec0 8) (ix2 (0 : Fin 1) j) = m ((c : Thread nD τ).loc main_arg9) (ix1 j) := by
  have e : (V1 m ρ c main_v3 : S1x128.Idx → Elt F .f32)
      = shapeCast S1x128 (m ((c : Thread nD τ).loc main_arg9) : S128.Idx → Elt F .f32) shapeCasts_S128_S1x128 := by
    show StableHlo.after hostOps0 (W0 m ρ c) (Proc.devRef .tc main_v3) = _
    after_results
    rfl
  exact (congrFun e _).trans (shapeCast_oneRow_apply _ _ j)

/-! ## What the second region finds -/

/-- The adjacency matrix, as launched. -/
theorem r1_adj (c : Dev nD) : V2 m ρ c (Pipeline.arrRef spec1 0) = m ((c : Thread nD τ).loc main_arg1) :=
  (W2_of_ne m ρ c main_arg1 (by decide)).trans (W1_main_arg1 m ρ c)
/-- The first region's fifth output. -/
theorem r1_feat (c : Dev nD) : V2 m ρ c (Pipeline.arrRef spec1 1) = (dat0 (V1 m ρ) c).arrAt 15 cfg0.N := W2_arr m ρ c 15
/-- The first region's fourth output. -/
theorem r1_hidden (c : Dev nD) : V2 m ρ c (Pipeline.arrRef spec1 2) = (dat0 (V1 m ρ) c).arrAt 14 cfg0.N := W2_arr m ρ c 14
theorem r1_weight (c : Dev nD) : V2 m ρ c (Pipeline.arrRef spec1 3) = m ((c : Thread nD τ).loc main_arg11) :=
  (W2_of_ne m ρ c main_arg11 (by decide)).trans (W1_main_arg11 m ρ c)

/-! ## What the third region finds -/

/-- The second region's two outputs. -/
theorem r2_adj (c : Dev nD) : V3 m ρ c (Pipeline.arrRef spec2 0) = (dat1 (V2 m ρ) c).arrAt 4 cfg1.N := W3_arr m ρ c 4
theorem r2_feat (c : Dev nD) : V3 m ρ c (Pipeline.arrRef spec2 1) = (dat1 (V2 m ρ) c).arrAt 5 cfg1.N := W3_arr m ρ c 5
/-- The first region's third output, which the second region does not touch. -/
theorem r2_embed (c : Dev nD) : V3 m ρ c (Pipeline.arrRef spec2 2) = (dat0 (V1 m ρ) c).arrAt 13 cfg0.N :=
  (W3_of_ne m ρ c main_v4_2 (by decide)).trans (W2_arr m ρ c 13)
theorem r2_weight (c : Dev nD) : V3 m ρ c (Pipeline.arrRef spec2 3) = m ((c : Thread nD τ).loc main_arg12) :=
  (W3_of_ne m ρ c main_arg12 (by decide)).trans ((W2_of_ne m ρ c main_arg12 (by decide)).trans (W1_main_arg12 m ρ c))

/-! ## What the fourth region finds -/

/-- The second region's first output, which the third region reads and leaves as it found it. -/
theorem r3_adj (c : Dev nD) : V4 m ρ c (Pipeline.arrRef spec3 0) = (dat1 (V2 m ρ) c).arrAt 4 cfg1.N :=
  (W4_arr m ρ c 0).trans ((((dat2 (V3 m ρ) c).arrAt_in 0 rfl _).trans (A_eq2 (V3 m ρ) c 0)).trans (W3_arr m ρ c 4))
/-- The third region's output. -/
theorem r3_feat (c : Dev nD) : V4 m ρ c (Pipeline.arrRef spec3 1) = (dat2 (V3 m ρ) c).arrAt 4 cfg2.N := W4_arr m ρ c 4

/-! ## What the program returns -/

/-- The fourth region's output. -/
theorem out_predict (c : Dev nD) : W5 m ρ c (Proc.devRef .tc main_v7) = (dat3 (V4 m ρ) c).arrAt 2 cfg3.N := W5_arr m ρ c 2
/-- The first region's first and second outputs, which no later region touches. -/
theorem out_recon (c : Dev nD) : W5 m ρ c (Proc.devRef .tc main_v4_0) = (dat0 (V1 m ρ) c).arrAt 11 cfg0.N :=
  (W5_of_ne m ρ c main_v4_0 (by decide)).trans ((W4_of_ne m ρ c main_v4_0 (by decide)).trans
    ((W3_of_ne m ρ c main_v4_0 (by decide)).trans (W2_arr m ρ c 11)))
theorem out_assign (c : Dev nD) : W5 m ρ c (Proc.devRef .tc main_v4_1) = (dat0 (V1 m ρ) c).arrAt 12 cfg0.N :=
  (W5_of_ne m ρ c main_v4_1 (by decide)).trans ((W4_of_ne m ρ c main_v4_1 (by decide)).trans
    ((W3_of_ne m ρ c main_v4_1 (by decide)).trans (W2_arr m ρ c 12)))
/-- The first region's third output, which the third region reads and leaves as it found it. -/
theorem out_embed (c : Dev nD) : W5 m ρ c (Proc.devRef .tc main_v4_2) = (dat0 (V1 m ρ) c).arrAt 13 cfg0.N :=
  (W5_of_ne m ρ c main_v4_2 (by decide)).trans ((W4_arr m ρ c 2).trans
    ((((dat2 (V3 m ρ) c).arrAt_in 2 rfl _).trans (A_eq2 (V3 m ρ) c 2)).trans (r2_embed m ρ c)))

end Cert.Sdcn.Fold

end
-- ==== Proof.KernelRun.lean ====
/-
  The idealized kernel's run, with the final memory kept.

  The program is a line of host operations followed by four kernel regions. The contents of the TensorCore's buffers at
  each boundary form a fold: after the host operations, then after each region, where a region's arrays hold what its
  grid points wrote back and every other buffer is as the region found it. Every weakly fair execution terminates, and in
  every final memory each buffer that outlives the regions holds the last stage of that fold. The frame claim keeps of
  this only the argument arrays; here the whole final memory is kept, so that the result arrays can be read off it.
-/
import proofs.«117056_g54168127537287_cont_9to1c4b_553_2_alg».proof.Proof.Gen.KernelIdeal.Frame

set_option maxRecDepth 16384

noncomputable section

namespace Cert.Sdcn.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, and every buffer that outlives the
    regions ends at the last stage of the fold of boundary contents. -/
theorem run_exit : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

end Cert.Sdcn.Kern

end
-- ==== Proof.KernelValue.lean ====
/-
  The kernel program's results as the network's stages of its arguments.

  The program runs four regions. The first computes, from the arguments, the encoder's hidden layer, the embedding, the
  reconstruction, the soft assignment and the graph branch's first feature matrix. Each of the next three multiplies
  the adjacency by the feature matrix the region before it left: the first of them also keeps a copy of the adjacency
  and mixes in the hidden layer, the second mixes in the embedding, the third takes the row-wise softmax. Every array
  a region reads is an argument as launched, a bias vector laid out as a one-row matrix, or what an earlier region
  left; substituting these one into the next, the four arrays the program returns are the network's reconstruction,
  soft assignment (with the squared distance expanded), prediction and embedding of the fourteen arguments.
-/
import proofs.«117056_g54168127537287_cont_9to1c4b_553_2_alg».proof.Proof.Gen.KernelIdeal.Frame
import proofs.«117056_g54168127537287_cont_9to1c4b_553_2_alg».proof.Proof.Spec
import proofs.«117056_g54168127537287_cont_9to1c4b_553_2_alg».proof.Proof.SpecRows
import proofs.«117056_g54168127537287_cont_9to1c4b_553_2_alg».proof.Proof.Region3
import proofs.«117056_g54168127537287_cont_9to1c4b_553_2_alg».proof.Proof.Regions12
import proofs.«117056_g54168127537287_cont_9to1c4b_553_2_alg».proof.Proof.PrepValue
import proofs.«117056_g54168127537287_cont_9to1c4b_553_2_alg».proof.Proof.PrepAssignValue
import proofs.«117056_g54168127537287_cont_9to1c4b_553_2_alg».proof.Proof.KernelFold
import proofs.«117056_g54168127537287_cont_9to1c4b_553_2_alg».proof.Proof.KernelRun
import Idealize.ShloMosaic.Lib.Pipeline.Value

set_option maxRecDepth 16384

noncomputable section

namespace Cert.Sdcn.KernelValue

open Cert.KernelIdeal Cert.KernelIdeal.Gen Idealize.ShloMosaic Idealize.ShloMosaic.TcCoe Idealize.ShloMosaic.ValueIdx
open Idealize.SL.Sem
open Cert.Sdcn Cert.Sdcn.Kern Cert.Sdcn.Prep

variable (m : (ℓ : Loc nD τ sig) → Buf (Elt Ideal) ℓ) (ρ : Dev nD → PrngReg)

/-! ## The first region's arrays are the arguments as launched -/

section FirstRegion

variable (c : Dev nD)

theorem xA_eq : xA (V1 m ρ) c = (m ((c.tc : Thread nD τ).loc main_arg0)) := Fold.r0_x m ρ c
theorem w1A_eq : w1A (V1 m ρ) c = (m ((c.tc : Thread nD τ).loc main_arg2)) := Fold.r0_we1 m ρ c
theorem wzA_eq : wzA (V1 m ρ) c = (m ((c.tc : Thread nD τ).loc main_arg4)) := Fold.r0_wz m ρ c
theorem wdA_eq : wdA (V1 m ρ) c = (m ((c.tc : Thread nD τ).loc main_arg6)) := Fold.r0_wd m ρ c
theorem wxA_eq : wxA (V1 m ρ) c = (m ((c.tc : Thread nD τ).loc main_arg8)) := Fold.r0_wx m ρ c
theorem wgA_eq : wgA (V1 m ρ) c = (m ((c.tc : Thread nD τ).loc main_arg10)) := Fold.r0_wg m ρ c
theorem clA_eq : clA (V1 m ρ) c = (m ((c.tc : Thread nD τ).loc main_arg13)) := Fold.r0_cl m ρ c

/-- Each bias reaches the first region as a matrix of one row holding the bias vector's entries. -/
theorem b1A_apply (j : Fin 256) : b1A (V1 m ρ) c (ix2 (0 : Fin 1) j) = (m ((c.tc : Thread nD τ).loc main_arg3)) (ix1 j) := Fold.r0_be1 m ρ c j
theorem bzA_apply (j : Fin 64) : bzA (V1 m ρ) c (ix2 (0 : Fin 1) j) = (m ((c.tc : Thread nD τ).loc main_arg5)) (ix1 j) := Fold.r0_bz m ρ c j
theorem bdA_apply (j : Fin 256) : bdA (V1 m ρ) c (ix2 (0 : Fin 1) j) = (m ((c.tc : Thread nD τ).loc main_arg7)) (ix1 j) := Fold.r0_bd m ρ c j
theorem bxA_apply (j : Fin 128) : bxA (V1 m ρ) c (ix2 (0 : Fin 1) j) = (m ((c.tc : Thread nD τ).loc main_arg9)) (ix1 j) := Fold.r0_bx m ρ c j

/-- The first region's hidden layer is the network's hidden layer of the arguments. -/
theorem hidden_eq : hiddenW (V1 m ρ) c = hidden (m ((c.tc : Thread nD τ).loc main_arg0)) (m ((c.tc : Thread nD τ).loc main_arg2)) (m ((c.tc : Thread nD τ).loc main_arg3)) := by
  unfold hiddenW hidden
  rw [xA_eq m ρ c, w1A_eq m ρ c]
  exact congrArg relu (dense_eq_denseRow (n := 256) _ _ _ _ (b1A_apply m ρ c))

/-- Its embedding is the network's embedding. -/
theorem embed_eq : embedW (V1 m ρ) c = embed (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  unfold embedW embed
  rw [hidden_eq m ρ c, wzA_eq m ρ c]
  exact dense_eq_denseRow (n := 64) _ _ _ _ (bzA_apply m ρ c)

/-- Its reconstruction is the network's reconstruction. -/
theorem recon_eq : reconW (V1 m ρ) c = recon (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold reconW recon
  rw [embed_eq m ρ c, wdA_eq m ρ c, wxA_eq m ρ c,
    dense_eq_denseRow (n := 256) _ _ (m ((c.tc : Thread nD τ).loc main_arg7)) (bdA (V1 m ρ) c) (bdA_apply m ρ c)]
  exact dense_eq_denseRow (n := 128) _ _ _ _ (bxA_apply m ρ c)

/-- Its feature product is the graph branch's first feature matrix. -/
theorem feat1_eq : feat1W (V1 m ρ) c = feat1 (m ((c.tc : Thread nD τ).loc main_arg0)) (m ((c.tc : Thread nD τ).loc main_arg10)) := by
  unfold feat1W feat1
  rw [xA_eq m ρ c, wgA_eq m ρ c]

/-- Its soft assignment is the network's, with the distance expanded. -/
theorem assign_eq : assignW (V1 m ρ) c = assignExpanded (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg13)) := by
  unfold assignW assignExpanded
  rw [embed_eq m ρ c, clA_eq m ρ c]

end FirstRegion

/-! ## The three adjacency passes, each on what the passes before it left -/

section Passes

variable (c : Dev nD)

theorem adj1_eq : adj1 (V2 m ρ) c = (m ((c.tc : Thread nD τ).loc main_arg1)) := Fold.r1_adj m ρ c
theorem feat1In_eq : feat1In (V2 m ρ) c = feat1 (m ((c.tc : Thread nD τ).loc main_arg0)) (m ((c.tc : Thread nD τ).loc main_arg10)) :=
  ((Fold.r1_feat m ρ c).trans (Prep.final_15 (V1 m ρ) c)).trans (feat1_eq m ρ c)
theorem hidden1_eq : hidden1 (V2 m ρ) c = hidden (m ((c.tc : Thread nD τ).loc main_arg0)) (m ((c.tc : Thread nD τ).loc main_arg2)) (m ((c.tc : Thread nD τ).loc main_arg3)) :=
  ((Fold.r1_hidden m ρ c).trans (Prep.final_14 (V1 m ρ) c)).trans (hidden_eq m ρ c)
theorem weight1_eq : weight1 (V2 m ρ) c = (m ((c.tc : Thread nD τ).loc main_arg11)) := Fold.r1_weight m ρ c

/-- The first pass leaves the graph branch's second feature matrix, -/
theorem feat2_arr : (dat1 (V2 m ρ) c).arrAt 5 cfg1.N = feat2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) (m ((c.tc : Thread nD τ).loc main_arg11)) := by
  rw [region1_eq (V2 m ρ) c, adj1_eq m ρ c, feat1In_eq m ρ c, hidden1_eq m ρ c, weight1_eq m ρ c]
  rfl

/-- and a copy of the adjacency. -/
theorem copy_arr : (dat1 (V2 m ρ) c).arrAt 4 cfg1.N = (m ((c.tc : Thread nD τ).loc main_arg1)) :=
  (region1_copy_eq (V2 m ρ) c).trans (adj1_eq m ρ c)

theorem adj2_eq : adj2 (V3 m ρ) c = (m ((c.tc : Thread nD τ).loc main_arg1)) := (Fold.r2_adj m ρ c).trans (copy_arr m ρ c)
theorem feat2In_eq : feat2In (V3 m ρ) c = feat2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) (m ((c.tc : Thread nD τ).loc main_arg11)) :=
  (Fold.r2_feat m ρ c).trans (feat2_arr m ρ c)
theorem embed2_eq : embed2 (V3 m ρ) c = embed (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  ((Fold.r2_embed m ρ c).trans (Prep.final_13 (V1 m ρ) c)).trans (embed_eq m ρ c)
theorem weight2_eq : weight2 (V3 m ρ) c = (m ((c.tc : Thread nD τ).loc main_arg12)) := Fold.r2_weight m ρ c

/-- The second pass leaves the third feature matrix. -/
theorem feat3_arr : (dat2 (V3 m ρ) c).arrAt 4 cfg2.N = feat3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) := by
  rw [region2_eq (V3 m ρ) c, adj2_eq m ρ c, feat2In_eq m ρ c, embed2_eq m ρ c, weight2_eq m ρ c]
  rfl

theorem adj3_eq : adj3 (V4 m ρ) c = (m ((c.tc : Thread nD τ).loc main_arg1)) := (Fold.r3_adj m ρ c).trans (copy_arr m ρ c)
theorem feat3In_eq : feat3In (V4 m ρ) c = feat3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) :=
  (Fold.r3_feat m ρ c).trans (feat3_arr m ρ c)

/-- The third pass leaves the prediction. -/
theorem predict_arr : (dat3 (V4 m ρ) c).arrAt 2 cfg3.N = predict (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) := by
  rw [region3_eq (V4 m ρ) c, adj3_eq m ρ c, feat3In_eq m ρ c]
  rfl

end Passes

/-! ## The four result arrays after the run -/

theorem recon_final (c : Dev nD) :
    W5 m ρ c (Proc.devRef .tc main_v4_0) = recon (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  ((Fold.out_recon m ρ c).trans (Prep.final_11 (V1 m ρ) c)).trans (recon_eq m ρ c)

theorem assign_final (c : Dev nD) :
    W5 m ρ c (Proc.devRef .tc main_v4_1) = assignExpanded (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg13)) :=
  ((Fold.out_assign m ρ c).trans (Prep.final_12 (V1 m ρ) c)).trans (assign_eq m ρ c)

theorem predict_final (c : Dev nD) :
    W5 m ρ c (Proc.devRef .tc main_v7) = predict (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) :=
  (Fold.out_predict m ρ c).trans (predict_arr m ρ c)

theorem embed_final (c : Dev nD) :
    W5 m ρ c (Proc.devRef .tc main_v4_2) = embed (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  ((Fold.out_embed m ρ c).trans (Prep.final_13 (V1 m ρ) c)).trans (embed_eq m ρ c)

/-- Every weakly fair execution of the kernel program terminates without a fault, and in every final memory the four
    result arrays are the network's reconstruction, soft assignment (distance expanded), prediction and embedding of
    the fourteen arguments, which are as launched. -/
theorem run_spec : θ_run (Cert.KernelIdeal.defs (F := Ideal)) (onTc (τ := τ) (main (F := Ideal))) ⟨m, fun _ => 0, ρ⟩
    (fun r => ∀ c : Dev nD,
      r.2.mem ((c.tc : Thread nD τ).loc main_v4_0) = recon (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v4_1) = assignExpanded (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg13))
      ∧ r.2.mem ((c.tc : Thread nD τ).loc main_v7) = predict (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12))
      ∧ r.2.mem ((c.tc : Thread nD τ).loc main_v4_2) = embed (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c main_v4_0 (by decide)).trans (recon_final m ρ c),
      (h c main_v4_1 (by decide)).trans (assign_final m ρ c),
      (h c main_v7 (by decide)).trans (predict_final m ρ c),
      (h c main_v4_2 (by decide)).trans (embed_final m ρ c),
      (h c main_arg0 (by decide)).trans (W5_main_arg0 m ρ c),
      (h c main_arg1 (by decide)).trans (W5_main_arg1 m ρ c),
      (h c main_arg2 (by decide)).trans (W5_main_arg2 m ρ c),
      (h c main_arg3 (by decide)).trans (W5_main_arg3 m ρ c),
      (h c main_arg4 (by decide)).trans (W5_main_arg4 m ρ c),
      (h c main_arg5 (by decide)).trans (W5_main_arg5 m ρ c),
      (h c main_arg6 (by decide)).trans (W5_main_arg6 m ρ c),
      (h c main_arg7 (by decide)).trans (W5_main_arg7 m ρ c),
      (h c main_arg8 (by decide)).trans (W5_main_arg8 m ρ c),
      (h c main_arg9 (by decide)).trans (W5_main_arg9 m ρ c),
      (h c main_arg10 (by decide)).trans (W5_main_arg10 m ρ c),
      (h c main_arg11 (by decide)).trans (W5_main_arg11 m ρ c),
      (h c main_arg12 (by decide)).trans (W5_main_arg12 m ρ c),
      (h c main_arg13 (by decide)).trans (W5_main_arg13 m ρ c)⟩)
    (Cert.Sdcn.Kern.run_exit m ρ)

end Cert.Sdcn.KernelValue

end
-- ==== Proof.Algebraic.lean ====
/-
  The two programs compute the same four arrays.

  From memories that agree on the fourteen argument arrays and satisfy the precondition, both programs run; each leaves
  in its four results the reconstruction, the soft assignment, the graph branch's prediction and the embedding of the
  specification as functions of its own arguments, and its arguments unchanged. The arguments agree, so the arrays
  agree — except that one program writes the soft assignment from the squared distance summed coordinate by coordinate
  and the other from its expansion |z|² − 2 (z · c) + |c|². Under the precondition every entry of the inputs is a real
  number, so is every entry of the embedding, and on real numbers the two forms of the distance are equal.
-/
import proofs.«117056_g54168127537287_cont_9to1c4b_553_2_alg».proof.Defs
import proofs.«117056_g54168127537287_cont_9to1c4b_553_2_alg».proof.Proof.RefRun
import proofs.«117056_g54168127537287_cont_9to1c4b_553_2_alg».proof.Proof.DistLaw
import proofs.«117056_g54168127537287_cont_9to1c4b_553_2_alg».proof.Proof.Finite
import proofs.«117056_g54168127537287_cont_9to1c4b_553_2_alg».proof.Proof.KernelValue
import proofs.«117056_g54168127537287_cont_9to1c4b_553_2_alg».proof.Proof.Gen.Kernel
import proofs.«117056_g54168127537287_cont_9to1c4b_553_2_alg».proof.Proof.Gen.KernelIdeal
import proofs.«117056_g54168127537287_cont_9to1c4b_553_2_alg».proof.Proof.Gen.ReferenceIdeal
import proofs.«117056_g54168127537287_cont_9to1c4b_553_2_alg».proof.Proof.Gen.Pre_finite_inputs
import proofs.«117056_g54168127537287_cont_9to1c4b_553_2_alg».proof.Proof.Gen.Kernel.Frame
import proofs.«117056_g54168127537287_cont_9to1c4b_553_2_alg».proof.Proof.Gen.KernelIdeal.Frame

noncomputable section

namespace Cert.Sdcn.Final

open Idealize.ShloMosaic Idealize.SL.Sem Cert.Sdcn

/-! ## Equal arguments give equal arrays -/

section Congr

variable {N D E Zd K : ℕ}

theorem recon_congr {x x' : Mat N D} {We1 We1' : Mat D E} {be1 be1' : Vect E} {Wz Wz' : Mat E Zd} {bz bz' : Vect Zd} {Wd1 Wd1' : Mat Zd E} {bd1 bd1' : Vect E} {Wxb Wxb' : Mat E D} {bxb bxb' : Vect D}
    (h0 : x' = x) (h1 : We1' = We1) (h2 : be1' = be1) (h3 : Wz' = Wz) (h4 : bz' = bz) (h5 : Wd1' = Wd1) (h6 : bd1' = bd1) (h7 : Wxb' = Wxb) (h8 : bxb' = bxb) :
    recon x' We1' be1' Wz' bz' Wd1' bd1' Wxb' bxb' = recon x We1 be1 Wz bz Wd1 bd1 Wxb bxb := by
  rw [h0, h1, h2, h3, h4, h5, h6, h7, h8]

theorem assign_congr {x x' : Mat N D} {We1 We1' : Mat D E} {be1 be1' : Vect E} {Wz Wz' : Mat E Zd} {bz bz' : Vect Zd} {cl cl' : Mat K Zd}
    (h0 : x' = x) (h1 : We1' = We1) (h2 : be1' = be1) (h3 : Wz' = Wz) (h4 : bz' = bz) (h5 : cl' = cl) :
    assign x' We1' be1' Wz' bz' cl' = assign x We1 be1 Wz bz cl := by
  rw [h0, h1, h2, h3, h4, h5]

theorem predict_congr {x x' : Mat N D} {adj adj' : Mat N N} {We1 We1' : Mat D E} {be1 be1' : Vect E} {Wz Wz' : Mat E Zd} {bz bz' : Vect Zd} {Wg1 Wg1' : Mat D E} {Wg2 Wg2' : Mat E Zd} {Wg3 Wg3' : Mat Zd K}
    (h0 : x' = x) (h1 : adj' = adj) (h2 : We1' = We1) (h3 : be1' = be1) (h4 : Wz' = Wz) (h5 : bz' = bz) (h6 : Wg1' = Wg1) (h7 : Wg2' = Wg2) (h8 : Wg3' = Wg3) :
    predict x' adj' We1' be1' Wz' bz' Wg1' Wg2' Wg3' = predict x adj We1 be1 Wz bz Wg1 Wg2 Wg3 := by
  rw [h0, h1, h2, h3, h4, h5, h6, h7, h8]

theorem embed_congr {x x' : Mat N D} {We1 We1' : Mat D E} {be1 be1' : Vect E} {Wz Wz' : Mat E Zd} {bz bz' : Vect Zd}
    (h0 : x' = x) (h1 : We1' = We1) (h2 : be1' = be1) (h3 : Wz' = Wz) (h4 : bz' = bz) :
    embed x' We1' be1' Wz' bz' = embed x We1 be1 Wz bz := by
  rw [h0, h1, h2, h3, h4]

end Congr

/-! ## The three frames -/

/-- The kernel program runs and leaves its arguments unchanged. -/
theorem frame_Kernel [Cert.Kernel.Facts] [Cert.Pre_finite_inputs.Facts] : Cert.frame_Kernel :=
  fun m ρ _ => Cert.Kernel.Gen.frame (F := Bits) m ρ

/-- So does its reading on the extended reals. -/
theorem frame_KernelIdeal [Cert.KernelIdeal.Facts] [Cert.Pre_finite_inputs.Facts] : Cert.frame_KernelIdeal :=
  fun m ρ _ => Cert.KernelIdeal.Gen.frame (F := Ideal) m ρ

/-- So does the reference program. -/
theorem frame_ReferenceIdeal [Cert.ReferenceIdeal.Facts] [Cert.Pre_finite_inputs.Facts] : Cert.frame_ReferenceIdeal :=
  Cert.Sdcn.RefRun.frame

/-! ## The two programs agree -/

/-- From agreeing arguments under the precondition both programs run and end with equal results and unchanged
    arguments. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.Sdcn.recon (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.Sdcn.assignExpanded (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg13)),
    fun c => Cert.Sdcn.predict (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.Sdcn.embed (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.Sdcn.KernelValue.run_spec m ρ, ?_⟩
  refine (θ_run (Cert.ReferenceIdeal.defs (F := Ideal)) _ _).mono (fun r h c => ?_) (Cert.Sdcn.RefRun.run_spec m' ρ')
  obtain ⟨e0, e1, e2, e3, e4, e5, e6, e7, e8, e9, e10, e11, e12, e13⟩ := hagree c
  obtain ⟨hx, hWe1, hbe1, hWz, hbz, hcl⟩ := Cert.Sdcn.Finite.reals_of_pre m hpre c
  exact ⟨(h c).1.trans (recon_congr e0 e2 e3 e4 e5 e6 e7 e8 e9),
    (h c).2.1.trans ((assign_congr e0 e2 e3 e4 e5 e13).trans (Cert.Sdcn.assign_eq_expanded hx hWe1 hbe1 hWz hbz hcl)),
    (h c).2.2.1.trans (predict_congr e0 e1 e2 e3 e4 e5 e10 e11 e12),
    (h c).2.2.2.1.trans (embed_congr e0 e2 e3 e4 e5),
    (h c).2.2.2.2⟩

/-- The five claims together, for any witnesses of the programs' stated side conditions. -/
theorem claim_parts [Cert.Kernel.Facts] [Cert.KernelIdeal.Facts] [Cert.ReferenceIdeal.Facts] [Cert.Pre_finite_inputs.Facts] :
    Cert.frame_Kernel ∧ Cert.frame_KernelIdeal ∧ Cert.frame_ReferenceIdeal ∧ Cert.preserves_Kernel_KernelIdeal
      ∧ Cert.algebraic_KernelIdeal_ReferenceIdeal :=
  ⟨frame_Kernel, frame_KernelIdeal, frame_ReferenceIdeal, trivial, algebraic⟩

end Cert.Sdcn.Final

end
-- ==== Proof.lean ====
/-
  A structural deep clustering network's forward pass, as a four-kernel TPU program and as plain array code, computes
  the same four arrays over the extended reals: the autoencoder's reconstruction, the Student-t soft assignment of the
  embedding to the cluster centres, the graph branch's softmax prediction, and the embedding itself.

  The kernel program first runs the autoencoder on blocks of 2000 rows (hidden layer, embedding, reconstruction), the
  soft assignment of each block, and the first graph feature product; then three passes over the adjacency matrix, each
  a block of rows of "adjacency times features", rectified, mixed half and half with the autoencoder's layer of the same
  width and multiplied by the next weight — the last pass ending in a row-wise softmax. Sixteen-bit copies of the
  adjacency and of the feature matrices change nothing on the extended reals. Every stage's entry (p, j) reads only row
  p of its matrix operand, so a block of rows of a stage is the stage of the block of rows, and the blocks of each
  output tile it: each output array of each region is one whole-array function of the arrays the region finds
  (Proof/PrepValue, Proof/PrepAssignValue, Proof/Regions12, Proof/Region3), and following the buffers from region to
  region (Proof/KernelFold, Proof/KernelRun) composes them into the specification (Proof/Spec, Proof/KernelValue).
  The reference's eighty array operations compose into the same specification (Proof/RefSpec, Proof/RefRun), except that
  it sums the squared differences (z − c)² where the kernel expands |z|² − 2·(z · c) + |c|²: these agree because the
  inputs are finite, hence the embedding and the centres are real (Proof/Finite, Proof/DistLaw). Nothing else uses the
  precondition. The ideal pass rewrote no operation, so the kernel's idealization is its own text.
-/
import proofs.«117056_g54168127537287_cont_9to1c4b_553_2_alg».proof.Defs
import proofs.«117056_g54168127537287_cont_9to1c4b_553_2_alg».proof.Proof.Algebraic
import proofs.«117056_g54168127537287_cont_9to1c4b_553_2_alg».proof.Proof.RefRun
import proofs.«117056_g54168127537287_cont_9to1c4b_553_2_alg».proof.Proof.Gen.Kernel
import proofs.«117056_g54168127537287_cont_9to1c4b_553_2_alg».proof.Proof.Gen.Kernel.Frame
import proofs.«117056_g54168127537287_cont_9to1c4b_553_2_alg».proof.Proof.Gen.KernelIdeal
import proofs.«117056_g54168127537287_cont_9to1c4b_553_2_alg».proof.Proof.Gen.KernelIdeal.Frame
import proofs.«117056_g54168127537287_cont_9to1c4b_553_2_alg».proof.Proof.Gen.ReferenceIdeal
import proofs.«117056_g54168127537287_cont_9to1c4b_553_2_alg».proof.Proof.Gen.Pre_finite_inputs
import proofs.«117056_g54168127537287_cont_9to1c4b_553_2_alg».proof.Proof.Gen.ReferenceIdeal.Run
import proofs.«117056_g54168127537287_cont_9to1c4b_553_2_alg».proof.Proof.Gen.ReferenceIdeal.Read
import Idealize.ShloMosaic.Adequacy
import Idealize.ShloMosaic.Init

noncomputable section

namespace Cert.Proof

open Idealize.ShloMosaic Idealize.SL.Sem

/-- The three programs run and keep their arguments; the kernel's idealization rewrote nothing; and the idealized
    kernel and reference end with equal results. -/
theorem claim : Cert.Claim :=
  ⟨Cert.Kernel.Gen.facts, Cert.KernelIdeal.Gen.facts, Cert.ReferenceIdeal.Gen.facts, Cert.Pre_finite_inputs.Gen.facts,
    Cert.Sdcn.Final.claim_parts⟩

end Cert.Proof

end
